-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2048x128 : Shape := ⟨2, ![2048, 128]⟩
abbrev S200000 : Shape := ⟨1, ![200000]⟩
abbrev S500000x2 : Shape := ⟨2, ![500000, 2]⟩
abbrev S65536x2 : Shape := ⟨2, ![65536, 2]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg17 : FVec F S256x128 .f32) (main_arg18 : FVec F S128 .f32) (main_v63 : IVec S_ 1) (main_v67 : IVec S_ 1) : IVec S_ 1 :=
  let main_v68 : IVec S_ 1 := andi main_v63 main_v67
  let main_v69 : FVec F S256x128 .f32 := Host.absf main_arg17
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg18
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg14 : FVec F S128 .f32) (main_arg15 : FVec F S128x128 .f32) (main_arg16 : FVec F S128 .f32) (main_arg17 : FVec F S256x128 .f32) (main_arg18 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg15
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg17 main_arg18 main_v63 main_v67

def fn_part2 {F : FTy → Type} [FloatOps F] (main_arg10 : FVec F S128 .f32) (main_arg11 : FVec F S256x128 .f32) (main_arg12 : FVec F S128 .f32) (main_arg13 : FVec F S128x128 .f32) (main_arg14 : FVec F S128 .f32) (main_arg15 : FVec F S128x128 .f32) (main_arg16 : FVec F S128 .f32) (main_arg17 : FVec F S256x128 .f32) (main_arg18 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg11
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_arg17 main_arg18 main_v48 main_v49 main_v50

def fn_part1 {F : FTy → Type} [FloatOps F] (main_arg7 : FVec F S128x128 .f32) (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) (main_arg15 : FVec F S128x128 .f32) (main_arg16 : FVec F S128 .f32) (main_arg17 : FVec F S256x128 .f32) (main_arg18 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_arg16 main_arg17 main_arg18 main_v33

def fn {F : FTy → Type} [FloatOps F] (main_arg0 : FVec F S200000x128 .f32) (main_arg1 : FVec F S2048x128 .f32) (main_arg2 : IVec S200000 32) (main_arg3 : IVec S500000x2 32) (main_arg4 : IVec S65536x2 32) (main_arg5 : FVec F S256x128 .f32) (main_arg6 : FVec F S128 .f32) (main_arg7 : FVec F S128x128 .f32) (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) (main_arg15 : FVec F S128x128 .f32) (main_arg16 : FVec F S128 .f32) (main_arg17 : FVec F S256x128 .f32) (main_arg18 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S256x128 .f32 := Host.absf main_arg5
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_arg18 main_v13 main_v16
-- ==== Kernel.lean ====
abbrev S200000x128 : Shape := ⟨2, ![200000, 128]⟩
abbrev S2048x128 : Shape := ⟨2, ![2048, 128]⟩
abbrev S200000 : Shape := ⟨1, ![200000]⟩
abbrev S500000x2 : Shape := ⟨2, ![500000, 2]⟩
abbrev S65536x2 : Shape := ⟨2, ![65536, 2]⟩
abbrev S256x128 : Shape := ⟨2, ![256, 128]⟩
abbrev S128 : Shape := ⟨1, ![128]⟩
abbrev S128x128 : Shape := ⟨2, ![128, 128]⟩
abbrev S500000x1 : Shape := ⟨2, ![500000, 1]⟩
abbrev S500000 : Shape := ⟨1, ![500000]⟩
abbrev S_ : Shape := ⟨0, ![]⟩
abbrev S500000x128 : Shape := ⟨2, ![500000, 128]⟩
abbrev S1x128 : Shape := ⟨2, ![1, 128]⟩
abbrev S4000x128 : Shape := ⟨2, ![4000, 128]⟩
abbrev S200000x1 : Shape := ⟨2, ![200000, 1]⟩
abbrev S2048 : Shape := ⟨1, ![2048]⟩
abbrev S2048x1 : Shape := ⟨2, ![2048, 1]⟩
abbrev S65536x1 : Shape := ⟨2, ![65536, 1]⟩
abbrev S65536 : Shape := ⟨1, ![65536]⟩
abbrev S65536x128 : Shape := ⟨2, ![65536, 128]⟩
abbrev S4096x128 : Shape := ⟨2, ![4096, 128]⟩

abbrev nBuf : Space → Nat
  | .hbm => 121
  | .vmem => 41
  | .smem => 0
  | _ => 0

abbrev bufTy : (tb : Table) → Fin (tcTables nBuf tb) → BufTy
  | .hbm, ⟨0, _⟩ => ⟨S200000x128, .f32⟩
  | .hbm, ⟨1, _⟩ => ⟨S2048x128, .f32⟩
  | .hbm, ⟨2, _⟩ => ⟨S200000, .i32⟩
  | .hbm, ⟨3, _⟩ => ⟨S500000x2, .i32⟩
  | .hbm, ⟨4, _⟩ => ⟨S65536x2, .i32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S256x128, .f32⟩
  | .hbm, ⟨18, _⟩ => ⟨S128, .f32⟩
  | .hbm, ⟨19, _⟩ => ⟨S200000x128, .bf16⟩
  | .hbm, ⟨20, _⟩ => ⟨S500000x1, .i32⟩
  | .hbm, ⟨21, _⟩ => ⟨S500000, .i32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x128, .bf16⟩
  | .hbm, ⟨31, _⟩ => ⟨S500000x1, .i32⟩
  | .hbm, ⟨32, _⟩ => ⟨S500000, .i32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000x128, .bf16⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S1x128, .f32⟩
  | .hbm, ⟨46, _⟩ => ⟨S500000x128, .f32⟩
  | .hbm, ⟨47, _⟩ => ⟨S500000x1, .i32⟩
  | .hbm, ⟨48, _⟩ => ⟨S500000, .i32⟩
  | .hbm, ⟨49, _⟩ => ⟨S_, .f32⟩
  | .hbm, ⟨50, _⟩ => ⟨S200000x128, .f32⟩
  | .hbm, ⟨51, _⟩ => ⟨S500000x1, .i32⟩
  | .hbm, ⟨52, _⟩ => ⟨S200000x128, .f32⟩
  | .hbm, ⟨53, _⟩ => ⟨S1x128, .f32⟩
  | .hbm, ⟨54, _⟩ => ⟨S200000x128, .f32⟩
  | .hbm, ⟨55, _⟩ => ⟨S_, .f32⟩
  | .hbm, ⟨56, _⟩ => ⟨S2048x128, .f32⟩
  | .hbm, ⟨57, _⟩ => ⟨S200000x1, .i32⟩
  | .hbm, ⟨58, _⟩ => ⟨S2048x128, .f32⟩
  | .hbm, ⟨59, _⟩ => ⟨S_, .f32⟩
  | .hbm, ⟨60, _⟩ => ⟨S200000, .f32⟩
  | .hbm, ⟨61, _⟩ => ⟨S_, .f32⟩
  | .hbm, ⟨62, _⟩ => ⟨S2048, .f32⟩
  | .hbm, ⟨63, _⟩ => ⟨S200000x1, .i32⟩
  | .hbm, ⟨64, _⟩ => ⟨S2048, .f32⟩
  | .hbm, ⟨65, _⟩ => ⟨S_, .f32⟩
  | .hbm, ⟨66, _⟩ => ⟨S2048, .f32⟩
  | .hbm, ⟨67, _⟩ => ⟨S2048, .f32⟩
  | .hbm, ⟨68, _⟩ => ⟨S2048x1, .f32⟩
  | .hbm, ⟨69, _⟩ => ⟨S2048x128, .f32⟩
  | .hbm, ⟨70, _⟩ => ⟨S2048x128, .f32⟩
  | .hbm, ⟨71, _⟩ => ⟨S2048x128, .bf16⟩
  | .hbm, ⟨72, _⟩ => ⟨S65536x1, .i32⟩
  | .hbm, ⟨73, _⟩ => ⟨S65536, .i32⟩
  | .hbm, ⟨74, _⟩ => ⟨S_, .i32⟩
  | .hbm, ⟨75, _⟩ => ⟨S65536, .i32⟩
  | .hbm, ⟨76, _⟩ => ⟨S65536, .i1⟩
  | .hbm, ⟨77, _⟩ => ⟨S_, .i32⟩
  | .hbm, ⟨78, _⟩ => ⟨S65536, .i32⟩
  | .hbm, ⟨79, _⟩ => ⟨S65536, .i32⟩
  | .hbm, ⟨80, _⟩ => ⟨S65536, .i32⟩
  | .hbm, ⟨81, _⟩ => ⟨S65536x1, .i32⟩
  | .hbm, ⟨82, _⟩ => ⟨S65536x128, .bf16⟩
  | .hbm, ⟨83, _⟩ => ⟨S65536x1, .i32⟩
  | .hbm, ⟨84, _⟩ => ⟨S65536, .i32⟩
  | .hbm, ⟨85, _⟩ => ⟨S_, .i32⟩
  | .hbm, ⟨86, _⟩ => ⟨S65536, .i32⟩
  | .hbm, ⟨87, _⟩ => ⟨S65536, .i1⟩
  | .hbm, ⟨88, _⟩ => ⟨S_, .i32⟩
  | .hbm, ⟨89, _⟩ => ⟨S65536, .i32⟩
  | .hbm, ⟨90, _⟩ => ⟨S65536, .i32⟩
  | .hbm, ⟨91, _⟩ => ⟨S65536, .i32⟩
  | .hbm, ⟨92, _⟩ => ⟨S65536x1, .i32⟩
  | .hbm, ⟨93, _⟩ => ⟨S65536x128, .bf16⟩
  | .hbm, ⟨94, _⟩ => ⟨S128x128, .f32⟩
  | .hbm, ⟨95, _⟩ => ⟨S128x128, .f32⟩
  | .hbm, ⟨96, _⟩ => ⟨S1x128, .f32⟩
  | .hbm, ⟨97, _⟩ => ⟨S1x128, .f32⟩
  | .hbm, ⟨98, _⟩ => ⟨S65536x128, .f32⟩
  | .hbm, ⟨99, _⟩ => ⟨S65536x1, .i32⟩
  | .hbm, ⟨100, _⟩ => ⟨S65536, .i32⟩
  | .hbm, ⟨101, _⟩ => ⟨S_, .f32⟩
  | .hbm, ⟨102, _⟩ => ⟨S2048x128, .f32⟩
  | .hbm, ⟨103, _⟩ => ⟨S65536x1, .i32⟩
  | .hbm, ⟨104, _⟩ => ⟨S2048x128, .f32⟩
  | .hbm, ⟨105, _⟩ => ⟨S1x128, .f32⟩
  | .hbm, ⟨106, _⟩ => ⟨S128x128, .f32⟩
  | .hbm, ⟨107, _⟩ => ⟨S128x128, .f32⟩
  | .hbm, ⟨108, _⟩ => ⟨S1x128, .f32⟩
  | .hbm, ⟨109, _⟩ => ⟨S2048x128, .bf16⟩
  | .hbm, ⟨110, _⟩ => ⟨S_, .i32⟩
  | .hbm, ⟨111, _⟩ => ⟨S200000, .i32⟩
  | .hbm, ⟨112, _⟩ => ⟨S200000, .i1⟩
  | .hbm, ⟨113, _⟩ => ⟨S_, .i32⟩
  | .hbm, ⟨114, _⟩ => ⟨S200000, .i32⟩
  | .hbm, ⟨115, _⟩ => ⟨S200000, .i32⟩
  | .hbm, ⟨116, _⟩ => ⟨S200000, .i32⟩
  | .hbm, ⟨117, _⟩ => ⟨S200000x1, .i32⟩
  | .hbm, ⟨118, _⟩ => ⟨S200000x128, .bf16⟩
  | .hbm, ⟨119, _⟩ => ⟨S200000x128, .bf16⟩
  | .hbm, ⟨120, _⟩ => ⟨S200000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S4000x128, .bf16⟩
  | .local _ .vmem, ⟨12, _⟩ => ⟨S4000x128, .bf16⟩
  | .local _ .vmem, ⟨13, _⟩ => ⟨S128x128, .f32⟩
  | .local _ .vmem, ⟨14, _⟩ => ⟨S1x128, .f32⟩
  | .local _ .vmem, ⟨15, _⟩ => ⟨S4000x128, .f32⟩
  | .local _ .vmem, ⟨16, _⟩ => ⟨S4000x128, .f32⟩
  | .local _ .vmem, ⟨17, _⟩ => ⟨S4096x128, .bf16⟩
  | .local _ .vmem, ⟨18, _⟩ => ⟨S4096x128, .bf16⟩
  | .local _ .vmem, ⟨19, _⟩ => ⟨S4096x128, .bf16⟩
  | .local _ .vmem, ⟨20, _⟩ => ⟨S4096x128, .bf16⟩
  | .local _ .vmem, ⟨21, _⟩ => ⟨S128x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S4096x128, .f32⟩
  | .local _ .vmem, ⟨27, _⟩ => ⟨S4096x128, .f32⟩
  | .local _ .vmem, ⟨28, _⟩ => ⟨S2048x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S2048x128, .bf16⟩
  | .local _ .vmem, ⟨33, _⟩ => ⟨S4000x128, .bf16⟩
  | .local _ .vmem, ⟨34, _⟩ => ⟨S4000x128, .bf16⟩
  | .local _ .vmem, ⟨35, _⟩ => ⟨S4000x128, .bf16⟩
  | .local _ .vmem, ⟨36, _⟩ => ⟨S4000x128, .bf16⟩
  | .local _ .vmem, ⟨37, _⟩ => ⟨S128x128, .f32⟩
  | .local _ .vmem, ⟨38, _⟩ => ⟨S1x128, .f32⟩
  | .local _ .vmem, ⟨39, _⟩ => ⟨S4000x128, .f32⟩
  | .local _ .vmem, ⟨40, _⟩ => ⟨S4000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c : Ref sig .tc := ⟨.hbm, 22, rfl⟩
abbrev main_v3 : Ref sig .tc := ⟨.hbm, 23, rfl⟩
abbrev main_v4 : Ref sig .tc := ⟨.hbm, 24, rfl⟩
abbrev main_c_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_7 : Ref sig .tc := ⟨.hbm, 74, rfl⟩
abbrev main_v46 : Ref sig .tc := ⟨.hbm, 75, rfl⟩
abbrev main_v47 : Ref sig .tc := ⟨.hbm, 76, rfl⟩
abbrev main_c_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_9 : Ref sig .tc := ⟨.hbm, 85, rfl⟩
abbrev main_v55 : Ref sig .tc := ⟨.hbm, 86, rfl⟩
abbrev main_v56 : Ref sig .tc := ⟨.hbm, 87, rfl⟩
abbrev main_c_10 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_11 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_12 : Ref sig .tc := ⟨.hbm, 110, rfl⟩
abbrev main_v77 : Ref sig .tc := ⟨.hbm, 111, rfl⟩
abbrev main_v78 : Ref sig .tc := ⟨.hbm, 112, rfl⟩
abbrev main_c_13 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg4_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc3_sem0_0 : DmaSem sig := 28
abbrev cc3_sem1_0 : DmaSem sig := 29
abbrev cc3_sem2_0 : DmaSem sig := 30
abbrev cc3_sem3_0 : DmaSem sig := 31
abbrev cc3_sem4_0 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem4_1 : DmaSem sig := 40

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4096x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2048x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2048x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  bitsLt_bf16_f32 : FTy.bits .bf16 < FTy.bits .f32
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  slices_S256x128_S128x128_0_0 : S256x128.Slices ![0, 0] S128x128
  slices_S256x128_S128x128_128_0 : S256x128.Slices ![128, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S200000x128 : S_.BroadcastsInDim S200000x128 (![] : Fin 0 → Fin S200000x128.rank)
  bcast_S_S2048x128 : S_.BroadcastsInDim S2048x128 (![] : Fin 0 → Fin S2048x128.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  slices_S65536x2_S65536x1_0_0 : S65536x2.Slices ![0, 0] S65536x1
  shapeCasts_S65536x1_S65536 : S65536x1.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  slices_S65536x2_S65536x1_0_1 : S65536x2.Slices ![0, 1] S65536x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S1x128_S4096x128 : S1x128.Broadcasts S4096x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1x128_S2048x128 : S1x128.Broadcasts S2048x128
  packedbf16_S2048x128_S2048x128_0_0 : (Rect.unit (s := S2048x128) ![0, 0] S2048x128.size inb_S2048x128_S2048x128_0_0).PackedRows (EltTy.packing .bf16)
  gather_S200000x128_S500000x1_S500000x128_1_0_n_n_0_1_1128_wf : GatherDims.WF S200000x128 S500000x1 S500000x128 [1] [0] [] [0] [] 1 ![1, 128]
  dot_S4000x128_S128x128_S4000x128_1_0_0_1_n_n_wf : DotDims.WF S4000x128 S128x128 S4000x128 [1] [0] [0] [1] [] []
  scatter_S200000x128_S500000x1_S500000x128_1_0_0_1_wf : ScatterDims.WF S200000x128 S500000x1 S500000x128 [1] [0] [0] 1
  scatter_S2048x128_S200000x1_S200000x128_1_0_0_1_wf : ScatterDims.WF S2048x128 S200000x1 S200000x128 [1] [0] [0] 1
  scatter_S2048_S200000x1_S200000_n_0_0_1_wf : ScatterDims.WF S2048 S200000x1 S200000 [] [0] [0] 1
  gather_S2048x128_S65536x1_S65536x128_1_0_n_n_0_1_1128_wf : GatherDims.WF S2048x128 S65536x1 S65536x128 [1] [0] [] [0] [] 1 ![1, 128]
  dot_S4096x128_S128x128_S4096x128_1_0_0_1_n_n_wf : DotDims.WF S4096x128 S128x128 S4096x128 [1] [0] [0] [1] [] []
  scatter_S2048x128_S65536x1_S65536x128_1_0_0_1_wf : ScatterDims.WF S2048x128 S65536x1 S65536x128 [1] [0] [0] 1
  dot_S2048x128_S128x128_S2048x128_1_0_0_1_n_n_wf : DotDims.WF S2048x128 S128x128 S2048x128 [1] [0] [0] [1] [] []
  gather_S2048x128_S200000x1_S200000x128_1_0_n_n_0_1_1128_wf : GatherDims.WF S2048x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .bf16 = 32 ∨ (Rect.block (s := S500000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .bf16 = 32 ∨ (Rect.block (s := S500000x128) S4000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S500000x128.size a
  hwx0_7 : ∀ i : grid0.Coords, EltTy.bits .f32 = 32 ∨ (Rect.block (s := S500000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .bf16 = 32 ∨ (Rect.block (s := S200000x128) S4000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S200000x128.size a
  hwx1_3 : ∀ i : grid1.Coords, EltTy.bits .f32 = 32 ∨ (Rect.block (s := S200000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S65536x128.size a
  hwx2_0 : ∀ i : grid2.Coords, EltTy.bits .bf16 = 32 ∨ (Rect.block (s := S65536x128) S4096x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S65536x128.size a
  hwx2_1 : ∀ i : grid2.Coords, EltTy.bits .bf16 = 32 ∨ (Rect.block (s := S65536x128) S4096x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4096x128.size a ≤ S65536x128.size a
  hwx2_7 : ∀ i : grid2.Coords, EltTy.bits .f32 = 32 ∨ (Rect.block (s := S65536x128) S4096x128.size (cc2_transform_7 i) (hinb2_7 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S2048x128.size a
  hwx3_0 : ∀ i : grid3.Coords, EltTy.bits .f32 = 32 ∨ (Rect.block (s := S2048x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2048x128.size a ≤ S2048x128.size a
  hwx3_4 : ∀ i : grid3.Coords, EltTy.bits .bf16 = 32 ∨ (Rect.block (s := S2048x128) S2048x128.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S200000x128.size a
  hwx4_0 : ∀ i : grid4.Coords, EltTy.bits .bf16 = 32 ∨ (Rect.block (s := S200000x128) S4000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S200000x128.size a
  hwx4_1 : ∀ i : grid4.Coords, EltTy.bits .bf16 = 32 ∨ (Rect.block (s := S200000x128) S4000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x128.size a ≤ S200000x128.size a
  hwx4_4 : ∀ i : grid4.Coords, EltTy.bits .f32 = 32 ∨ (Rect.block (s := S200000x128) S4000x128.size (cc4_transform_4 i) (hinb4_4 i)).WholeWords (EltTy.packing .f32)

variable [Facts₀]

def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def scatter_S2048x128_S200000x1_S200000x128_1_0_0_1 : ScatterDims S2048x128 S200000x1 S200000x128 where
  updateWindowDims := [1]
  insertedWindowDims := [0]
  scatterDimsToOperandDims := [0]
  indexVectorDim := 1
  wf := scatter_S2048x128_S200000x1_S200000x128_1_0_0_1_wf
def scatter_S2048_S200000x1_S200000_n_0_0_1 : ScatterDims S2048 S200000x1 S200000 where
  updateWindowDims := []
  insertedWindowDims := [0]
  scatterDimsToOperandDims := [0]
  indexVectorDim := 1
  wf := scatter_S2048_S200000x1_S200000_n_0_0_1_wf
def gather_S2048x128_S65536x1_S65536x128_1_0_n_n_0_1_1128 : GatherDims S2048x128 S65536x1 S65536x128 where
  offsetDims := [1]
  collapsedSliceDims := [0]
  operandBatchingDims := []
  startIndicesBatchingDims := []
  startIndexMap := [0]
  indexVectorDim := 1
  sliceSizes := ![1, 128]
  wf := gather_S2048x128_S65536x1_S65536x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S2048x128_S65536x1_S65536x128_1_0_0_1 : ScatterDims S2048x128 S65536x1 S65536x128 where
  updateWindowDims := [1]
  insertedWindowDims := [0]
  scatterDimsToOperandDims := [0]
  indexVectorDim := 1
  wf := scatter_S2048x128_S65536x1_S65536x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def gather_S2048x128_S200000x1_S200000x128_1_0_n_n_0_1_1128 : GatherDims S2048x128 S200000x1 S200000x128 where
  offsetDims := [1]
  collapsedSliceDims := [0]
  operandBatchingDims := []
  startIndicesBatchingDims := []
  startIndexMap := [0]
  indexVectorDim := 1
  sliceSizes := ![1, 128]
  wf := gather_S2048x128_S200000x1_S200000x128_1_0_n_n_0_1_1128_wf

abbrev win0_0 : Pipeline.Window sig grid0 :=
  Pipeline.Window.ofSpec (Memref.whole main_v9) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v52) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v66) S4096x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v71) S2048x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg15) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S2048x128.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v84) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v73) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85) S4000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S200000x128 : Shape := ⟨2, ![200000, 128]⟩
abbrev S2048x128 : Shape := ⟨2, ![2048, 128]⟩
abbrev S200000 : Shape := ⟨1, ![200000]⟩
abbrev S500000x2 : Shape := ⟨2, ![500000, 2]⟩
abbrev S65536x2 : Shape := ⟨2, ![65536, 2]⟩
abbrev S256x128 : Shape := ⟨2, ![256, 128]⟩
abbrev S128 : Shape := ⟨1, ![128]⟩
abbrev S128x128 : Shape := ⟨2, ![128, 128]⟩
abbrev S500000x1 : Shape := ⟨2, ![500000, 1]⟩
abbrev S500000 : Shape := ⟨1, ![500000]⟩
abbrev S_ : Shape := ⟨0, ![]⟩
abbrev S500000x128 : Shape := ⟨2, ![500000, 128]⟩
abbrev S500000x256 : Shape := ⟨2, ![500000, 256]⟩
abbrev S1x128 : Shape := ⟨2, ![1, 128]⟩
abbrev S200000x1 : Shape := ⟨2, ![200000, 1]⟩
abbrev S2048 : Shape := ⟨1, ![2048]⟩
abbrev S2048x1 : Shape := ⟨2, ![2048, 1]⟩
abbrev S65536x1 : Shape := ⟨2, ![65536, 1]⟩
abbrev S65536 : Shape := ⟨1, ![65536]⟩
abbrev S65536x128 : Shape := ⟨2, ![65536, 128]⟩
abbrev S65536x256 : Shape := ⟨2, ![65536, 256]⟩
abbrev S200000x256 : Shape := ⟨2, ![200000, 256]⟩

abbrev nBuf : Space → Nat
  | .hbm => 146
  | .vmem => 0
  | .smem => 0
  | _ => 0

abbrev hbmTy0_0 (i : Nat) : BufTy := match i % 128 with
  | 0 => ⟨S200000x128, .f32⟩
  | 1 => ⟨S2048x128, .f32⟩
  | 2 => ⟨S200000, .i32⟩
  | 3 => ⟨S500000x2, .i32⟩
  | 4 => ⟨S65536x2, .i32⟩
  | 5 => ⟨S256x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S256x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S256x128, .f32⟩
  | 18 => ⟨S128, .f32⟩
  | 19 => ⟨S500000x1, .i32⟩
  | 20 => ⟨S500000, .i32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x128, .f32⟩
  | 30 => ⟨S500000x1, .i32⟩
  | 31 => ⟨S500000, .i32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S500000x128, .f32⟩
  | 41 => ⟨S500000x256, .f32⟩
  | 42 => ⟨S500000x128, .f32⟩
  | 43 => ⟨S1x128, .f32⟩
  | 44 => ⟨S500000x128, .f32⟩
  | 45 => ⟨S500000x128, .f32⟩
  | 46 => ⟨S_, .f32⟩
  | 47 => ⟨S500000x128, .f32⟩
  | 48 => ⟨S500000x128, .f32⟩
  | 49 => ⟨S500000x128, .f32⟩
  | 50 => ⟨S1x128, .f32⟩
  | 51 => ⟨S500000x128, .f32⟩
  | 52 => ⟨S500000x128, .f32⟩
  | 53 => ⟨S500000x1, .i32⟩
  | 54 => ⟨S500000, .i32⟩
  | 55 => ⟨S_, .f32⟩
  | 56 => ⟨S200000x128, .f32⟩
  | 57 => ⟨S500000x1, .i32⟩
  | 58 => ⟨S200000x128, .f32⟩
  | 59 => ⟨S200000x128, .f32⟩
  | 60 => ⟨S1x128, .f32⟩
  | 61 => ⟨S200000x128, .f32⟩
  | 62 => ⟨S200000x128, .f32⟩
  | 63 => ⟨S_, .f32⟩
  | 64 => ⟨S200000x128, .f32⟩
  | 65 => ⟨S200000x128, .f32⟩
  | 66 => ⟨S_, .f32⟩
  | 67 => ⟨S2048x128, .f32⟩
  | 68 => ⟨S200000x1, .i32⟩
  | 69 => ⟨S2048x128, .f32⟩
  | 70 => ⟨S_, .f32⟩
  | 71 => ⟨S200000, .f32⟩
  | 72 => ⟨S_, .f32⟩
  | 73 => ⟨S2048, .f32⟩
  | 74 => ⟨S200000x1, .i32⟩
  | 75 => ⟨S2048, .f32⟩
  | 76 => ⟨S_, .f32⟩
  | 77 => ⟨S2048, .f32⟩
  | 78 => ⟨S2048, .f32⟩
  | 79 => ⟨S2048x1, .f32⟩
  | 80 => ⟨S2048x128, .f32⟩
  | 81 => ⟨S2048x128, .f32⟩
  | 82 => ⟨S65536x1, .i32⟩
  | 83 => ⟨S65536, .i32⟩
  | 84 => ⟨S_, .i32⟩
  | 85 => ⟨S65536, .i32⟩
  | 86 => ⟨S65536, .i1⟩
  | 87 => ⟨S_, .i32⟩
  | 88 => ⟨S65536, .i32⟩
  | 89 => ⟨S65536, .i32⟩
  | 90 => ⟨S65536, .i32⟩
  | 91 => ⟨S65536x1, .i32⟩
  | 92 => ⟨S65536x128, .f32⟩
  | 93 => ⟨S65536x1, .i32⟩
  | 94 => ⟨S65536, .i32⟩
  | 95 => ⟨S_, .i32⟩
  | 96 => ⟨S65536, .i32⟩
  | 97 => ⟨S65536, .i1⟩
  | 98 => ⟨S_, .i32⟩
  | 99 => ⟨S65536, .i32⟩
  | 100 => ⟨S65536, .i32⟩
  | 101 => ⟨S65536, .i32⟩
  | 102 => ⟨S65536x1, .i32⟩
  | 103 => ⟨S65536x128, .f32⟩
  | 104 => ⟨S65536x256, .f32⟩
  | 105 => ⟨S65536x128, .f32⟩
  | 106 => ⟨S1x128, .f32⟩
  | 107 => ⟨S65536x128, .f32⟩
  | 108 => ⟨S65536x128, .f32⟩
  | 109 => ⟨S_, .f32⟩
  | 110 => ⟨S65536x128, .f32⟩
  | 111 => ⟨S65536x128, .f32⟩
  | 112 => ⟨S65536x128, .f32⟩
  | 113 => ⟨S1x128, .f32⟩
  | 114 => ⟨S65536x128, .f32⟩
  | 115 => ⟨S65536x128, .f32⟩
  | 116 => ⟨S65536x1, .i32⟩
  | 117 => ⟨S65536, .i32⟩
  | 118 => ⟨S_, .f32⟩
  | 119 => ⟨S2048x128, .f32⟩
  | 120 => ⟨S65536x1, .i32⟩
  | 121 => ⟨S2048x128, .f32⟩
  | 122 => ⟨S_, .i32⟩
  | 123 => ⟨S200000, .i32⟩
  | 124 => ⟨S200000, .i1⟩
  | 125 => ⟨S_, .i32⟩
  | 126 => ⟨S200000, .i32⟩
  | 127 => ⟨S200000, .i32⟩
  | _ => ⟨S200000x128, .f32⟩

abbrev hbmTy0_1 (i : Nat) : BufTy := match i % 128 with
  | 0 => ⟨S200000, .i32⟩
  | 1 => ⟨S200000x1, .i32⟩
  | 2 => ⟨S200000x128, .f32⟩
  | 3 => ⟨S200000x128, .f32⟩
  | 4 => ⟨S1x128, .f32⟩
  | 5 => ⟨S200000x128, .f32⟩
  | 6 => ⟨S200000x128, .f32⟩
  | 7 => ⟨S_, .f32⟩
  | 8 => ⟨S200000x128, .f32⟩
  | 9 => ⟨S200000x128, .f32⟩
  | 10 => ⟨S200000x256, .f32⟩
  | 11 => ⟨S200000x128, .f32⟩
  | 12 => ⟨S1x128, .f32⟩
  | 13 => ⟨S200000x128, .f32⟩
  | 14 => ⟨S200000x128, .f32⟩
  | 15 => ⟨S_, .f32⟩
  | 16 => ⟨S200000x128, .f32⟩
  | 17 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call0_cst : Ref sig .tc := ⟨.hbm, 46, rfl⟩
abbrev main_call0_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call1_cst : Ref sig .tc := ⟨.hbm, 63, rfl⟩
abbrev main_call1_v0 : Ref sig .tc := ⟨.hbm, 64, rfl⟩
abbrev main_v37 : Ref sig .tc := ⟨.hbm, 65, rfl⟩
abbrev main_cst_3 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_4 : Ref sig .tc := ⟨.hbm, 70, rfl⟩
abbrev main_v41 : Ref sig .tc := ⟨.hbm, 71, rfl⟩
abbrev main_cst_5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_6 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_7 : Ref sig .tc := ⟨.hbm, 84, rfl⟩
abbrev main_v52 : Ref sig .tc := ⟨.hbm, 85, rfl⟩
abbrev main_v53 : Ref sig .tc := ⟨.hbm, 86, rfl⟩
abbrev main_c_8 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_9 : Ref sig .tc := ⟨.hbm, 95, rfl⟩
abbrev main_v61 : Ref sig .tc := ⟨.hbm, 96, rfl⟩
abbrev main_v62 : Ref sig .tc := ⟨.hbm, 97, rfl⟩
abbrev main_c_10 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_call2_cst : Ref sig .tc := ⟨.hbm, 109, rfl⟩
abbrev main_call2_v0 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_11 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_12 : Ref sig .tc := ⟨.hbm, 122, rfl⟩
abbrev main_v83 : Ref sig .tc := ⟨.hbm, 123, rfl⟩
abbrev main_v84 : Ref sig .tc := ⟨.hbm, 124, rfl⟩
abbrev main_c_13 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_call3_cst : Ref sig .tc := ⟨.hbm, 135, rfl⟩
abbrev main_call3_v0 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_call4_cst : Ref sig .tc := ⟨.hbm, 143, rfl⟩
abbrev main_call4_v0 : Ref sig .tc := ⟨.hbm, 144, rfl⟩
abbrev main_v100 : Ref sig .tc := ⟨.hbm, 145, rfl⟩

abbrev nD : Nat := 1
abbrev τ : Topo := Topo.v7x

variable {F : FTy → Type} [FloatOps F]

class Facts₀ : Prop where
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  concatenates_S500000x128_S500000x128_S500000x256_d1 : Shape.Concatenates [S500000x128, S500000x128] S500000x256 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S200000x128 : S_.BroadcastsInDim S200000x128 (![] : Fin 0 → Fin S200000x128.rank)
  bcast_S1x128_S200000x128_0_1 : S1x128.BroadcastsInDim S200000x128 (![0, 1] : Fin 2 → Fin S200000x128.rank)
  bcast_S_S2048x128 : S_.BroadcastsInDim S2048x128 (![] : Fin 0 → Fin S2048x128.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  slices_S65536x2_S65536x1_0_0 : S65536x2.Slices ![0, 0] S65536x1
  shapeCasts_S65536x1_S65536 : S65536x1.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  slices_S65536x2_S65536x1_0_1 : S65536x2.Slices ![0, 1] S65536x1
  concatenates_S65536x128_S65536x128_S65536x256_d1 : Shape.Concatenates [S65536x128, S65536x128] S65536x256 1
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  concatenates_S200000x128_S200000x128_S200000x256_d1 : Shape.Concatenates [S200000x128, S200000x128] S200000x256 1
  gather_S200000x128_S500000x1_S500000x128_1_0_n_n_0_1_1128_wf : GatherDims.WF S200000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x128_S500000x128_1_0_0_1_n_n_wf : DotDims.WF S500000x128 S128x128 S500000x128 [1] [0] [0] [1] [] []
  scatter_S200000x128_S500000x1_S500000x128_1_0_0_1_wf : ScatterDims.WF S200000x128 S500000x1 S500000x128 [1] [0] [0] 1
  dot_S200000x128_S128x128_S200000x128_1_0_0_1_n_n_wf : DotDims.WF S200000x128 S128x128 S200000x128 [1] [0] [0] [1] [] []
  scatter_S2048x128_S200000x1_S200000x128_1_0_0_1_wf : ScatterDims.WF S2048x128 S200000x1 S200000x128 [1] [0] [0] 1
  scatter_S2048_S200000x1_S200000_n_0_0_1_wf : ScatterDims.WF S2048 S200000x1 S200000 [] [0] [0] 1
  gather_S2048x128_S65536x1_S65536x128_1_0_n_n_0_1_1128_wf : GatherDims.WF S2048x128 S65536x1 S65536x128 [1] [0] [] [0] [] 1 ![1, 128]
  dot_S65536x256_S256x128_S65536x128_1_0_0_1_n_n_wf : DotDims.WF S65536x256 S256x128 S65536x128 [1] [0] [0] [1] [] []
  dot_S65536x128_S128x128_S65536x128_1_0_0_1_n_n_wf : DotDims.WF S65536x128 S128x128 S65536x128 [1] [0] [0] [1] [] []
  scatter_S2048x128_S65536x1_S65536x128_1_0_0_1_wf : ScatterDims.WF S2048x128 S65536x1 S65536x128 [1] [0] [0] 1
  gather_S2048x128_S200000x1_S200000x128_1_0_n_n_0_1_1128_wf : GatherDims.WF S2048x128 S200000x1 S200000x128 [1] [0] [] [0] [] 1 ![1, 128]
  dot_S200000x256_S256x128_S200000x128_1_0_0_1_n_n_wf : DotDims.WF S200000x256 S256x128 S200000x128 [1] [0] [0] [1] [] []

variable [Facts₀]

def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def scatter_S2048x128_S200000x1_S200000x128_1_0_0_1 : ScatterDims S2048x128 S200000x1 S200000x128 where
  updateWindowDims := [1]
  insertedWindowDims := [0]
  scatterDimsToOperandDims := [0]
  indexVectorDim := 1
  wf := scatter_S2048x128_S200000x1_S200000x128_1_0_0_1_wf
def scatter_S2048_S200000x1_S200000_n_0_0_1 : ScatterDims S2048 S200000x1 S200000 where
  updateWindowDims := []
  insertedWindowDims := [0]
  scatterDimsToOperandDims := [0]
  indexVectorDim := 1
  wf := scatter_S2048_S200000x1_S200000_n_0_0_1_wf
def gather_S2048x128_S65536x1_S65536x128_1_0_n_n_0_1_1128 : GatherDims S2048x128 S65536x1 S65536x128 where
  offsetDims := [1]
  collapsedSliceDims := [0]
  operandBatchingDims := []
  startIndicesBatchingDims := []
  startIndexMap := [0]
  indexVectorDim := 1
  sliceSizes := ![1, 128]
  wf := gather_S2048x128_S65536x1_S65536x128_1_0_n_n_0_1_1128_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def scatter_S2048x128_S65536x1_S65536x128_1_0_0_1 : ScatterDims S2048x128 S65536x1 S65536x128 where
  updateWindowDims := [1]
  insertedWindowDims := [0]
  scatterDimsToOperandDims := [0]
  indexVectorDim := 1
  wf := scatter_S2048x128_S65536x1_S65536x128_1_0_0_1_wf
def gather_S2048x128_S200000x1_S200000x128_1_0_n_n_0_1_1128 : GatherDims S2048x128 S200000x1 S200000x128 where
  offsetDims := [1]
  collapsedSliceDims := [0]
  operandBatchingDims := []
  startIndicesBatchingDims := []
  startIndexMap := [0]
  indexVectorDim := 1
  sliceSizes := ![1, 128]
  wf := gather_S2048x128_S200000x1_S200000x128_1_0_n_n_0_1_1128_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf

class Facts : Prop extends Facts₀ where

variable [Facts]
-- ==== Proof.KRun.lean ====
/-
  The idealized kernel's run with its result named.

  Every weakly fair execution of the program from a memory with zero counters terminates without a fault; in the final
  state the result buffer holds what the last boundary of the program's fold through its ten segments (five stretches
  of host operations, five tiled regions) assigns to it, and every argument array is as launched. The fold's value at
  the result buffer is computed separately.
-/
import proofs.«162206_j37220186587417_2_alg».proof.Proof.Gen.KernelIdeal.Frame

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result buffer read off the last boundary's contents beside the argument arrays. -/
theorem run_value : θ_run defs (onTc (τ := τ) (main (F := F))) ⟨m, fun _ => 0, ρ⟩ (fun r => ∀ c : Dev nD,
      r.2.mem ((c.tc : Thread nD τ).loc main_v85) = W10 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v85 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c)⟩)

end Cert.KernelIdeal.Value

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.LibDenseRows.lean ====
/-
  Dense stages of a graph network read entry by entry, at exact (extended real) values.

    mm X W       entry (p, q) = Σ_k X[p, k] · W[k, q]        the matrix product
    act A b      entry (p, k) = max(A[p, k] + b[k], 0)        a bias laid along every row, then the rectifier
    addRow A b   entry (p, k) = A[p, k] + b[k]                a bias laid along every row

  A tiled body multiplies one block of rows by a whole weight matrix on the matrix unit, its operands narrowed to half
  precision first (at exact values the narrowing changes nothing) and its accumulator zero; a host program takes the
  whole product by a dot product. Both are read here at one entry as the same sum over the contracted index. The bias
  reaches the tiled body as a one-row matrix broadcast down the rows and the host program as a vector broadcast twice.
-/
import Idealize.ShloMosaic.PureOps.Ideal.Laws
import Idealize.ShloMosaic.Lib.ValueIdx
import Idealize.ShloMosaic.Lib.ValueLayout
import Idealize.ShloMosaic.Lib.Pipeline.Value
import proofs.«162206_j37220186587417_2_alg».proof.Proof.LibPlainContract
import proofs.«162206_j37220186587417_2_alg».proof.Proof.LibLreluRows

noncomputable section

namespace Cert.Dense

open Idealize.ShloMosaic Idealize.ShloMosaic.ValueIdx

variable {N K C : Nat}

/-- An N-by-K array of extended reals. -/
abbrev Mat (N K : Nat) : Type := (⟨2, ![N, K]⟩ : Shape).Idx → EReal
/-- A vector of K extended reals. -/
abbrev Row (K : Nat) : Type := (⟨1, ![K]⟩ : Shape).Idx → EReal

/-- The row and the column of an entry. -/
abbrev rowOf (i : (⟨2, ![N, K]⟩ : Shape).Idx) : Fin N := ⟨(i 0).val, idx2_lt0 i⟩
abbrev colOf (i : (⟨2, ![N, K]⟩ : Shape).Idx) : Fin K := ⟨(i 1).val, idx2_lt1 i⟩

/-- The matrix product. -/
def mm (X : Mat N K) (W : Mat K C) : Mat N C := fun i => ∑ k : Fin K, X (ix2 (rowOf i) k) * W (ix2 k (colOf i))
/-- A bias along every row, then the rectifier. -/
def act (A : Mat N K) (b : Row K) : Mat N K := fun i => max (A i + b (ix1 (colOf i))) 0
/-- A bias along every row. -/
def addRow (A : Mat N K) (b : Row K) : Mat N K := fun i => A i + b (ix1 (colOf i))

/-- A one-row bias along every row, then the rectifier. -/
def actRow (A : Mat N K) (b : Mat 1 K) : Mat N K := fun i => max (A i + b (ix2 (0 : Fin 1) (colOf i))) 0
/-- A one-row bias along every row. -/
def addRowRow (A : Mat N K) (b : Mat 1 K) : Mat N K := fun i => A i + b (ix2 (0 : Fin 1) (colOf i))

/-- The one-row bias that is a vector cast to a one-row matrix acts as the vector. -/
theorem actRow_cast (A : Mat N K) (v : Row K) (h : (⟨1, ![K]⟩ : Shape).ShapeCasts ⟨2, ![1, K]⟩) :
    actRow A (shapeCast ⟨2, ![1, K]⟩ v h) = act A v := by
  funext i
  exact congrArg (fun z => max (A i + z) 0) (Cert.LibLreluRows.rowCast_apply h v (colOf i))
theorem addRowRow_cast (A : Mat N K) (v : Row K) (h : (⟨1, ![K]⟩ : Shape).ShapeCasts ⟨2, ![1, K]⟩) :
    addRowRow A (shapeCast ⟨2, ![1, K]⟩ v h) = addRow A v := by
  funext i
  exact congrArg (fun z => A i + z) (Cert.LibLreluRows.rowCast_apply h v (colOf i))

theorem mm_apply (X : Mat N K) (W : Mat K C) (p : Fin N) (q : Fin C) :
    mm X W (ix2 p q) = ∑ k : Fin K, X (ix2 p k) * W (ix2 k q) := rfl
theorem act_apply (A : Mat N K) (b : Row K) (p : Fin N) (k : Fin K) :
    act A b (ix2 p k) = max (A (ix2 p k) + b (ix1 k)) 0 := rfl
theorem addRow_apply (A : Mat N K) (b : Row K) (p : Fin N) (k : Fin K) :
    addRow A b (ix2 p k) = A (ix2 p k) + b (ix1 k) := rfl
theorem actRow_apply (A : Mat N K) (b : Mat 1 K) (p : Fin N) (k : Fin K) :
    actRow A b (ix2 p k) = max (A (ix2 p k) + b (ix2 (0 : Fin 1) k)) 0 := rfl
theorem addRowRow_apply (A : Mat N K) (b : Mat 1 K) (p : Fin N) (k : Fin K) :
    addRowRow A b (ix2 p k) = A (ix2 p k) + b (ix2 (0 : Fin 1) k) := rfl

/-! ## The tiled body's stages at one entry -/

/-- The matrix unit's product of two narrowed operands into the zero accumulator is the plain sum. -/
theorem tileProduct_apply (M K C : Nat) (prec : Option ContractPrecision)
    (h0 h1 : FTy.bf16.bits < FTy.f32.bits)
    (x : FVec Ideal ⟨2, ![M, K]⟩ .f32) (w : FVec Ideal ⟨2, ![K, C]⟩ .f32) (p : Fin M) (q : Fin C) :
    matmul (DotDims.plain M K C) prec (truncf .bf16 x h0) (truncf .bf16 w h1)
        (constant ⟨2, ![M, C]⟩ .f32 0x00000000#32) (ix2 p q)
      = ∑ k : Fin K, x (ix2 p k) * w (ix2 k q) :=
  Cert.LibPlainContract.matmul_plain_apply M K C prec (truncf .bf16 x h0) (truncf .bf16 w h1) p q

/-- A block of rows plus a one-row bias broadcast down the rows, rectified against a splat zero, at one entry. -/
theorem tileAct_apply (M K : Nat)
    (hs0 : (⟨2, ![M, K]⟩ : Shape).ShapeCasts ⟨2, ![M, K]⟩) (hs1 : (⟨2, ![1, K]⟩ : Shape).ShapeCasts ⟨2, ![1, K]⟩)
    (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    maximumf (addf (shapeCast ⟨2, ![M, K]⟩ x hs0) (broadcastTo ⟨2, ![M, K]⟩ (shapeCast ⟨2, ![1, K]⟩ b hs1) hb))
        (broadcast ⟨2, ![M, K]⟩ (Scalar.ofBits (F := Ideal) .f32 0x00000000#32)) (ix2 p k)
      = max (x (ix2 p k) + b (ix2 (0 : Fin 1) k)) 0 := by
  show max (shapeCast ⟨2, ![M, K]⟩ x hs0 (ix2 p k) + broadcastTo ⟨2, ![M, K]⟩ (shapeCast ⟨2, ![1, K]⟩ b hs1) hb (ix2 p k))
      (Ideal.ofBits .f32 0x00000000#32) = _
  rw [shapeCast_self, Cert.LibLreluRows.rowDown_apply, Ideal.ofBits_zero_f32]

/-- A block of rows plus a one-row bias broadcast down the rows (no rectifier), at one entry. -/
theorem tileAddRow_apply (M K : Nat)
    (hs1 : (⟨2, ![1, K]⟩ : Shape).ShapeCasts ⟨2, ![1, K]⟩) (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    addf x (broadcastTo ⟨2, ![M, K]⟩ (shapeCast ⟨2, ![1, K]⟩ b hs1) hb) (ix2 p k)
      = x (ix2 p k) + b (ix2 (0 : Fin 1) k) := by
  show x (ix2 p k) + broadcastTo ⟨2, ![M, K]⟩ (shapeCast ⟨2, ![1, K]⟩ b hs1) hb (ix2 p k) = _
  rw [Cert.LibLreluRows.rowDown_apply]

/-- The rectifier against a splat zero, at one entry. -/
theorem tileRelu_apply (M K : Nat) (x : FVec Ideal ⟨2, ![M, K]⟩ .f32) (i : (⟨2, ![M, K]⟩ : Shape).Idx) :
    maximumf x (broadcast ⟨2, ![M, K]⟩ (Scalar.ofBits (F := Ideal) .f32 0x00000000#32)) i = max (x i) 0 := by
  show max (x i) (Ideal.ofBits .f32 0x00000000#32) = _
  rw [Ideal.ofBits_zero_f32]

/-! ## The host program's stages at one entry -/

/-- The host's dot product of two matrices is the plain sum. -/
theorem hostProduct_apply (M K C : Nat) (prec : Option ContractPrecision)
    (x : FVec Ideal ⟨2, ![M, K]⟩ .f32) (w : FVec Ideal ⟨2, ![K, C]⟩ .f32) (p : Fin M) (q : Fin C) :
    Host.dotGeneral (DotDims.plain M K C) prec x w (ix2 p q) = ∑ k : Fin K, x (ix2 p k) * w (ix2 k q) := by
  simp only [Host.dotGeneral]
  exact Cert.LibPlainContract.dotGeneral_plain_apply M K C prec _ x w p q

/-- A bias vector broadcast to a one-row matrix and down the rows, added, at one entry. -/
theorem hostAddRow_apply (M K : Nat) (h1 : (⟨1, ![K]⟩ : Shape).BroadcastsInDim ⟨2, ![1, K]⟩ ![1])
    (h2 : (⟨2, ![1, K]⟩ : Shape).BroadcastsInDim ⟨2, ![M, K]⟩ ![0, 1])
    (x : FVec Ideal ⟨2, ![M, K]⟩ .f32) (b : FVec Ideal ⟨1, ![K]⟩ .f32) (p : Fin M) (k : Fin K) :
    addf x (broadcastInDim ⟨2, ![M, K]⟩ ![0, 1] h2 (broadcastInDim ⟨2, ![1, K]⟩ ![1] h1 b)) (ix2 p k)
      = x (ix2 p k) + b (ix1 k) := by
  show x (ix2 p k) + broadcastInDim ⟨2, ![M, K]⟩ ![0, 1] h2 (broadcastInDim ⟨2, ![1, K]⟩ ![1] h1 b) (ix2 p k) = _
  rw [Cert.LibLreluRows.biasRows_apply]

/-- The rectifier against a rank-0 zero broadcast over the array, at one entry. -/
theorem hostRelu_apply (M K : Nat) (h : (⟨0, ![]⟩ : Shape).BroadcastsInDim ⟨2, ![M, K]⟩ ![])
    (x : FVec Ideal ⟨2, ![M, K]⟩ .f32) (i : (⟨2, ![M, K]⟩ : Shape).Idx) :
    maximumf x (broadcastInDim ⟨2, ![M, K]⟩ ![] h (constant (F := Ideal) ⟨0, ![]⟩ .f32 0x00000000#32)) i = max (x i) 0 := by
  show max (x i) (Ideal.ofBits .f32 0x00000000#32) = _
  rw [Ideal.ofBits_zero_f32]

end Cert.Dense

end
-- ==== Proof.NetSpec.lean ====
/-
  The dense stages of the two-level message-passing network, as whole-array functions at exact (extended real) values.

  Every stage acts row by row on a matrix of feature rows of width 128:

    edge S R A B b W d    row e = (max(S[e]·A + R[e]·B + b, 0))·W + d     an edge's message from its two end rows
    lin X W b             row n = max(X[n]·W + b, 0)                       a rectified linear layer
    hoist M W b U         row c = (max(M[c]·W + b, 0))·U                   a rectified layer followed by a projection
    fin P Q W b           row n = max(P[n]·W + Q[n] + b, 0)                the last layer with its lower half precomputed

  The first-layer weights of an edge act on the two end rows separately (A on the sender, B on the receiver): a
  concatenated row [s, r] times the stacked matrix [A; B] is s·A + r·B.
-/
import proofs.«162206_j37220186587417_2_alg».proof.Proof.LibDenseRows

noncomputable section

namespace Cert.Net

open Idealize.ShloMosaic Idealize.ShloMosaic.ValueIdx Cert.Dense

variable {E : Nat}

/-- The sum of two matrices, entry by entry. -/
def plus (A B : Mat E 128) : Mat E 128 := fun i => A i + B i

/-- An edge's message: both end rows through their halves of the first layer, bias, rectifier, second layer, bias. -/
def edge (S R : Mat E 128) (A B : Mat 128 128) (b : Mat 1 128) (W : Mat 128 128) (d : Mat 1 128) : Mat E 128 :=
  addRowRow (mm (actRow (plus (mm S A) (mm R B)) b) W) d

/-- A rectified linear layer. -/
def lin (X : Mat E 128) (W : Mat 128 128) (b : Mat 1 128) : Mat E 128 := actRow (mm X W) b

/-- A rectified linear layer followed by a projection. -/
def hoist (M : Mat E 128) (W : Mat 128 128) (b : Mat 1 128) (U : Mat 128 128) : Mat E 128 := mm (actRow (mm M W) b) U

/-- The last layer: the upper half of the product taken here, the lower half handed in, bias, rectifier. -/
def fin (P Q : Mat E 128) (W : Mat 128 128) (b : Mat 1 128) : Mat E 128 := actRow (plus (mm P W) Q) b

theorem plus_apply (A B : Mat E 128) (p : Fin E) (q : Fin 128) : plus A B (ix2 p q) = A (ix2 p q) + B (ix2 p q) := rfl

theorem edge_apply (S R : Mat E 128) (A B : Mat 128 128) (b : Mat 1 128) (W : Mat 128 128) (d : Mat 1 128)
    (p : Fin E) (q : Fin 128) :
    edge S R A B b W d (ix2 p q)
      = (∑ k : Fin 128, max (((∑ j : Fin 128, S (ix2 p j) * A (ix2 j k)) + (∑ j : Fin 128, R (ix2 p j) * B (ix2 j k)))
            + b (ix2 (0 : Fin 1) k)) 0 * W (ix2 k q)) + d (ix2 (0 : Fin 1) q) := rfl

theorem lin_apply (X : Mat E 128) (W : Mat 128 128) (b : Mat 1 128) (p : Fin E) (q : Fin 128) :
    lin X W b (ix2 p q) = max ((∑ j : Fin 128, X (ix2 p j) * W (ix2 j q)) + b (ix2 (0 : Fin 1) q)) 0 := rfl

theorem hoist_apply (M : Mat E 128) (W : Mat 128 128) (b : Mat 1 128) (U : Mat 128 128) (p : Fin E) (q : Fin 128) :
    hoist M W b U (ix2 p q)
      = ∑ k : Fin 128, max ((∑ j : Fin 128, M (ix2 p j) * W (ix2 j k)) + b (ix2 (0 : Fin 1) k)) 0 * U (ix2 k q) := rfl

theorem fin_apply (P Q : Mat E 128) (W : Mat 128 128) (b : Mat 1 128) (p : Fin E) (q : Fin 128) :
    fin P Q W b (ix2 p q)
      = max (((∑ j : Fin 128, P (ix2 p j) * W (ix2 j q)) + Q (ix2 p q)) + b (ix2 (0 : Fin 1) q)) 0 := rfl

end Cert.Net

end
-- ==== Proof.LibGatherRows.lean ====
/-
  A gather of whole rows, and of single entries, at a column of start indices.

  Indexing a table x of N rows and C columns at an integer vector idx of length P (x[idx]) lowers to a gather whose
  start indices form a P-by-1 column: result entry (p, c) is x at (r, c), where the row r is the start index idx[p, 0]
  read as a signed integer and clamped into [0, N - 1]. Indexing a vector v of length N the same way gives, at p, the
  entry v[r] at the same clamped row r. Both reads are stated through one name for the clamped row, so that two
  gathers at one index column are seen to read the same row.
-/
import Idealize.ShloMosaic.Lib.ValueIdx

namespace Cert.LibGatherRows

open Idealize.ShloMosaic Idealize.ShloMosaic.ValueIdx

variable {α : Type}

/-- The row a start index names: the integer idx[p, 0] read signed and clamped into [0, N - 1]. -/
def clampRow {N P w : Nat} (hN : 0 < N) (idx : IVec ⟨2, ![P, 1]⟩ w) (p : Fin P) : Fin N :=
  ⟨min (idx (ix2 p (0 : Fin 1))).toInt.toNat (N - 1), by omega⟩

/-- The dimension numbers of x[idx] for a table x : [N, C] and a column of start indices [P, 1]: the row axis is
    collapsed and indexed, the column axis is carried whole. -/
abbrev rowsDims (N C P : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- The dimension numbers of v[idx] for a vector v : [N] and a column of start indices [P, 1]. -/
abbrev entriesDims (N P : Nat)
    (wf : GatherDims.WF ⟨1, ![N]⟩ ⟨2, ![P, 1]⟩ ⟨1, ![P]⟩ [] [0] [] [0] [] 1 ![1]) :
    GatherDims ⟨1, ![N]⟩ ⟨2, ![P, 1]⟩ ⟨1, ![P]⟩ where
  offsetDims := []
  collapsedSliceDims := [0]
  operandBatchingDims := []
  startIndicesBatchingDims := []
  startIndexMap := [0]
  indexVectorDim := 1
  sliceSizes := ![1]
  wf := wf

/-- The gather of rows read at (p, c): the table at (the clamped row of idx[p, 0], c). -/
theorem gather_rows_apply {N C P w : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ w) (p : Fin P) (c : Fin C) :
    Host.gather (rowsDims N C P wf) x idx (ix2 p c) = x (ix2 (clampRow hN idx p) c) := by
  unfold Host.gather
  congr 1
  funext a
  refine Fin.ext ?_
  match a with
  | ⟨0, _⟩ =>
    show (rowsDims N C P wf).start (ix2 p c) idx 0 + (rowsDims N C P wf).batchCoord (ix2 p c) 0
      + (rowsDims N C P wf).offCoord (ix2 p c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C P wf).startIndexMap from List.mem_singleton.mpr rfl)]
    have hsi : (rowsDims N C P wf).siIdx (ix2 p c) ⟨List.idxOf (0 : Fin 2) (rowsDims N C P wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowsDims N C P wf).start (ix2 p c) idx 1 + (rowsDims N C P wf).batchCoord (ix2 p c) 1
      + (rowsDims N C P wf).offCoord (ix2 p c) 1 = c.val
    rw [GatherDims.batchCoord_eq_zero _ _ _ List.not_mem_nil]
    have hs : (rowsDims N C P wf).start (ix2 p c) idx 1 = 0 := by
      unfold GatherDims.start
      rw [dif_neg (show (1 : Fin 2) ∉ ([0] : List (Fin 2)) by decide)]
    rw [hs]
    have hk : (1 : Fin 2) ∈ (rowsDims N C P wf).sKept :=
      (GatherDims.mem_sKept _ _).mpr ⟨(show (1 : Fin 2) ∉ ([0] : List (Fin 2)) by decide), List.not_mem_nil⟩
    unfold GatherDims.offCoord
    rw [dif_pos hk, Nat.zero_add]
    have hz : ∀ z : Fin (⟨2, ![P, C]⟩ : Shape).rank, z = 1 → (ix2 p c z).val = c.val := by
      intro z hz; subst hz; rfl
    exact hz _ (List.mem_singleton.mp (List.getElem_mem _))

/-- The gather of entries read at p: the vector at the clamped row of idx[p, 0]. -/
theorem gather_entries_apply {N P w : Nat} (hN : 0 < N)
    (wf : GatherDims.WF ⟨1, ![N]⟩ ⟨2, ![P, 1]⟩ ⟨1, ![P]⟩ [] [0] [] [0] [] 1 ![1])
    (v : (⟨1, ![N]⟩ : Shape).Idx → α) (idx : IVec ⟨2, ![P, 1]⟩ w) (p : Fin P) :
    Host.gather (entriesDims N P wf) v idx (ix1 p) = v (ix1 (clampRow hN idx p)) := by
  unfold Host.gather
  congr 1
  funext a
  obtain rfl : a = 0 := Subsingleton.elim _ _
  refine Fin.ext ?_
  show (entriesDims N P wf).start (ix1 p) idx 0 + (entriesDims N P wf).batchCoord (ix1 p) 0
    + (entriesDims N P wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N P wf).startIndexMap from List.mem_singleton.mpr rfl)]
  have hsi : (entriesDims N P wf).siIdx (ix1 p) ⟨List.idxOf (0 : Fin 1) (entriesDims N P wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

end Cert.LibGatherRows
-- ==== Proof.HostStages.lean ====
/-
  The reference program's dense stages, as whole-array equalities at exact (extended real) values.

  A host program computes each stage of the network as a chain of whole-array operations: a dot product, a bias vector
  broadcast along every row and added, a rectifier against a broadcast zero, and, where a stage takes two feature rows,
  a concatenation of the two row matrices along the feature axis followed by one product with a stacked weight matrix.
  Each such chain is shown here to be the corresponding network function at every entry:

    a concatenated row [s, r] times the stacked matrix [A; B] is s·A + r·B   (a sum over 256 = 128 + 128 indices, split);
    a gather of whole rows commutes with any function that acts row by row   (both sides read the same clamped row).
-/
import Idealize.ShloMosaic.PureOps.Ideal.Laws
import Idealize.ShloMosaic.Lib.ValueIdx
import Idealize.ShloMosaic.Lib.ValueLayout
import Idealize.ShloMosaic.Lib.Pipeline.Value
import proofs.«162206_j37220186587417_2_alg».proof.Proof.NetSpec
import proofs.«162206_j37220186587417_2_alg».proof.Proof.LibDenseRows
import proofs.«162206_j37220186587417_2_alg».proof.Proof.LibGatherRows

noncomputable section

namespace Cert.Net

open Idealize.ShloMosaic Idealize.ShloMosaic.ValueIdx Cert.Dense

variable {E : Nat}

/-! ## Whole-array forms of the host's single stages -/

/-- The host's dot product of two matrices is the matrix product. -/
theorem hostProduct_eq (M K C : Nat) (prec : Option ContractPrecision)
    (x : FVec Ideal ⟨2, ![M, K]⟩ .f32) (w : FVec Ideal ⟨2, ![K, C]⟩ .f32) :
    Host.dotGeneral (DotDims.plain M K C) prec x w = mm x w := by
  funext i
  obtain ⟨p, q, rfl⟩ : ∃ (p : Fin M) (q : Fin C), i = ix2 p q := ⟨i 0, i 1, eq_ix2 i⟩
  rw [hostProduct_apply, mm_apply]

/-- A bias vector laid along every row and added, then the rectifier against a broadcast zero, is the rectified
    one-row bias of the vector read as a one-row matrix. -/
theorem hostAct_eq {M K : Nat} (A : FVec Ideal ⟨2, ![M, K]⟩ .f32) (b : FVec Ideal ⟨1, ![K]⟩ .f32)
    (hv : (⟨1, ![K]⟩ : Shape).BroadcastsInDim ⟨2, ![1, K]⟩ ![1])
    (hd : (⟨2, ![1, K]⟩ : Shape).BroadcastsInDim ⟨2, ![M, K]⟩ ![0, 1])
    (hz : (⟨0, ![]⟩ : Shape).BroadcastsInDim ⟨2, ![M, K]⟩ ![])
    (hr : (⟨1, ![K]⟩ : Shape).ShapeCasts ⟨2, ![1, K]⟩) :
    maximumf (addf A (broadcastInDim ⟨2, ![M, K]⟩ ![0, 1] hd (broadcastInDim ⟨2, ![1, K]⟩ ![1] hv b)))
        (broadcastInDim ⟨2, ![M, K]⟩ ![] hz (constant (F := Ideal) ⟨0, ![]⟩ .f32 0x00000000#32))
      = actRow A (shapeCast ⟨2, ![1, K]⟩ b hr) := by
  funext i
  obtain ⟨p, q, rfl⟩ : ∃ (p : Fin M) (q : Fin K), i = ix2 p q := ⟨i 0, i 1, eq_ix2 i⟩
  rw [hostRelu_apply, hostAddRow_apply, actRow_apply, Cert.LibLreluRows.rowCast_apply]

/-- A bias vector laid along every row and added is the one-row bias of the vector read as a one-row matrix. -/
theorem hostAddRow_eq {M K : Nat} (A : FVec Ideal ⟨2, ![M, K]⟩ .f32) (b : FVec Ideal ⟨1, ![K]⟩ .f32)
    (hv : (⟨1, ![K]⟩ : Shape).BroadcastsInDim ⟨2, ![1, K]⟩ ![1])
    (hd : (⟨2, ![1, K]⟩ : Shape).BroadcastsInDim ⟨2, ![M, K]⟩ ![0, 1])
    (hr : (⟨1, ![K]⟩ : Shape).ShapeCasts ⟨2, ![1, K]⟩) :
    addf A (broadcastInDim ⟨2, ![M, K]⟩ ![0, 1] hd (broadcastInDim ⟨2, ![1, K]⟩ ![1] hv b))
      = addRowRow A (shapeCast ⟨2, ![1, K]⟩ b hr) := by
  funext i
  obtain ⟨p, q, rfl⟩ : ∃ (p : Fin M) (q : Fin K), i = ix2 p q := ⟨i 0, i 1, eq_ix2 i⟩
  rw [hostAddRow_apply, addRowRow_apply, Cert.LibLreluRows.rowCast_apply]

/-! ## A stacked product: [s, r] · [A; B] = s·A + r·B -/

/-- Position j of the lower half of 256 = 128 + 128 positions, and of the upper half. -/
abbrev lo (j : Fin 128) : Fin 256 := ⟨j.val, by have := j.isLt; omega⟩
abbrev hi (j : Fin 128) : Fin 256 := ⟨128 + j.val, by have := j.isLt; omega⟩

/-- A sum over 256 positions is the sum over the lower half plus the sum over the upper half. -/
theorem sum_halves (f : Fin 256 → EReal) : ∑ j : Fin 256, f j = (∑ j : Fin 128, f (lo j)) + ∑ j : Fin 128, f (hi j) :=
  Fin.sum_univ_add (a := 128) (b := 128) f

/-- Rows 0 to 127 of a 256-row matrix. -/
theorem top_apply {α : Type} (W : (⟨2, ![256, 128]⟩ : Shape).Idx → α)
    (ht : (⟨2, ![256, 128]⟩ : Shape).Slices ![0, 0] ⟨2, ![128, 128]⟩) (j k : Fin 128) :
    extractStridedSlice ⟨2, ![128, 128]⟩ ![0, 0] W ht (ix2 j k) = W (ix2 (lo j) k) :=
  extractStridedSlice_apply ![0, 0] W ht (ix2 j k) (ix2 (lo j) k) (fun a => match a with
    | ⟨0, _⟩ => by show j.val = 0 + j.val; omega
    | ⟨1, _⟩ => by show k.val = 0 + k.val; omega)

/-- Rows 128 to 255 of a 256-row matrix. -/
theorem bot_apply {α : Type} (W : (⟨2, ![256, 128]⟩ : Shape).Idx → α)
    (hb : (⟨2, ![256, 128]⟩ : Shape).Slices ![128, 0] ⟨2, ![128, 128]⟩) (j k : Fin 128) :
    extractStridedSlice ⟨2, ![128, 128]⟩ ![128, 0] W hb (ix2 j k) = W (ix2 (hi j) k) :=
  extractStridedSlice_apply ![128, 0] W hb (ix2 j k) (ix2 (hi j) k) (fun a => match a with
    | ⟨0, _⟩ => by show 128 + j.val = 128 + j.val; omega
    | ⟨1, _⟩ => by show k.val = 0 + k.val; omega)

/-- Two matrices of 128-wide rows side by side, read in the left half. -/
theorem cat_apply_lo {α : Type} (S R : (⟨2, ![E, 128]⟩ : Shape).Idx → α)
    (hc : Shape.Concatenates [(⟨2, ![E, 128]⟩ : Shape), ⟨2, ![E, 128]⟩] ⟨2, ![E, 256]⟩ 1) (p : Fin E) (j : Fin 128) :
    concatenate ⟨2, ![E, 256]⟩ 1 [⟨⟨2, ![E, 128]⟩, S⟩, ⟨⟨2, ![E, 128]⟩, R⟩] hc (ix2 p (lo j)) = S (ix2 p j) :=
  concatenate_pair_apply_left 1 S R hc (ix2 p (lo j)) rfl (ix2 p j) (fun b => match b with
    | ⟨0, _⟩ => rfl
    | ⟨1, _⟩ => rfl)

/-- Two matrices of 128-wide rows side by side, read in the right half. -/
theorem cat_apply_hi {α : Type} (S R : (⟨2, ![E, 128]⟩ : Shape).Idx → α)
    (hc : Shape.Concatenates [(⟨2, ![E, 128]⟩ : Shape), ⟨2, ![E, 128]⟩] ⟨2, ![E, 256]⟩ 1) (p : Fin E) (j : Fin 128) :
    concatenate ⟨2, ![E, 256]⟩ 1 [⟨⟨2, ![E, 128]⟩, S⟩, ⟨⟨2, ![E, 128]⟩, R⟩] hc (ix2 p (hi j)) = R (ix2 p j) :=
  concatenate_pair_apply_right 1 S R hc (ix2 p (hi j)) rfl rfl (ix2 p j)
    (fun b hb => match b, hb with
      | ⟨0, _⟩, _ => rfl
      | ⟨1, _⟩, hb => absurd (Fin.ext rfl) hb)
    (by show j.val + 128 = 128 + j.val; omega)

/-- The product of two row matrices side by side with a stacked weight matrix is the sum of the two products with
    the halves of the stack. -/
theorem stack_eq (S R : Mat E 128) (W : Mat 256 128)
    (hc : Shape.Concatenates [(⟨2, ![E, 128]⟩ : Shape), ⟨2, ![E, 128]⟩] ⟨2, ![E, 256]⟩ 1)
    (ht : (⟨2, ![256, 128]⟩ : Shape).Slices ![0, 0] ⟨2, ![128, 128]⟩)
    (hb : (⟨2, ![256, 128]⟩ : Shape).Slices ![128, 0] ⟨2, ![128, 128]⟩) :
    mm (concatenate ⟨2, ![E, 256]⟩ 1 [⟨⟨2, ![E, 128]⟩, S⟩, ⟨⟨2, ![E, 128]⟩, R⟩] hc) W
      = plus (mm S (extractStridedSlice ⟨2, ![128, 128]⟩ ![0, 0] W ht))
          (mm R (extractStridedSlice ⟨2, ![128, 128]⟩ ![128, 0] W hb)) := by
  funext i
  obtain ⟨p, q, rfl⟩ : ∃ (p : Fin E) (q : Fin 128), i = ix2 p q := ⟨i 0, i 1, eq_ix2 i⟩
  rw [mm_apply, plus_apply, mm_apply, mm_apply, sum_halves]
  congr 1
  · refine Finset.sum_congr rfl fun j _ => ?_
    rw [cat_apply_lo, top_apply]
  · refine Finset.sum_congr rfl fun j _ => ?_
    rw [cat_apply_hi, bot_apply]

/-- A rectified linear layer as the host computes it: product, bias along every row, rectifier. -/
theorem host_lin_eq (X : FVec Ideal ⟨2, ![E, 128]⟩ .f32) (W : FVec Ideal ⟨2, ![128, 128]⟩ .f32)
    (b : FVec Ideal ⟨1, ![128]⟩ .f32)
    (hv : (⟨1, ![128]⟩ : Shape).BroadcastsInDim ⟨2, ![1, 128]⟩ ![1])
    (hd : (⟨2, ![1, 128]⟩ : Shape).BroadcastsInDim ⟨2, ![E, 128]⟩ ![0, 1])
    (hz : (⟨0, ![]⟩ : Shape).BroadcastsInDim ⟨2, ![E, 128]⟩ ![])
    (hr : (⟨1, ![128]⟩ : Shape).ShapeCasts ⟨2, ![1, 128]⟩) :
    maximumf (addf (Host.dotGeneral (DotDims.plain E 128 128) none X W)
        (broadcastInDim ⟨2, ![E, 128]⟩ ![0, 1] hd (broadcastInDim ⟨2, ![1, 128]⟩ ![1] hv b)))
        (broadcastInDim ⟨2, ![E, 128]⟩ ![] hz (constant (F := Ideal) ⟨0, ![]⟩ .f32 0x00000000#32))
      = lin X W (shapeCast ⟨2, ![1, 128]⟩ b hr) := by
  funext i
  obtain ⟨p, q, rfl⟩ : ∃ (p : Fin E) (q : Fin 128), i = ix2 p q := ⟨i 0, i 1, eq_ix2 i⟩
  rw [hostRelu_apply, hostAddRow_apply, hostProduct_apply, lin_apply, Cert.LibLreluRows.rowCast_apply]

/-- An edge's message as the host computes it: the two end rows side by side times the stacked first layer, bias,
    rectifier, second layer, bias. -/
theorem host_edge_eq (S R : FVec Ideal ⟨2, ![E, 128]⟩ .f32) (W1 : FVec Ideal ⟨2, ![256, 128]⟩ .f32)
    (b1 b2 : FVec Ideal ⟨1, ![128]⟩ .f32) (W2 : FVec Ideal ⟨2, ![128, 128]⟩ .f32)
    (hc : Shape.Concatenates [(⟨2, ![E, 128]⟩ : Shape), ⟨2, ![E, 128]⟩] ⟨2, ![E, 256]⟩ 1)
    (hv : (⟨1, ![128]⟩ : Shape).BroadcastsInDim ⟨2, ![1, 128]⟩ ![1])
    (hd : (⟨2, ![1, 128]⟩ : Shape).BroadcastsInDim ⟨2, ![E, 128]⟩ ![0, 1])
    (hz : (⟨0, ![]⟩ : Shape).BroadcastsInDim ⟨2, ![E, 128]⟩ ![])
    (ht : (⟨2, ![256, 128]⟩ : Shape).Slices ![0, 0] ⟨2, ![128, 128]⟩)
    (hb : (⟨2, ![256, 128]⟩ : Shape).Slices ![128, 0] ⟨2, ![128, 128]⟩)
    (hr : (⟨1, ![128]⟩ : Shape).ShapeCasts ⟨2, ![1, 128]⟩) :
    addf (Host.dotGeneral (DotDims.plain E 128 128) none
        (maximumf (addf (Host.dotGeneral (DotDims.plain E 256 128) none
              (concatenate ⟨2, ![E, 256]⟩ 1 [⟨⟨2, ![E, 128]⟩, S⟩, ⟨⟨2, ![E, 128]⟩, R⟩] hc) W1)
            (broadcastInDim ⟨2, ![E, 128]⟩ ![0, 1] hd (broadcastInDim ⟨2, ![1, 128]⟩ ![1] hv b1)))
          (broadcastInDim ⟨2, ![E, 128]⟩ ![] hz (constant (F := Ideal) ⟨0, ![]⟩ .f32 0x00000000#32))) W2)
        (broadcastInDim ⟨2, ![E, 128]⟩ ![0, 1] hd (broadcastInDim ⟨2, ![1, 128]⟩ ![1] hv b2))
      = edge S R (extractStridedSlice ⟨2, ![128, 128]⟩ ![0, 0] W1 ht) (extractStridedSlice ⟨2, ![128, 128]⟩ ![128, 0] W1 hb)
          (shapeCast ⟨2, ![1, 128]⟩ b1 hr) W2 (shapeCast ⟨2, ![1, 128]⟩ b2 hr) := by
  rw [hostProduct_eq, hostProduct_eq, stack_eq S R W1 hc ht hb, hostAct_eq _ b1 hv hd hz hr, hostAddRow_eq _ b2 hv hd hr]
  rfl

/-! ## A gather of whole rows commutes with a row-by-row function -/

/-- The rectified layer followed by a projection, taken on gathered rows, is the gather of its rows. -/
theorem gather_hoist {N C : Nat} (hC : 0 < C)
    (wf : GatherDims.WF ⟨2, ![C, 128]⟩ ⟨2, ![N, 1]⟩ ⟨2, ![N, 128]⟩ [1] [0] [] [0] [] 1 ![1, 128])
    (CM : Mat C 128) (idx : IVec ⟨2, ![N, 1]⟩ 32) (W : Mat 128 128) (b : Mat 1 128) (U : Mat 128 128) :
    Host.gather (Cert.LibGatherRows.rowsDims C 128 N wf) (hoist CM W b U) idx
      = hoist (Host.gather (Cert.LibGatherRows.rowsDims C 128 N wf) CM idx) W b U := by
  funext i
  obtain ⟨p, q, rfl⟩ : ∃ (p : Fin N) (q : Fin 128), i = ix2 p q := ⟨i 0, i 1, eq_ix2 i⟩
  rw [Cert.LibGatherRows.gather_rows_apply hC, hoist_apply, hoist_apply]
  simp only [Cert.LibGatherRows.gather_rows_apply hC]

/-- The last layer as the host computes it: the node rows beside the rectified layer of the gathered rows, times
    the stacked matrix, bias, rectifier; the lower half of the product is the gather of the precomputed rows. -/
theorem host_fin_eq {N C : Nat} (hC : 0 < C) (PM : FVec Ideal ⟨2, ![N, 128]⟩ .f32) (CM : FVec Ideal ⟨2, ![C, 128]⟩ .f32)
    (idx : IVec ⟨2, ![N, 1]⟩ 32) (Wcp : FVec Ideal ⟨2, ![128, 128]⟩ .f32) (bcp bfu : FVec Ideal ⟨1, ![128]⟩ .f32)
    (Wfu : FVec Ideal ⟨2, ![256, 128]⟩ .f32)
    (wf : GatherDims.WF ⟨2, ![C, 128]⟩ ⟨2, ![N, 1]⟩ ⟨2, ![N, 128]⟩ [1] [0] [] [0] [] 1 ![1, 128])
    (hc' : Shape.Concatenates [(⟨2, ![N, 128]⟩ : Shape), ⟨2, ![N, 128]⟩] ⟨2, ![N, 256]⟩ 1)
    (hv : (⟨1, ![128]⟩ : Shape).BroadcastsInDim ⟨2, ![1, 128]⟩ ![1])
    (hd : (⟨2, ![1, 128]⟩ : Shape).BroadcastsInDim ⟨2, ![N, 128]⟩ ![0, 1])
    (hz : (⟨0, ![]⟩ : Shape).BroadcastsInDim ⟨2, ![N, 128]⟩ ![])
    (ht : (⟨2, ![256, 128]⟩ : Shape).Slices ![0, 0] ⟨2, ![128, 128]⟩)
    (hb : (⟨2, ![256, 128]⟩ : Shape).Slices ![128, 0] ⟨2, ![128, 128]⟩)
    (hr : (⟨1, ![128]⟩ : Shape).ShapeCasts ⟨2, ![1, 128]⟩) :
    maximumf (addf (Host.dotGeneral (DotDims.plain N 256 128) none
          (concatenate ⟨2, ![N, 256]⟩ 1 [⟨⟨2, ![N, 128]⟩, PM⟩, ⟨⟨2, ![N, 128]⟩,
            maximumf (addf (Host.dotGeneral (DotDims.plain N 128 128) none
                  (Host.gather (Cert.LibGatherRows.rowsDims C 128 N wf) CM idx) Wcp)
                (broadcastInDim ⟨2, ![N, 128]⟩ ![0, 1] hd (broadcastInDim ⟨2, ![1, 128]⟩ ![1] hv bcp)))
              (broadcastInDim ⟨2, ![N, 128]⟩ ![] hz (constant (F := Ideal) ⟨0, ![]⟩ .f32 0x00000000#32))⟩] hc') Wfu)
        (broadcastInDim ⟨2, ![N, 128]⟩ ![0, 1] hd (broadcastInDim ⟨2, ![1, 128]⟩ ![1] hv bfu)))
      (broadcastInDim ⟨2, ![N, 128]⟩ ![] hz (constant (F := Ideal) ⟨0, ![]⟩ .f32 0x00000000#32))
      = fin PM (Host.gather (Cert.LibGatherRows.rowsDims C 128 N wf)
            (hoist CM Wcp (shapeCast ⟨2, ![1, 128]⟩ bcp hr) (extractStridedSlice ⟨2, ![128, 128]⟩ ![128, 0] Wfu hb)) idx)
          (extractStridedSlice ⟨2, ![128, 128]⟩ ![0, 0] Wfu ht) (shapeCast ⟨2, ![1, 128]⟩ bfu hr) := by
  rw [hostProduct_eq, hostProduct_eq, hostAct_eq _ bcp hv hd hz hr, stack_eq _ _ Wfu hc' ht hb,
    hostAct_eq _ bfu hv hd hz hr, gather_hoist hC]
  rfl

end Cert.Net

end
-- ==== Proof.EdgeTile.lean ====
/-
  An edge's message computed on one tile of rows, at exact (extended real) values.

  A tile of M sender rows and M receiver rows goes through the two halves of the first layer on the matrix unit (the
  operands narrowed to half precision, which changes nothing at exact values; the accumulators zero), the two products
  are added, a one-row bias is laid along the rows, the rectifier is taken against zero, the result goes through the
  second layer on the matrix unit and a second one-row bias is laid along the rows. Entry by entry this is the
  whole-array function Cert.Net.edge at M rows.
-/
import proofs.«162206_j37220186587417_2_alg».proof.Proof.NetSpec

noncomputable section

namespace Cert.EdgeTile

open Idealize.ShloMosaic Idealize.ShloMosaic.ValueIdx Cert.Dense

/-- The tiled edge stage, as the chain of vector operations a tiled body applies to its loaded blocks. -/
def tile (M : Nat)
    (hsM : (⟨2, ![M, 128]⟩ : Shape).ShapeCasts ⟨2, ![M, 128]⟩)
    (hsW : (⟨2, ![128, 128]⟩ : Shape).ShapeCasts ⟨2, ![128, 128]⟩)
    (hs1 : (⟨2, ![1, 128]⟩ : Shape).ShapeCasts ⟨2, ![1, 128]⟩)
    (hb : (⟨2, ![1, 128]⟩ : Shape).Broadcasts ⟨2, ![M, 128]⟩)
    (hlt : FTy.bf16.bits < FTy.f32.bits)
    (s r : FVec Ideal ⟨2, ![M, 128]⟩ .bf16) (A B : FVec Ideal ⟨2, ![128, 128]⟩ .f32) (b : FVec Ideal ⟨2, ![1, 128]⟩ .f32)
    (W : FVec Ideal ⟨2, ![128, 128]⟩ .f32) (d : FVec Ideal ⟨2, ![1, 128]⟩ .f32) : FVec Ideal ⟨2, ![M, 128]⟩ .f32 :=
  addf
    (matmul (DotDims.plain M 128 128) none
      (truncf .bf16
        (maximumf
          (addf
            (addf
              (matmul (DotDims.plain M 128 128) none (shapeCast ⟨2, ![M, 128]⟩ s hsM)
                (truncf .bf16 (shapeCast ⟨2, ![128, 128]⟩ A hsW) hlt) (constant ⟨2, ![M, 128]⟩ .f32 0x00000000#32))
              (matmul (DotDims.plain M 128 128) none (shapeCast ⟨2, ![M, 128]⟩ r hsM)
                (truncf .bf16 (shapeCast ⟨2, ![128, 128]⟩ B hsW) hlt) (constant ⟨2, ![M, 128]⟩ .f32 0x00000000#32)))
            (broadcastTo ⟨2, ![M, 128]⟩ (shapeCast ⟨2, ![1, 128]⟩ b hs1) hb))
          (broadcast ⟨2, ![M, 128]⟩ (Scalar.ofBits (F := Ideal) .f32 0x00000000#32)))
        hlt)
      (truncf .bf16 W hlt) (constant ⟨2, ![M, 128]⟩ .f32 0x00000000#32))
    (broadcastTo ⟨2, ![M, 128]⟩ (shapeCast ⟨2, ![1, 128]⟩ d hs1) hb)

/-- The tiled edge stage is the whole-array edge function at the tile's number of rows. -/
theorem tile_eq_edge (M : Nat)
    (hsM : (⟨2, ![M, 128]⟩ : Shape).ShapeCasts ⟨2, ![M, 128]⟩)
    (hsW : (⟨2, ![128, 128]⟩ : Shape).ShapeCasts ⟨2, ![128, 128]⟩)
    (hs1 : (⟨2, ![1, 128]⟩ : Shape).ShapeCasts ⟨2, ![1, 128]⟩)
    (hb : (⟨2, ![1, 128]⟩ : Shape).Broadcasts ⟨2, ![M, 128]⟩)
    (hlt : FTy.bf16.bits < FTy.f32.bits)
    (s r : FVec Ideal ⟨2, ![M, 128]⟩ .bf16) (A B : FVec Ideal ⟨2, ![128, 128]⟩ .f32) (b : FVec Ideal ⟨2, ![1, 128]⟩ .f32)
    (W : FVec Ideal ⟨2, ![128, 128]⟩ .f32) (d : FVec Ideal ⟨2, ![1, 128]⟩ .f32) :
    tile M hsM hsW hs1 hb hlt s r A B b W d = Cert.Net.edge (E := M) s r A B b W d := by
  funext i
  obtain ⟨p, q, rfl⟩ : ∃ (p : Fin M) (q : Fin 128), i = ix2 p q := ⟨i 0, i 1, eq_ix2 i⟩
  rw [Cert.Net.edge_apply]
  unfold tile
  refine (tileAddRow_apply M 128 hs1 hb _ d p q).trans ?_
  refine congrArg (· + d (ix2 (0 : Fin 1) q)) ?_
  refine (Cert.LibPlainContract.matmul_plain_apply M 128 128 none _ _ p q).trans ?_
  refine Finset.sum_congr rfl fun k _ => ?_
  refine congrArg (· * W (ix2 k q)) ?_
  show maximumf (F := Ideal) _ _ (ix2 p k) = _
  refine (tileRelu_apply M 128 _ (ix2 p k)).trans ?_
  refine congrArg (max · 0) ?_
  refine (tileAddRow_apply M 128 hs1 hb _ b p k).trans ?_
  refine congrArg (· + b (ix2 (0 : Fin 1) k)) ?_
  refine congrArg₂ (· + ·)
    ((Cert.LibPlainContract.matmul_plain_apply M 128 128 none _ _ p k).trans ?_)
    ((Cert.LibPlainContract.matmul_plain_apply M 128 128 none _ _ p k).trans ?_)
  · simp only [shapeCast_self]; rfl
  · simp only [shapeCast_self]; rfl

/-- One block of rows of the whole-array edge function: if a tile's sender and receiver rows p are rows P of two
    arrays and the tile's weights and biases are the arrays' own, then the tile's edge function at (p, q) is the arrays'
    edge function at (P, q). -/
theorem edge_block {M E : Nat} (S R : Mat E 128) (A B : Mat 128 128) (b : Mat 1 128) (W : Mat 128 128) (d : Mat 1 128)
    (s r : Mat M 128) (A' B' : Mat 128 128) (b' : Mat 1 128) (W' : Mat 128 128) (d' : Mat 1 128)
    (p : Fin M) (P : Fin E) (q : Fin 128)
    (hs : ∀ j : Fin 128, s (ix2 p j) = S (ix2 P j)) (hr : ∀ j : Fin 128, r (ix2 p j) = R (ix2 P j))
    (hA : A' = A) (hB : B' = B) (hb : b' = b) (hW : W' = W) (hd : d' = d) :
    Cert.Net.edge s r A' B' b' W' d' (ix2 p q) = Cert.Net.edge S R A B b W d (ix2 P q) := by
  subst hA hB hb hW hd
  rw [Cert.Net.edge_apply, Cert.Net.edge_apply]
  simp only [hs, hr]

end Cert.EdgeTile

end
-- ==== Proof.Region0.lean ====
/-
  The output array of the edge stage over 500000 rows, after the region's write-backs.

  The region walks 125 points; point t stages rows 4000·t … 4000·t + 3999 of the sender and receiver arrays and the whole
  weight and bias arrays, applies the tiled edge stage, and writes the result back over the same rows of the output
  array. The tiled stage is the whole-array edge function at 4000 rows, a row of a block is a row of its array, and the
  125 blocks tile the 500000 rows, so the output array ends holding the whole-array edge function of the region's input
  arrays, whatever those arrays hold when the region is entered.
-/
import proofs.«162206_j37220186587417_2_alg».proof.Proof.Gen.KernelIdeal.Frame
import proofs.«162206_j37220186587417_2_alg».proof.Proof.NetSpec
import proofs.«162206_j37220186587417_2_alg».proof.Proof.EdgeTile
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx Cert.Dense

/-- The zero offsets of a rank-2 access, as a constant function. -/
theorem zeroOff0 : (![0, 0] : Fin 2 → Nat) = fun _ => 0 := funext fun a => by fin_cases a <;> rfl

/-- The tiled body's stored value is the whole-array edge function at 4000 rows. -/
theorem pay0_eq (x0 x1 : FVec Ideal S4000x128 .bf16) (x2 x3 : FVec Ideal S128x128 .f32) (x4 : FVec Ideal S1x128 .f32)
    (x5 : FVec Ideal S128x128 .f32) (x6 : FVec Ideal S1x128 .f32) :
    k0_pay1 (F := Ideal) x0 x1 x2 x3 x4 x5 x6 = Cert.Net.edge (E := 4000) x0 x1 x2 x3 x4 x5 x6 :=
  Cert.EdgeTile.tile_eq_edge 4000 shapeCasts_S4000x128_S4000x128 shapeCasts_S128x128_S128x128 shapeCasts_S1x128_S1x128
    broadcasts_S1x128_S4000x128 bitsLt_bf16_f32 x0 x1 x2 x3 x4 x5 x6

/-- The block indices of the eight windows at a point: the row-blocked windows (senders, receivers, output) are at block
    (t, 0), the weight and bias windows at block (0, 0). -/
structure Idx0 (t : Fin cfg0.N) : Prop where
  w0 : win0_0.index t (0 : Fin 2) = t.val ∧ win0_0.index t (1 : Fin 2) = 0
  w1 : win0_1.index t (0 : Fin 2) = t.val ∧ win0_1.index t (1 : Fin 2) = 0
  w2 : win0_2.index t (0 : Fin 2) = 0 ∧ win0_2.index t (1 : Fin 2) = 0
  w3 : win0_3.index t (0 : Fin 2) = 0 ∧ win0_3.index t (1 : Fin 2) = 0
  w4 : win0_4.index t (0 : Fin 2) = 0 ∧ win0_4.index t (1 : Fin 2) = 0
  w5 : win0_5.index t (0 : Fin 2) = 0 ∧ win0_5.index t (1 : Fin 2) = 0
  w6 : win0_6.index t (0 : Fin 2) = 0 ∧ win0_6.index t (1 : Fin 2) = 0
  w7 : win0_7.index t (0 : Fin 2) = t.val ∧ win0_7.index t (1 : Fin 2) = 0

theorem idx0_dec : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

theorem idx0 (t : Fin cfg0.N) : Idx0 t := by
  obtain ⟨h0, h1, h2, h3, h4, h5, h6, h7⟩ := idx0_dec t
  exact ⟨h0, h1, h2, h3, h4, h5, h6, h7⟩

/-! ## A window's block read off its array -/

theorem rows0_0 (V : (c : Dev nD) → (b : Ref sig .tc) → Buf (Elt Ideal) ((c : Thread nD τ).loc b)) (c : Dev nD) (t : Fin cfg0.N) (p : Fin 4000) (P : Fin 500000)
    (hP : P.val = t.val * 4000 + p.val) (j : Fin 128) :
    (iblk0 (F := Ideal) V c 0 t : Mat 4000 128) (ix2 p j) = (V c main_v9 : Mat 500000 128) (ix2 P j) := by
  have e := idx0 t
  unfold iblk0
  rw [View.read_apply]
  refine congrArg (V c main_v9 : Mat 500000 128) ?_
  funext a; apply Fin.ext
  match a with
  | ⟨0, _⟩ => show win0_0.index t (0 : Fin 2) * 4000 + 1 * p.val = P.val; rw [e.w0.1, hP]; omega
  | ⟨1, _⟩ => show win0_0.index t (1 : Fin 2) * 128 + 1 * j.val = j.val; rw [e.w0.2]; omega

theorem rows0_1 (V : (c : Dev nD) → (b : Ref sig .tc) → Buf (Elt Ideal) ((c : Thread nD τ).loc b)) (c : Dev nD) (t : Fin cfg0.N) (p : Fin 4000) (P : Fin 500000)
    (hP : P.val = t.val * 4000 + p.val) (j : Fin 128) :
    (iblk0 (F := Ideal) V c 1 t : Mat 4000 128) (ix2 p j) = (V c main_v18 : Mat 500000 128) (ix2 P j) := by
  have e := idx0 t
  unfold iblk0
  rw [View.read_apply]
  refine congrArg (V c main_v18 : Mat 500000 128) ?_
  funext a; apply Fin.ext
  match a with
  | ⟨0, _⟩ => show win0_1.index t (0 : Fin 2) * 4000 + 1 * p.val = P.val; rw [e.w1.1, hP]; omega
  | ⟨1, _⟩ => show win0_1.index t (1 : Fin 2) * 128 + 1 * j.val = j.val; rw [e.w1.2]; omega

theorem whole0_2 (V : (c : Dev nD) → (b : Ref sig .tc) → Buf (Elt Ideal) ((c : Thread nD τ).loc b)) (c : Dev nD) (t : Fin cfg0.N) :
    (iblk0 (F := Ideal) V c 2 t : Mat 128 128) = (V c main_v19 : Mat 128 128) := by
  have e := idx0 t
  refine funext fun (y : (⟨2, ![128, 128]⟩ : Shape).Idx) => ?_
  unfold iblk0
  rw [View.read_apply]
  refine congrArg (V c main_v19 : Mat 128 128) ?_
  funext a; apply Fin.ext
  match a with
  | ⟨0, _⟩ => show win0_2.index t (0 : Fin 2) * 128 + 1 * (y 0).val = (y 0).val; rw [e.w2.1]; omega
  | ⟨1, _⟩ => show win0_2.index t (1 : Fin 2) * 128 + 1 * (y 1).val = (y 1).val; rw [e.w2.2]; omega

theorem whole0_3 (V : (c : Dev nD) → (b : Ref sig .tc) → Buf (Elt Ideal) ((c : Thread nD τ).loc b)) (c : Dev nD) (t : Fin cfg0.N) :
    (iblk0 (F := Ideal) V c 3 t : Mat 128 128) = (V c main_v20 : Mat 128 128) := by
  have e := idx0 t
  refine funext fun (y : (⟨2, ![128, 128]⟩ : Shape).Idx) => ?_
  unfold iblk0
  rw [View.read_apply]
  refine congrArg (V c main_v20 : Mat 128 128) ?_
  funext a; apply Fin.ext
  match a with
  | ⟨0, _⟩ => show win0_3.index t (0 : Fin 2) * 128 + 1 * (y 0).val = (y 0).val; rw [e.w3.1]; omega
  | ⟨1, _⟩ => show win0_3.index t (1 : Fin 2) * 128 + 1 * (y 1).val = (y 1).val; rw [e.w3.2]; omega

theorem whole0_4 (V : (c : Dev nD) → (b : Ref sig .tc) → Buf (Elt Ideal) ((c : Thread nD τ).loc b)) (c : Dev nD) (t : Fin cfg0.N) :
    (iblk0 (F := Ideal) V c 4 t : Mat 1 128) = (V c main_v21 : Mat 1 128) := by
  have e := idx0 t
  refine funext fun (y : (⟨2, ![1, 128]⟩ : Shape).Idx) => ?_
  unfold iblk0
  rw [View.read_apply]
  refine congrArg (V c main_v21 : Mat 1 128) ?_
  funext a; apply Fin.ext
  match a with
  | ⟨0, _⟩ => show win0_4.index t (0 : Fin 2) * 1 + 1 * (y 0).val = (y 0).val; rw [e.w4.1]; omega
  | ⟨1, _⟩ => show win0_4.index t (1 : Fin 2) * 128 + 1 * (y 1).val = (y 1).val; rw [e.w4.2]; omega

theorem whole0_5 (V : (c : Dev nD) → (b : Ref sig .tc) → Buf (Elt Ideal) ((c : Thread nD τ).loc b)) (c : Dev nD) (t : Fin cfg0.N) :
    (iblk0 (F := Ideal) V c 5 t : Mat 128 128) = (V c main_arg7 : Mat 128 128) := by
  have e := idx0 t
  refine funext fun (y : (⟨2, ![128, 128]⟩ : Shape).Idx) => ?_
  unfold iblk0
  rw [View.read_apply]
  refine congrArg (V c main_arg7 : Mat 128 128) ?_
  funext a; apply Fin.ext
  match a with
  | ⟨0, _⟩ => show win0_5.index t (0 : Fin 2) * 128 + 1 * (y 0).val = (y 0).val; rw [e.w5.1]; omega
  | ⟨1, _⟩ => show win0_5.index t (1 : Fin 2) * 128 + 1 * (y 1).val = (y 1).val; rw [e.w5.2]; omega

theorem whole0_6 (V : (c : Dev nD) → (b : Ref sig .tc) → Buf (Elt Ideal) ((c : Thread nD τ).loc b)) (c : Dev nD) (t : Fin cfg0.N) :
    (iblk0 (F := Ideal) V c 6 t : Mat 1 128) = (V c main_v22 : Mat 1 128) := by
  have e := idx0 t
  refine funext fun (y : (⟨2, ![1, 128]⟩ : Shape).Idx) => ?_
  unfold iblk0
  rw [View.read_apply]
  refine congrArg (V c main_v22 : Mat 1 128) ?_
  funext a; apply Fin.ext
  match a with
  | ⟨0, _⟩ => show win0_6.index t (0 : Fin 2) * 1 + 1 * (y 0).val = (y 0).val; rw [e.w6.1]; omega
  | ⟨1, _⟩ => show win0_6.index t (1 : Fin 2) * 128 + 1 * (y 1).val = (y 1).val; rw [e.w6.2]; omega

/-! ## What a point writes back -/

/-- Point t writes back block t of the whole-array edge function of the input arrays. -/
theorem flushed0 (V : (c : Dev nD) → (b : Ref sig .tc) → Buf (Elt Ideal) ((c : Thread nD τ).loc b)) (c : Dev nD) (t : Fin cfg0.N) :
    (dat0 (F := Ideal) V c).flushed 7 t = ((cfg0.win 7).blk t).view.read (Elt Ideal)
      (Cert.Net.edge (E := 500000) (V c main_v9) (V c main_v18) (V c main_v19) (V c main_v20) (V c main_v21) (V c main_arg7) (V c main_v22)) := by
  show (cfg0.win 7).cut (grid0.coords t) ((dat0 V c).after 7 t) = _
  rw [after0_7]
  unfold out0_7
  rw [View.canon_unit_zero zeroOff0]
  simp only [View.ld_unit_zero (S := S4000x128) zeroOff0, View.ld_unit_zero (S := S128x128) zeroOff0,
    View.ld_unit_zero (S := S1x128) zeroOff0]
  rw [pay0_eq]
  have e := idx0 t
  have hN : cfg0.N = 125 := N_0
  refine funext fun (y : S4000x128.Idx) => ?_
  obtain ⟨p, q, rfl⟩ : ∃ (p : Fin 4000) (q : Fin 128), y = ix2 p q := ⟨y 0, y 1, eq_ix2 y⟩
  have hP : t.val * 4000 + p.val < 500000 := by have := t.isLt; have := p.isLt; omega
  have hemb : ((cfg0.win 7).blk t).view.emb (ix2 p q) = (ix2 (⟨t.val * 4000 + p.val, hP⟩ : Fin 500000) q : S500000x128.Idx) := by
    funext a; apply Fin.ext
    match a with
    | ⟨0, _⟩ => show win0_7.index t (0 : Fin 2) * 4000 + 1 * p.val = t.val * 4000 + p.val; rw [e.w7.1]; omega
    | ⟨1, _⟩ => show win0_7.index t (1 : Fin 2) * 128 + 1 * q.val = q.val; rw [e.w7.2]; omega
  rw [View.read_apply, hemb]
  exact Cert.EdgeTile.edge_block (V c main_v9) (V c main_v18) (V c main_v19) (V c main_v20) (V c main_v21) (V c main_arg7) (V c main_v22)
    (iblk0 V c 0 t) (iblk0 V c 1 t) (iblk0 V c 2 t) (iblk0 V c 3 t) (iblk0 V c 4 t) (iblk0 V c 5 t) (iblk0 V c 6 t)
    p ⟨t.val * 4000 + p.val, hP⟩ q
    (rows0_0 V c t p ⟨t.val * 4000 + p.val, hP⟩ rfl) (rows0_1 V c t p ⟨t.val * 4000 + p.val, hP⟩ rfl)
    (whole0_2 V c t) (whole0_3 V c t) (whole0_4 V c t) (whole0_5 V c t) (whole0_6 V c t)

/-! ## The blocks tile the array -/

/-- An index of the output array is in point t's block iff each coordinate is in the block's range on its axis. -/
theorem mem_blk0 (t : Fin cfg0.N) (i : S500000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v23).slice (win0_7.rect t)).set ↔ _
  rw [View.set_slice_whole, Rect.mem_set_unit]
  exact Iff.rfl

/-- Row r of the output array is in the block of point r / 4000, which is written back. -/
theorem cover0 (i : S500000x128.Idx) :
    ∃ t : Fin cfg0.N, (cfg0.win 7).flush t = true ∧ i ∈ ((cfg0.win 7).blk t).view.set := by
  have hi0 : (i 0).val < 500000 := (i 0).isLt
  have hi1 : (i 1).val < 128 := (i 1).isLt
  have hN : cfg0.N = 125 := N_0
  obtain ⟨t, ht⟩ : ∃ t : Fin cfg0.N, t.val = (i 0).val / 4000 := ⟨⟨(i 0).val / 4000, by rw [hN]; omega⟩, rfl⟩
  have e := idx0 t
  refine ⟨t, flush0_7 t, ?_⟩
  rw [mem_blk0]
  intro a
  match a with
  | ⟨0, _⟩ => show win0_7.index t (0 : Fin 2) * 4000 ≤ (i 0).val ∧ (i 0).val < win0_7.index t (0 : Fin 2) * 4000 + 4000; rw [e.w7.1, ht]; omega
  | ⟨1, _⟩ => show win0_7.index t (1 : Fin 2) * 128 ≤ (i 1).val ∧ (i 1).val < win0_7.index t (1 : Fin 2) * 128 + 128; rw [e.w7.2]; omega

/-! ## The array after the region -/

/-- After the region's write-backs the output array is the whole-array edge function of the region's input arrays,
    whatever the arrays hold when the region is entered. -/
theorem region0 (V : (c : Dev nD) → (b : Ref sig .tc) → Buf (Elt Ideal) ((c : Thread nD τ).loc b)) (c : Dev nD) :
    (dat0 (F := Ideal) V c).arrAt 7 cfg0.N = Cert.Net.edge (E := 500000) (V c main_v9) (V c main_v18) (V c main_v19) (V c main_v20) (V c main_v21) (V c main_arg7) (V c main_v22) :=
  (dat0 V c).arrAt_eq_of_cover 7 _ (fun t _ => flushed0 V c t) cover0

end Cert.KernelIdeal.RegionValue

end
-- ==== Proof.KFold0.lean ====
/-
  The kernel program's fold, first part: the host operations before the first tiled region, and that region.

  Each buffer the first region reads is read back through the host operations to the argument arrays: the two
  gathered row matrices are the reference's own gathers of the particle rows at the edges' end indices (the kernel
  program gathers from a narrowed copy of the particle rows, the same rows at exact values), the weight halves are the
  two row ranges of the stacked first-layer matrix, the biases the bias vectors read as one-row matrices. The region's
  output is then the reference's edge message array: a concatenated row times the stacked matrix is the sum of the two
  halves' products.
-/
import proofs.«162206_j37220186587417_2_alg».proof.Proof.Gen.KernelIdeal.Frame
import proofs.«162206_j37220186587417_2_alg».proof.Proof.Gen.ReferenceIdeal.Read
import proofs.«162206_j37220186587417_2_alg».proof.Proof.NetSpec
import proofs.«162206_j37220186587417_2_alg».proof.Proof.HostStages
import proofs.«162206_j37220186587417_2_alg».proof.Proof.Region0
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 1000000 in
theorem W1_v0 : W1 (F := Ideal) m ρ c (Proc.devRef .tc main_v0) = (truncf .bf16 ((m ((c : Thread nD τ).loc main_arg0)) : FVec Ideal S200000x128 .f32) bitsLt_bf16_f32 : FVec Ideal S200000x128 .bf16) := by
  dsimp only [W1, hostOps0]; after_results_simp <;> rfl

set_option maxHeartbeats 1000000 in
theorem W1_v9 : W1 (F := Ideal) m ρ c (Proc.devRef .tc main_v9) = Cert.ReferenceIdeal.Read.val_main_v8 (F := Ideal) (m ((c : Thread nD τ).loc main_arg0)) (m ((c : Thread nD τ).loc main_arg3)) := by
  dsimp only [W1, hostOps0]; after_results_simp
  delta Cert.ReferenceIdeal.Read.val_main_v8 Cert.ReferenceIdeal.Read.val_main_v7 Cert.ReferenceIdeal.Read.val_main_v6 Cert.ReferenceIdeal.Read.val_main_v3 Cert.ReferenceIdeal.Read.val_main_v1 Cert.ReferenceIdeal.Read.val_main_v0 Cert.ReferenceIdeal.Read.val_main_v2 Cert.ReferenceIdeal.Read.val_main_c Cert.ReferenceIdeal.Read.val_main_v5 Cert.ReferenceIdeal.Read.val_main_v4 Cert.ReferenceIdeal.Read.val_main_c_0
  dsimp only
  rfl

set_option maxHeartbeats 1000000 in
theorem W1_v18 : W1 (F := Ideal) m ρ c (Proc.devRef .tc main_v18) = Cert.ReferenceIdeal.Read.val_main_v17 (F := Ideal) (m ((c : Thread nD τ).loc main_arg0)) (m ((c : Thread nD τ).loc main_arg3)) := by
  dsimp only [W1, hostOps0]; after_results_simp
  delta Cert.ReferenceIdeal.Read.val_main_v17 Cert.ReferenceIdeal.Read.val_main_v16 Cert.ReferenceIdeal.Read.val_main_v15 Cert.ReferenceIdeal.Read.val_main_v12 Cert.ReferenceIdeal.Read.val_main_v10 Cert.ReferenceIdeal.Read.val_main_v9 Cert.ReferenceIdeal.Read.val_main_v11 Cert.ReferenceIdeal.Read.val_main_c_1 Cert.ReferenceIdeal.Read.val_main_v14 Cert.ReferenceIdeal.Read.val_main_v13 Cert.ReferenceIdeal.Read.val_main_c_2
  dsimp only
  rfl

set_option maxHeartbeats 1000000 in
theorem W1_v19 : W1 (F := Ideal) m ρ c (Proc.devRef .tc main_v19) = extractStridedSlice S128x128 ![0, 0] (m ((c : Thread nD τ).loc main_arg5)) slices_S256x128_S128x128_0_0 := by
  dsimp only [W1, hostOps0]; after_results_simp <;> rfl
set_option maxHeartbeats 1000000 in
theorem W1_v20 : W1 (F := Ideal) m ρ c (Proc.devRef .tc main_v20) = extractStridedSlice S128x128 ![128, 0] (m ((c : Thread nD τ).loc main_arg5)) slices_S256x128_S128x128_128_0 := by
  dsimp only [W1, hostOps0]; after_results_simp <;> rfl
set_option maxHeartbeats 1000000 in
theorem W1_v21 : W1 (F := Ideal) m ρ c (Proc.devRef .tc main_v21) = shapeCast S1x128 (m ((c : Thread nD τ).loc main_arg6)) shapeCasts_S128_S1x128 := by
  dsimp only [W1, hostOps0]; after_results_simp <;> rfl
set_option maxHeartbeats 1000000 in
theorem W1_v22 : W1 (F := Ideal) m ρ c (Proc.devRef .tc main_v22) = shapeCast S1x128 (m ((c : Thread nD τ).loc main_arg8)) shapeCasts_S128_S1x128 := by
  dsimp only [W1, hostOps0]; after_results_simp <;> rfl
set_option maxHeartbeats 1000000 in
theorem W1_arg7 : W1 (F := Ideal) m ρ c (Proc.devRef .tc main_arg7) = (m ((c : Thread nD τ).loc main_arg7)) := by
  dsimp only [W1, hostOps0]; after_results_simp <;> rfl

set_option maxHeartbeats 1000000 in
/-- The first region's output: the reference's edge messages. -/
theorem W2_v23 : W2 (F := Ideal) m ρ c (Proc.devRef .tc main_v23) = Cert.ReferenceIdeal.Read.val_main_v27 (F := Ideal) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) := by
  refine (W2_arr m ρ c 7).trans ?_
  rw [Cert.KernelIdeal.RegionValue.region0 (V1 m ρ) c]
  show Cert.Net.edge (E := 500000) (W1 (F := Ideal) m ρ c (Proc.devRef .tc main_v9)) (W1 (F := Ideal) m ρ c (Proc.devRef .tc main_v18)) (W1 (F := Ideal) m ρ c (Proc.devRef .tc main_v19)) (W1 (F := Ideal) m ρ c (Proc.devRef .tc main_v20)) (W1 (F := Ideal) m ρ c (Proc.devRef .tc main_v21)) (W1 (F := Ideal) m ρ c (Proc.devRef .tc main_arg7)) (W1 (F := Ideal) m ρ c (Proc.devRef .tc main_v22)) = _
  rw [W1_v9, W1_v18, W1_v19, W1_v20, W1_v21, W1_arg7, W1_v22]
  delta Cert.ReferenceIdeal.Read.val_main_v27 Cert.ReferenceIdeal.Read.val_main_v24 Cert.ReferenceIdeal.Read.val_main_v23 Cert.ReferenceIdeal.Read.val_main_v22 Cert.ReferenceIdeal.Read.val_main_v19 Cert.ReferenceIdeal.Read.val_main_v18 Cert.ReferenceIdeal.Read.val_main_v21 Cert.ReferenceIdeal.Read.val_main_v20 Cert.ReferenceIdeal.Read.val_main_call0_v0 Cert.ReferenceIdeal.Read.val_main_call0_cst Cert.ReferenceIdeal.Read.val_main_v26 Cert.ReferenceIdeal.Read.val_main_v25
  exact (Cert.Net.host_edge_eq (E := 500000) _ _ (m ((c : Thread nD τ).loc main_arg5)) (m ((c : Thread nD τ).loc main_arg6)) (m ((c : Thread nD τ).loc main_arg8)) (m ((c : Thread nD τ).loc main_arg7))
    Cert.ReferenceIdeal.Facts₀.concatenates_S500000x128_S500000x128_S500000x256_d1 Cert.ReferenceIdeal.Facts₀.bcast_S128_S1x128_1 Cert.ReferenceIdeal.Facts₀.bcast_S1x128_S500000x128_0_1 Cert.ReferenceIdeal.Facts₀.bcast_S_S500000x128
    slices_S256x128_S128x128_0_0 slices_S256x128_S128x128_128_0 shapeCasts_S128_S1x128).symm

set_option maxHeartbeats 1000000 in
theorem W2_v0 : W2 (F := Ideal) m ρ c (Proc.devRef .tc main_v0) = (truncf .bf16 ((m ((c : Thread nD τ).loc main_arg0)) : FVec Ideal S200000x128 .f32) bitsLt_bf16_f32 : FVec Ideal S200000x128 .bf16) := by
  rw [W2_of_ne m ρ c main_v0 (by decide)]
  exact W1_v0 m ρ c

set_option maxHeartbeats 1000000 in
theorem W2_arg3 : W2 (F := Ideal) m ρ c (Proc.devRef .tc main_arg3) = (m ((c : Thread nD τ).loc main_arg3)) := by
  rw [W2_of_ne m ρ c main_arg3 (by decide)]
  dsimp only [W1, hostOps0]; after_results_simp <;> rfl

set_option maxHeartbeats 1000000 in
theorem W2_arg10 : W2 (F := Ideal) m ρ c (Proc.devRef .tc main_arg10) = (m ((c : Thread nD τ).loc main_arg10)) := by
  rw [W2_of_ne m ρ c main_arg10 (by decide)]
  dsimp only [W1, hostOps0]; after_results_simp <;> rfl

set_option maxHeartbeats 1000000 in
theorem W2_arg9 : W2 (F := Ideal) m ρ c (Proc.devRef .tc main_arg9) = (m ((c : Thread nD τ).loc main_arg9)) := by
  rw [W2_of_ne m ρ c main_arg9 (by decide)]
  dsimp only [W1, hostOps0]; after_results_simp <;> rfl

set_option maxHeartbeats 1000000 in
theorem W2_arg2 : W2 (F := Ideal) m ρ c (Proc.devRef .tc main_arg2) = (m ((c : Thread nD τ).loc main_arg2)) := by
  rw [W2_of_ne m ρ c main_arg2 (by decide)]
  dsimp only [W1, hostOps0]; after_results_simp <;> rfl

set_option maxHeartbeats 1000000 in
theorem W2_arg4 : W2 (F := Ideal) m ρ c (Proc.devRef .tc main_arg4) = (m ((c : Thread nD τ).loc main_arg4)) := by
  rw [W2_of_ne m ρ c main_arg4 (by decide)]
  dsimp only [W1, hostOps0]; after_results_simp <;> rfl

set_option maxHeartbeats 1000000 in
theorem W2_arg11 : W2 (F := Ideal) m ρ c (Proc.devRef .tc main_arg11) = (m ((c : Thread nD τ).loc main_arg11)) := by
  rw [W2_of_ne m ρ c main_arg11 (by decide)]
  dsimp only [W1, hostOps0]; after_results_simp <;> rfl

set_option maxHeartbeats 1000000 in
theorem W2_arg12 : W2 (F := Ideal) m ρ c (Proc.devRef .tc main_arg12) = (m ((c : Thread nD τ).loc main_arg12)) := by
  rw [W2_of_ne m ρ c main_arg12 (by decide)]
  dsimp only [W1, hostOps0]; after_results_simp <;> rfl

set_option maxHeartbeats 1000000 in
theorem W2_arg13 : W2 (F := Ideal) m ρ c (Proc.devRef .tc main_arg13) = (m ((c : Thread nD τ).loc main_arg13)) := by
  rw [W2_of_ne m ρ c main_arg13 (by decide)]
  dsimp only [W1, hostOps0]; after_results_simp <;> rfl

set_option maxHeartbeats 1000000 in
theorem W2_arg14 : W2 (F := Ideal) m ρ c (Proc.devRef .tc main_arg14) = (m ((c : Thread nD τ).loc main_arg14)) := by
  rw [W2_of_ne m ρ c main_arg14 (by decide)]
  dsimp only [W1, hostOps0]; after_results_simp <;> rfl

set_option maxHeartbeats 1000000 in
theorem W2_arg15 : W2 (F := Ideal) m ρ c (Proc.devRef .tc main_arg15) = (m ((c : Thread nD τ).loc main_arg15)) := by
  rw [W2_of_ne m ρ c main_arg15 (by decide)]
  dsimp only [W1, hostOps0]; after_results_simp <;> rfl

set_option maxHeartbeats 1000000 in
theorem W2_arg16 : W2 (F := Ideal) m ρ c (Proc.devRef .tc main_arg16) = (m ((c : Thread nD τ).loc main_arg16)) := by
  rw [W2_of_ne m ρ c main_arg16 (by decide)]
  dsimp only [W1, hostOps0]; after_results_simp <;> rfl

set_option maxHeartbeats 1000000 in
theorem W2_arg17 : W2 (F := Ideal) m ρ c (Proc.devRef .tc main_arg17) = (m ((c : Thread nD τ).loc main_arg17)) := by
  rw [W2_of_ne m ρ c main_arg17 (by decide)]
  dsimp only [W1, hostOps0]; after_results_simp <;> rfl

set_option maxHeartbeats 1000000 in
theorem W2_arg18 : W2 (F := Ideal) m ρ c (Proc.devRef .tc main_arg18) = (m ((c : Thread nD τ).loc main_arg18)) := by
  rw [W2_of_ne m ρ c main_arg18 (by decide)]
  dsimp only [W1, hostOps0]; after_results_simp <;> rfl

end Cert.KernelIdeal.Fold

end
-- ==== Proof.RegionShared.lean ====
/-
  Two facts the regions' value lemmas share.

  A body's loads and its store start at offset (0, 0) of their staging buffers, and the matrix products of the
  tiled bodies contract the left operand's axis 1 with the right operand's axis 0: the plain product of a
  block of rows by a 128-by-128 weight matrix.
-/
import proofs.«162206_j37220186587417_2_alg».proof.Proof.Gen.KernelIdeal.Frame
import Idealize.ShloMosaic.PureOps.Ideal.Laws

noncomputable section

namespace Cert.KernelIdeal.RegionValue

open Cert.KernelIdeal Idealize.ShloMosaic

/-- The offset (0, 0) is the zero offset. -/
theorem hz : (![0, 0] : Fin 2 → Nat) = fun _ => 0 := funext fun a => by fin_cases a <;> rfl

/-- The product of a 4000-row block by a weight matrix is the plain one. -/
theorem dot4000_plain : dot_S4000x128_S128x128_S4000x128_1_0_0_1_n_n = DotDims.plain 4000 128 128 := rfl

/-- The product of the 2048-row array by a weight matrix is the plain one. -/
theorem dot2048_plain : dot_S2048x128_S128x128_S2048x128_1_0_0_1_n_n = DotDims.plain 2048 128 128 := rfl

end Cert.KernelIdeal.RegionValue

end
-- ==== Proof.Region1.lean ====
/-
  The rectified linear layer over the 200000 feature rows, tile by tile.

  The layer acts row by row: row n of the result is max(X[n]·W + b, 0). The region walks the rows in 50 tiles of
  4000; at tile t its body reads rows 4000t … 4000t + 3999 of X, the whole of W and of b, and stores the layer of
  that block. A row of the block is row 4000t + p of X, the layer of the block at (p, q) is therefore the layer
  of X at (4000t + p, q), the tiles cover every row, and the result array ends holding the layer of X.
-/
import proofs.«162206_j37220186587417_2_alg».proof.Proof.Gen.KernelIdeal.Frame
import proofs.«162206_j37220186587417_2_alg».proof.Proof.NetSpec
import proofs.«162206_j37220186587417_2_alg».proof.Proof.RegionShared
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx

/-- The body's value on a block of rows: the layer at the block's size. -/
theorem pay1_eq (x0 : FVec Ideal S4000x128 .bf16) (x1 : FVec Ideal S128x128 .f32) (x2 : FVec Ideal S1x128 .f32) :
    k1_pay1 (F := Ideal) x0 x1 x2 = Cert.Net.lin (E := 4000) x0 x1 x2 := by
  funext i
  obtain ⟨p, q, rfl⟩ : ∃ (p : Fin 4000) (q : Fin 128), i = ix2 p q := ⟨i 0, i 1, eq_ix2 i⟩
  unfold k1_pay1
  refine (Cert.Dense.tileRelu_apply 4000 128 _ (ix2 p q)).trans ?_
  refine (congrArg (fun z => max z 0) ?_).trans (Cert.Net.lin_apply x0 x1 x2 p q).symm
  refine (Cert.Dense.tileAddRow_apply 4000 128 _ _ _ x2 p q).trans ?_
  refine congrArg (fun z => z + x2 (ix2 (0 : Fin 1) q)) ?_
  rw [dot4000_plain]
  refine (Cert.LibPlainContract.matmul_plain_apply 4000 128 128 none _ _ p q).trans ?_
  refine Finset.sum_congr rfl (fun k _ => ?_)
  rw [shapeCast_self]
  rfl

variable (V : (c : Dev nD) → (b : Ref sig .tc) → Buf (Elt Ideal) ((c : Thread nD τ).loc b))

/-- Where the blocks sit: at tile t the rows' block and the result's block have index (t, 0), the weights' and the
    bias's block index (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of tile t's block of X is row 4000t + p of X. -/
theorem blk1_0 (c : Dev nD) (t : Fin cfg1.N) (p : Fin 4000) (j : Fin 128) (h : t.val * 4000 + p.val < 200000) :
    (iblk1 V c 0 t : S4000x128.Idx → EReal) (ix2 p j)
      = (V c main_v0 : S200000x128.Idx → EReal) (ix2 ⟨t.val * 4000 + p.val, h⟩ j) := by
  obtain ⟨e0, e1, -⟩ := idx1 t
  unfold iblk1
  rw [View.read_apply]
  show V c main_v0 _ = V c main_v0 _
  refine congrArg (V c main_v0) ?_
  funext a; apply Fin.ext
  match a with
  | ⟨0, _⟩ => show win1_0.index t (0 : Fin 2) * 4000 + 1 * p.val = t.val * 4000 + p.val; omega
  | ⟨1, _⟩ => show win1_0.index t (1 : Fin 2) * 128 + 1 * j.val = j.val; omega

/-- The weights' block is the whole of W at every tile. -/
theorem blk1_1 (c : Dev nD) (t : Fin cfg1.N) (k : Fin 128) (j : Fin 128) :
    (iblk1 V c 1 t : S128x128.Idx → EReal) (ix2 k j) = (V c main_arg9 : S128x128.Idx → EReal) (ix2 k j) := by
  obtain ⟨-, -, e0, e1, -⟩ := idx1 t
  unfold iblk1
  rw [View.read_apply]
  show V c main_arg9 _ = V c main_arg9 _
  refine congrArg (V c main_arg9) ?_
  funext a; apply Fin.ext
  match a with
  | ⟨0, _⟩ => show win1_1.index t (0 : Fin 2) * 128 + 1 * k.val = k.val; omega
  | ⟨1, _⟩ => show win1_1.index t (1 : Fin 2) * 128 + 1 * j.val = j.val; omega

/-- The bias's block is the whole of b at every tile. -/
theorem blk1_2 (c : Dev nD) (t : Fin cfg1.N) (k : Fin 1) (j : Fin 128) :
    (iblk1 V c 2 t : S1x128.Idx → EReal) (ix2 k j) = (V c main_v29 : S1x128.Idx → EReal) (ix2 k j) := by
  obtain ⟨-, -, -, -, e0, e1, -⟩ := idx1 t
  unfold iblk1
  rw [View.read_apply]
  show V c main_v29 _ = V c main_v29 _
  refine congrArg (V c main_v29) ?_
  funext a; apply Fin.ext
  match a with
  | ⟨0, _⟩ => show win1_2.index t (0 : Fin 2) * 1 + 1 * k.val = k.val; omega
  | ⟨1, _⟩ => show win1_2.index t (1 : Fin 2) * 128 + 1 * j.val = j.val; omega

/-- What tile t writes back is block t of the layer of X. -/
theorem flushed1 (c : Dev nD) (t : Fin cfg1.N) :
    (dat1 (F := Ideal) V c).flushed 3 t = ((cfg1.win 3).blk t).view.read (Elt Ideal)
      (Cert.Net.lin (E := 200000) (V c main_v0) (V c main_arg9) (V c main_v29)) := by
  show (cfg1.win 3).cut (grid1.coords t) ((dat1 V c).after 3 t) = _
  rw [after1_3]
  unfold out1_3
  rw [View.canon_unit_zero hz]
  simp only [View.ld_unit_zero (S := S4000x128) hz, View.ld_unit_zero (S := S128x128) hz, View.ld_unit_zero (S := S1x128) hz]
  rw [pay1_eq]
  funext y
  obtain ⟨p, q, rfl⟩ : ∃ (p : Fin 4000) (q : Fin 128), y = ix2 p q := ⟨y 0, y 1, eq_ix2 y⟩
  have ht : t.val < 50 := by have h := t.isLt; have hN : cfg1.N = 50 := N_1; omega
  have hrow : t.val * 4000 + p.val < 200000 := by have := p.isLt; omega
  obtain ⟨-, -, -, -, -, -, e0, e1⟩ := idx1 t
  have hemb : ((cfg1.win 3).blk t).view.emb (ix2 p q) = (ix2 ⟨t.val * 4000 + p.val, hrow⟩ q : S200000x128.Idx) := by
    funext a; apply Fin.ext
    match a with
    | ⟨0, _⟩ => show win1_3.index t (0 : Fin 2) * 4000 + 1 * p.val = t.val * 4000 + p.val; omega
    | ⟨1, _⟩ => show win1_3.index t (1 : Fin 2) * 128 + 1 * q.val = q.val; omega
  rw [View.read_apply]
  show Cert.Net.lin (E := 4000) (iblk1 V c 0 t) (iblk1 V c 1 t) (iblk1 V c 2 t) (ix2 p q)
      = Cert.Net.lin (E := 200000) (V c main_v0) (V c main_arg9) (V c main_v29) (((cfg1.win 3).blk t).view.emb (ix2 p q))
  rw [hemb, Cert.Net.lin_apply, Cert.Net.lin_apply]
  refine congrArg (fun z => max z 0) ?_
  refine congr (congrArg HAdd.hAdd (Finset.sum_congr rfl fun j _ => ?_)) (blk1_2 V c t 0 q)
  exact congr (congrArg HMul.hMul (blk1_0 V c t p j hrow)) (blk1_1 V c t j q)

/-- An index is in tile t's block iff each coordinate is in the block's range on its axis. -/
theorem mem_blk1 (t : Fin cfg1.N) (i : S200000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v30).slice (win1_3.rect t)).set ↔ _
  rw [View.set_slice_whole, Rect.mem_set_unit]
  exact Iff.rfl

/-- Row r lies in tile r / 4000: the tiles cover the array. -/
theorem cover1 (i : S200000x128.Idx) :
    ∃ t : Fin cfg1.N, (cfg1.win 3).flush t = true ∧ i ∈ ((cfg1.win 3).blk t).view.set := by
  have hi0 : (i 0).val < 200000 := (i 0).isLt
  have hi1 : (i 1).val < 128 := (i 1).isLt
  have hN : cfg1.N = 50 := N_1
  let t : Fin cfg1.N := ⟨(i 0).val / 4000, by rw [hN]; omega⟩
  have htv : t.val = (i 0).val / 4000 := rfl
  obtain ⟨-, -, -, -, -, -, e0, e1⟩ := idx1 t
  refine ⟨t, flush1_3 t, ?_⟩
  rw [mem_blk1]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 128 ≤ (i 1).val ∧ (i 1).val < win1_3.index t (1 : Fin 2) * 128 + 128; omega

/-- The result array after the region's write-backs is the layer of X. -/
theorem region1 (c : Dev nD) :
    (dat1 (F := Ideal) V c).arrAt 3 cfg1.N = Cert.Net.lin (E := 200000) (V c main_v0) (V c main_arg9) (V c main_v29) :=
  (dat1 V c).arrAt_eq_of_cover 3 _ (fun t _ => flushed1 V c t) cover1

end Cert.KernelIdeal.RegionValue

end
-- ==== Proof.KFold1.lean ====
/-
  The kernel program's fold, second part: the segment sum of the edge messages, and the second tiled region.

  The host operations after the first region scatter-add its output into the receiving particles with the reference's
  own index column; the second region is the rectified linear layer of the particle rows, the reference's product,
  bias and rectifier.
-/
import proofs.«162206_j37220186587417_2_alg».proof.Proof.Gen.KernelIdeal.Frame
import proofs.«162206_j37220186587417_2_alg».proof.Proof.Gen.ReferenceIdeal.Read
import proofs.«162206_j37220186587417_2_alg».proof.Proof.NetSpec
import proofs.«162206_j37220186587417_2_alg».proof.Proof.HostStages
import proofs.«162206_j37220186587417_2_alg».proof.Proof.KFold0
import proofs.«162206_j37220186587417_2_alg».proof.Proof.Region1
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 1000000 in
theorem W3_v28 : W3 (F := Ideal) m ρ c (Proc.devRef .tc main_v28) = Cert.ReferenceIdeal.Read.val_main_v32 (F := Ideal) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) := by
  dsimp only [W3, hostOps1]; after_results_simp
  rw [W2_v23 m ρ c, W2_arg3 m ρ c]
  delta Cert.ReferenceIdeal.Read.val_main_v32 Cert.ReferenceIdeal.Read.val_main_v30 Cert.ReferenceIdeal.Read.val_main_cst Cert.ReferenceIdeal.Read.val_main_v31 Cert.ReferenceIdeal.Read.val_main_v29 Cert.ReferenceIdeal.Read.val_main_v28
  dsimp only
  rfl

set_option maxHeartbeats 1000000 in
theorem W3_v29 : W3 (F := Ideal) m ρ c (Proc.devRef .tc main_v29) = shapeCast S1x128 (m ((c : Thread nD τ).loc main_arg10)) shapeCasts_S128_S1x128 := by
  dsimp only [W3, hostOps1]; after_results_simp
  rw [W2_arg10 m ρ c]
  all_goals first | rfl | (dsimp only; rfl)

set_option maxHeartbeats 1000000 in
theorem W3_v0 : W3 (F := Ideal) m ρ c (Proc.devRef .tc main_v0) = (truncf .bf16 ((m ((c : Thread nD τ).loc main_arg0)) : FVec Ideal S200000x128 .f32) bitsLt_bf16_f32 : FVec Ideal S200000x128 .bf16) := by
  dsimp only [W3, hostOps1]; after_results_simp
  exact W2_v0 m ρ c

set_option maxHeartbeats 1000000 in
theorem W3_arg9 : W3 (F := Ideal) m ρ c (Proc.devRef .tc main_arg9) = (m ((c : Thread nD τ).loc main_arg9)) := by
  dsimp only [W3, hostOps1]; after_results_simp
  exact W2_arg9 m ρ c

set_option maxHeartbeats 1000000 in
/-- The second region's output: the reference's rectified layer of the particle rows. -/
theorem W4_v30 : W4 (F := Ideal) m ρ c (Proc.devRef .tc main_v30) = Cert.ReferenceIdeal.Read.val_main_v37 (F := Ideal) (m ((c : Thread nD τ).loc main_arg0)) (m ((c : Thread nD τ).loc main_arg9)) (m ((c : Thread nD τ).loc main_arg10)) := by
  refine (W4_arr m ρ c 3).trans ?_
  rw [Cert.KernelIdeal.RegionValue.region1 (V3 m ρ) c]
  show Cert.Net.lin (E := 200000) (W3 (F := Ideal) m ρ c (Proc.devRef .tc main_v0)) (W3 (F := Ideal) m ρ c (Proc.devRef .tc main_arg9)) (W3 (F := Ideal) m ρ c (Proc.devRef .tc main_v29)) = _
  rw [W3_v0, W3_arg9, W3_v29]
  delta Cert.ReferenceIdeal.Read.val_main_v37 Cert.ReferenceIdeal.Read.val_main_v36 Cert.ReferenceIdeal.Read.val_main_v33 Cert.ReferenceIdeal.Read.val_main_v35 Cert.ReferenceIdeal.Read.val_main_v34 Cert.ReferenceIdeal.Read.val_main_call1_v0 Cert.ReferenceIdeal.Read.val_main_call1_cst
  exact (Cert.Net.host_lin_eq (E := 200000) (m ((c : Thread nD τ).loc main_arg0)) (m ((c : Thread nD τ).loc main_arg9)) (m ((c : Thread nD τ).loc main_arg10))
    Cert.ReferenceIdeal.Facts₀.bcast_S128_S1x128_1 Cert.ReferenceIdeal.Facts₀.bcast_S1x128_S200000x128_0_1 Cert.ReferenceIdeal.Facts₀.bcast_S_S200000x128 shapeCasts_S128_S1x128).symm

set_option maxHeartbeats 1000000 in
theorem W4_v28 : W4 (F := Ideal) m ρ c (Proc.devRef .tc main_v28) = Cert.ReferenceIdeal.Read.val_main_v32 (F := Ideal) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) := by
  rw [W4_of_ne m ρ c main_v28 (by decide)]
  exact W3_v28 m ρ c

set_option maxHeartbeats 1000000 in
theorem W4_arg2 : W4 (F := Ideal) m ρ c (Proc.devRef .tc main_arg2) = (m ((c : Thread nD τ).loc main_arg2)) := by
  rw [W4_of_ne m ρ c main_arg2 (by decide)]
  dsimp only [W3, hostOps1]; after_results_simp
  exact W2_arg2 m ρ c

set_option maxHeartbeats 1000000 in
theorem W4_arg4 : W4 (F := Ideal) m ρ c (Proc.devRef .tc main_arg4) = (m ((c : Thread nD τ).loc main_arg4)) := by
  rw [W4_of_ne m ρ c main_arg4 (by decide)]
  dsimp only [W3, hostOps1]; after_results_simp
  exact W2_arg4 m ρ c

set_option maxHeartbeats 1000000 in
theorem W4_arg11 : W4 (F := Ideal) m ρ c (Proc.devRef .tc main_arg11) = (m ((c : Thread nD τ).loc main_arg11)) := by
  rw [W4_of_ne m ρ c main_arg11 (by decide)]
  dsimp only [W3, hostOps1]; after_results_simp
  exact W2_arg11 m ρ c

set_option maxHeartbeats 1000000 in
theorem W4_arg12 : W4 (F := Ideal) m ρ c (Proc.devRef .tc main_arg12) = (m ((c : Thread nD τ).loc main_arg12)) := by
  rw [W4_of_ne m ρ c main_arg12 (by decide)]
  dsimp only [W3, hostOps1]; after_results_simp
  exact W2_arg12 m ρ c

set_option maxHeartbeats 1000000 in
theorem W4_arg13 : W4 (F := Ideal) m ρ c (Proc.devRef .tc main_arg13) = (m ((c : Thread nD τ).loc main_arg13)) := by
  rw [W4_of_ne m ρ c main_arg13 (by decide)]
  dsimp only [W3, hostOps1]; after_results_simp
  exact W2_arg13 m ρ c

set_option maxHeartbeats 1000000 in
theorem W4_arg14 : W4 (F := Ideal) m ρ c (Proc.devRef .tc main_arg14) = (m ((c : Thread nD τ).loc main_arg14)) := by
  rw [W4_of_ne m ρ c main_arg14 (by decide)]
  dsimp only [W3, hostOps1]; after_results_simp
  exact W2_arg14 m ρ c

set_option maxHeartbeats 1000000 in
theorem W4_arg15 : W4 (F := Ideal) m ρ c (Proc.devRef .tc main_arg15) = (m ((c : Thread nD τ).loc main_arg15)) := by
  rw [W4_of_ne m ρ c main_arg15 (by decide)]
  dsimp only [W3, hostOps1]; after_results_simp
  exact W2_arg15 m ρ c

set_option maxHeartbeats 1000000 in
theorem W4_arg16 : W4 (F := Ideal) m ρ c (Proc.devRef .tc main_arg16) = (m ((c : Thread nD τ).loc main_arg16)) := by
  rw [W4_of_ne m ρ c main_arg16 (by decide)]
  dsimp only [W3, hostOps1]; after_results_simp
  exact W2_arg16 m ρ c

set_option maxHeartbeats 1000000 in
theorem W4_arg17 : W4 (F := Ideal) m ρ c (Proc.devRef .tc main_arg17) = (m ((c : Thread nD τ).loc main_arg17)) := by
  rw [W4_of_ne m ρ c main_arg17 (by decide)]
  dsimp only [W3, hostOps1]; after_results_simp
  exact W2_arg17 m ρ c

set_option maxHeartbeats 1000000 in
theorem W4_arg18 : W4 (F := Ideal) m ρ c (Proc.devRef .tc main_arg18) = (m ((c : Thread nD τ).loc main_arg18)) := by
  rw [W4_of_ne m ρ c main_arg18 (by decide)]
  dsimp only [W3, hostOps1]; after_results_simp
  exact W2_arg18 m ρ c

end Cert.KernelIdeal.Fold

end
-- ==== Proof.Region2.lean ====
/-
  The output array of the edge stage over 65536 rows, after the region's write-backs.

  The region walks 16 points; point t stages rows 4096·t … 4096·t + 4095 of the sender and receiver arrays and the whole
  weight and bias arrays, applies the tiled edge stage, and writes the result back over the same rows of the output
  array. The tiled stage is the whole-array edge function at 4096 rows, a row of a block is a row of its array, and the
  16 blocks tile the 65536 rows, so the output array ends holding the whole-array edge function of the region's input
  arrays, whatever those arrays hold when the region is entered.
-/
import proofs.«162206_j37220186587417_2_alg».proof.Proof.Gen.KernelIdeal.Frame
import proofs.«162206_j37220186587417_2_alg».proof.Proof.NetSpec
import proofs.«162206_j37220186587417_2_alg».proof.Proof.EdgeTile
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx Cert.Dense

/-- The zero offsets of a rank-2 access, as a constant function. -/
theorem zeroOff2 : (![0, 0] : Fin 2 → Nat) = fun _ => 0 := funext fun a => by fin_cases a <;> rfl

/-- The tiled body's stored value is the whole-array edge function at 4096 rows. -/
theorem pay2_eq (x0 x1 : FVec Ideal S4096x128 .bf16) (x2 x3 : FVec Ideal S128x128 .f32) (x4 : FVec Ideal S1x128 .f32)
    (x5 : FVec Ideal S128x128 .f32) (x6 : FVec Ideal S1x128 .f32) :
    k2_pay1 (F := Ideal) x0 x1 x2 x3 x4 x5 x6 = Cert.Net.edge (E := 4096) x0 x1 x2 x3 x4 x5 x6 :=
  Cert.EdgeTile.tile_eq_edge 4096 shapeCasts_S4096x128_S4096x128 shapeCasts_S128x128_S128x128 shapeCasts_S1x128_S1x128
    broadcasts_S1x128_S4096x128 bitsLt_bf16_f32 x0 x1 x2 x3 x4 x5 x6

/-- The block indices of the eight windows at a point: the row-blocked windows (senders, receivers, output) are at block
    (t, 0), the weight and bias windows at block (0, 0). -/
structure Idx2 (t : Fin cfg2.N) : Prop where
  w0 : win2_0.index t (0 : Fin 2) = t.val ∧ win2_0.index t (1 : Fin 2) = 0
  w1 : win2_1.index t (0 : Fin 2) = t.val ∧ win2_1.index t (1 : Fin 2) = 0
  w2 : win2_2.index t (0 : Fin 2) = 0 ∧ win2_2.index t (1 : Fin 2) = 0
  w3 : win2_3.index t (0 : Fin 2) = 0 ∧ win2_3.index t (1 : Fin 2) = 0
  w4 : win2_4.index t (0 : Fin 2) = 0 ∧ win2_4.index t (1 : Fin 2) = 0
  w5 : win2_5.index t (0 : Fin 2) = 0 ∧ win2_5.index t (1 : Fin 2) = 0
  w6 : win2_6.index t (0 : Fin 2) = 0 ∧ win2_6.index t (1 : Fin 2) = 0
  w7 : win2_7.index t (0 : Fin 2) = t.val ∧ win2_7.index t (1 : Fin 2) = 0

theorem idx2_dec : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

theorem idx2 (t : Fin cfg2.N) : Idx2 t := by
  obtain ⟨h0, h1, h2, h3, h4, h5, h6, h7⟩ := idx2_dec t
  exact ⟨h0, h1, h2, h3, h4, h5, h6, h7⟩

/-! ## A window's block read off its array -/

theorem rows2_0 (V : (c : Dev nD) → (b : Ref sig .tc) → Buf (Elt Ideal) ((c : Thread nD τ).loc b)) (c : Dev nD) (t : Fin cfg2.N) (p : Fin 4096) (P : Fin 65536)
    (hP : P.val = t.val * 4096 + p.val) (j : Fin 128) :
    (iblk2 (F := Ideal) V c 0 t : Mat 4096 128) (ix2 p j) = (V c main_v52 : Mat 65536 128) (ix2 P j) := by
  have e := idx2 t
  unfold iblk2
  rw [View.read_apply]
  refine congrArg (V c main_v52 : Mat 65536 128) ?_
  funext a; apply Fin.ext
  match a with
  | ⟨0, _⟩ => show win2_0.index t (0 : Fin 2) * 4096 + 1 * p.val = P.val; rw [e.w0.1, hP]; omega
  | ⟨1, _⟩ => show win2_0.index t (1 : Fin 2) * 128 + 1 * j.val = j.val; rw [e.w0.2]; omega

theorem rows2_1 (V : (c : Dev nD) → (b : Ref sig .tc) → Buf (Elt Ideal) ((c : Thread nD τ).loc b)) (c : Dev nD) (t : Fin cfg2.N) (p : Fin 4096) (P : Fin 65536)
    (hP : P.val = t.val * 4096 + p.val) (j : Fin 128) :
    (iblk2 (F := Ideal) V c 1 t : Mat 4096 128) (ix2 p j) = (V c main_v61 : Mat 65536 128) (ix2 P j) := by
  have e := idx2 t
  unfold iblk2
  rw [View.read_apply]
  refine congrArg (V c main_v61 : Mat 65536 128) ?_
  funext a; apply Fin.ext
  match a with
  | ⟨0, _⟩ => show win2_1.index t (0 : Fin 2) * 4096 + 1 * p.val = P.val; rw [e.w1.1, hP]; omega
  | ⟨1, _⟩ => show win2_1.index t (1 : Fin 2) * 128 + 1 * j.val = j.val; rw [e.w1.2]; omega

theorem whole2_2 (V : (c : Dev nD) → (b : Ref sig .tc) → Buf (Elt Ideal) ((c : Thread nD τ).loc b)) (c : Dev nD) (t : Fin cfg2.N) :
    (iblk2 (F := Ideal) V c 2 t : Mat 128 128) = (V c main_v62 : Mat 128 128) := by
  have e := idx2 t
  refine funext fun (y : (⟨2, ![128, 128]⟩ : Shape).Idx) => ?_
  unfold iblk2
  rw [View.read_apply]
  refine congrArg (V c main_v62 : Mat 128 128) ?_
  funext a; apply Fin.ext
  match a with
  | ⟨0, _⟩ => show win2_2.index t (0 : Fin 2) * 128 + 1 * (y 0).val = (y 0).val; rw [e.w2.1]; omega
  | ⟨1, _⟩ => show win2_2.index t (1 : Fin 2) * 128 + 1 * (y 1).val = (y 1).val; rw [e.w2.2]; omega

theorem whole2_3 (V : (c : Dev nD) → (b : Ref sig .tc) → Buf (Elt Ideal) ((c : Thread nD τ).loc b)) (c : Dev nD) (t : Fin cfg2.N) :
    (iblk2 (F := Ideal) V c 3 t : Mat 128 128) = (V c main_v63 : Mat 128 128) := by
  have e := idx2 t
  refine funext fun (y : (⟨2, ![128, 128]⟩ : Shape).Idx) => ?_
  unfold iblk2
  rw [View.read_apply]
  refine congrArg (V c main_v63 : Mat 128 128) ?_
  funext a; apply Fin.ext
  match a with
  | ⟨0, _⟩ => show win2_3.index t (0 : Fin 2) * 128 + 1 * (y 0).val = (y 0).val; rw [e.w3.1]; omega
  | ⟨1, _⟩ => show win2_3.index t (1 : Fin 2) * 128 + 1 * (y 1).val = (y 1).val; rw [e.w3.2]; omega

theorem whole2_4 (V : (c : Dev nD) → (b : Ref sig .tc) → Buf (Elt Ideal) ((c : Thread nD τ).loc b)) (c : Dev nD) (t : Fin cfg2.N) :
    (iblk2 (F := Ideal) V c 4 t : Mat 1 128) = (V c main_v64 : Mat 1 128) := by
  have e := idx2 t
  refine funext fun (y : (⟨2, ![1, 128]⟩ : Shape).Idx) => ?_
  unfold iblk2
  rw [View.read_apply]
  refine congrArg (V c main_v64 : Mat 1 128) ?_
  funext a; apply Fin.ext
  match a with
  | ⟨0, _⟩ => show win2_4.index t (0 : Fin 2) * 1 + 1 * (y 0).val = (y 0).val; rw [e.w4.1]; omega
  | ⟨1, _⟩ => show win2_4.index t (1 : Fin 2) * 128 + 1 * (y 1).val = (y 1).val; rw [e.w4.2]; omega

theorem whole2_5 (V : (c : Dev nD) → (b : Ref sig .tc) → Buf (Elt Ideal) ((c : Thread nD τ).loc b)) (c : Dev nD) (t : Fin cfg2.N) :
    (iblk2 (F := Ideal) V c 5 t : Mat 128 128) = (V c main_arg13 : Mat 128 128) := by
  have e := idx2 t
  refine funext fun (y : (⟨2, ![128, 128]⟩ : Shape).Idx) => ?_
  unfold iblk2
  rw [View.read_apply]
  refine congrArg (V c main_arg13 : Mat 128 128) ?_
  funext a; apply Fin.ext
  match a with
  | ⟨0, _⟩ => show win2_5.index t (0 : Fin 2) * 128 + 1 * (y 0).val = (y 0).val; rw [e.w5.1]; omega
  | ⟨1, _⟩ => show win2_5.index t (1 : Fin 2) * 128 + 1 * (y 1).val = (y 1).val; rw [e.w5.2]; omega

theorem whole2_6 (V : (c : Dev nD) → (b : Ref sig .tc) → Buf (Elt Ideal) ((c : Thread nD τ).loc b)) (c : Dev nD) (t : Fin cfg2.N) :
    (iblk2 (F := Ideal) V c 6 t : Mat 1 128) = (V c main_v65 : Mat 1 128) := by
  have e := idx2 t
  refine funext fun (y : (⟨2, ![1, 128]⟩ : Shape).Idx) => ?_
  unfold iblk2
  rw [View.read_apply]
  refine congrArg (V c main_v65 : Mat 1 128) ?_
  funext a; apply Fin.ext
  match a with
  | ⟨0, _⟩ => show win2_6.index t (0 : Fin 2) * 1 + 1 * (y 0).val = (y 0).val; rw [e.w6.1]; omega
  | ⟨1, _⟩ => show win2_6.index t (1 : Fin 2) * 128 + 1 * (y 1).val = (y 1).val; rw [e.w6.2]; omega

/-! ## What a point writes back -/

/-- Point t writes back block t of the whole-array edge function of the input arrays. -/
theorem flushed2 (V : (c : Dev nD) → (b : Ref sig .tc) → Buf (Elt Ideal) ((c : Thread nD τ).loc b)) (c : Dev nD) (t : Fin cfg2.N) :
    (dat2 (F := Ideal) V c).flushed 7 t = ((cfg2.win 7).blk t).view.read (Elt Ideal)
      (Cert.Net.edge (E := 65536) (V c main_v52) (V c main_v61) (V c main_v62) (V c main_v63) (V c main_v64) (V c main_arg13) (V c main_v65)) := by
  show (cfg2.win 7).cut (grid2.coords t) ((dat2 V c).after 7 t) = _
  rw [after2_7]
  unfold out2_7
  rw [View.canon_unit_zero zeroOff2]
  simp only [View.ld_unit_zero (S := S4096x128) zeroOff2, View.ld_unit_zero (S := S128x128) zeroOff2,
    View.ld_unit_zero (S := S1x128) zeroOff2]
  rw [pay2_eq]
  have e := idx2 t
  have hN : cfg2.N = 16 := N_2
  refine funext fun (y : S4096x128.Idx) => ?_
  obtain ⟨p, q, rfl⟩ : ∃ (p : Fin 4096) (q : Fin 128), y = ix2 p q := ⟨y 0, y 1, eq_ix2 y⟩
  have hP : t.val * 4096 + p.val < 65536 := by have := t.isLt; have := p.isLt; omega
  have hemb : ((cfg2.win 7).blk t).view.emb (ix2 p q) = (ix2 (⟨t.val * 4096 + p.val, hP⟩ : Fin 65536) q : S65536x128.Idx) := by
    funext a; apply Fin.ext
    match a with
    | ⟨0, _⟩ => show win2_7.index t (0 : Fin 2) * 4096 + 1 * p.val = t.val * 4096 + p.val; rw [e.w7.1]; omega
    | ⟨1, _⟩ => show win2_7.index t (1 : Fin 2) * 128 + 1 * q.val = q.val; rw [e.w7.2]; omega
  rw [View.read_apply, hemb]
  exact Cert.EdgeTile.edge_block (V c main_v52) (V c main_v61) (V c main_v62) (V c main_v63) (V c main_v64) (V c main_arg13) (V c main_v65)
    (iblk2 V c 0 t) (iblk2 V c 1 t) (iblk2 V c 2 t) (iblk2 V c 3 t) (iblk2 V c 4 t) (iblk2 V c 5 t) (iblk2 V c 6 t)
    p ⟨t.val * 4096 + p.val, hP⟩ q
    (rows2_0 V c t p ⟨t.val * 4096 + p.val, hP⟩ rfl) (rows2_1 V c t p ⟨t.val * 4096 + p.val, hP⟩ rfl)
    (whole2_2 V c t) (whole2_3 V c t) (whole2_4 V c t) (whole2_5 V c t) (whole2_6 V c t)

/-! ## The blocks tile the array -/

/-- An index of the output array is in point t's block iff each coordinate is in the block's range on its axis. -/
theorem mem_blk2 (t : Fin cfg2.N) (i : S65536x128.Idx) :
    i ∈ ((cfg2.win 7).blk t).view.set ↔ ∀ a : Fin 2, win2_7.index t a * S4096x128.size a ≤ (i a).val ∧ (i a).val < win2_7.index t a * S4096x128.size a + S4096x128.size a := by
  show i ∈ ((View.whole main_v66).slice (win2_7.rect t)).set ↔ _
  rw [View.set_slice_whole, Rect.mem_set_unit]
  exact Iff.rfl

/-- Row r of the output array is in the block of point r / 4096, which is written back. -/
theorem cover2 (i : S65536x128.Idx) :
    ∃ t : Fin cfg2.N, (cfg2.win 7).flush t = true ∧ i ∈ ((cfg2.win 7).blk t).view.set := by
  have hi0 : (i 0).val < 65536 := (i 0).isLt
  have hi1 : (i 1).val < 128 := (i 1).isLt
  have hN : cfg2.N = 16 := N_2
  obtain ⟨t, ht⟩ : ∃ t : Fin cfg2.N, t.val = (i 0).val / 4096 := ⟨⟨(i 0).val / 4096, by rw [hN]; omega⟩, rfl⟩
  have e := idx2 t
  refine ⟨t, flush2_7 t, ?_⟩
  rw [mem_blk2]
  intro a
  match a with
  | ⟨0, _⟩ => show win2_7.index t (0 : Fin 2) * 4096 ≤ (i 0).val ∧ (i 0).val < win2_7.index t (0 : Fin 2) * 4096 + 4096; rw [e.w7.1, ht]; omega
  | ⟨1, _⟩ => show win2_7.index t (1 : Fin 2) * 128 ≤ (i 1).val ∧ (i 1).val < win2_7.index t (1 : Fin 2) * 128 + 128; rw [e.w7.2]; omega

/-! ## The array after the region -/

/-- After the region's write-backs the output array is the whole-array edge function of the region's input arrays,
    whatever the arrays hold when the region is entered. -/
theorem region2 (V : (c : Dev nD) → (b : Ref sig .tc) → Buf (Elt Ideal) ((c : Thread nD τ).loc b)) (c : Dev nD) :
    (dat2 (F := Ideal) V c).arrAt 7 cfg2.N = Cert.Net.edge (E := 65536) (V c main_v52) (V c main_v61) (V c main_v62) (V c main_v63) (V c main_v64) (V c main_arg13) (V c main_v65) :=
  (dat2 V c).arrAt_eq_of_cover 7 _ (fun t _ => flushed2 V c t) cover2

end Cert.KernelIdeal.RegionValue

end
-- ==== Proof.KFold2.lean ====
/-
  The kernel program's fold, third part: the per-cluster mean, the gathers at the cluster edges, and the third region.

  The host operations are the reference's own (segment sums into the clusters, the count clipped below at one, the
  quotient, the two gathers at the cluster edges' end indices, from a narrowed copy: the same rows at exact values);
  the third region is the edge message function on the cluster edges.
-/
import proofs.«162206_j37220186587417_2_alg».proof.Proof.Gen.KernelIdeal.Frame
import proofs.«162206_j37220186587417_2_alg».proof.Proof.Gen.ReferenceIdeal.Read
import proofs.«162206_j37220186587417_2_alg».proof.Proof.NetSpec
import proofs.«162206_j37220186587417_2_alg».proof.Proof.HostStages
import proofs.«162206_j37220186587417_2_alg».proof.Proof.KFold1
import proofs.«162206_j37220186587417_2_alg».proof.Proof.Region2
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 1000000 in
theorem W5_v52 : W5 (F := Ideal) m ρ c (Proc.devRef .tc main_v52) = Cert.ReferenceIdeal.Read.val_main_v58 (F := Ideal) (m ((c : Thread nD τ).loc main_arg0)) (m ((c : Thread nD τ).loc main_arg2)) (m ((c : Thread nD τ).loc main_arg4)) (m ((c : Thread nD τ).loc main_arg9)) (m ((c : Thread nD τ).loc main_arg10)) := by
  dsimp only [W5, hostOps2]; after_results_simp
  rw [W4_v30 m ρ c, W4_arg2 m ρ c, W4_arg4 m ρ c]
  delta Cert.ReferenceIdeal.Read.val_main_v58 Cert.ReferenceIdeal.Read.val_main_v49 Cert.ReferenceIdeal.Read.val_main_v40 Cert.ReferenceIdeal.Read.val_main_v38 Cert.ReferenceIdeal.Read.val_main_cst_3 Cert.ReferenceIdeal.Read.val_main_v39 Cert.ReferenceIdeal.Read.val_main_v48 Cert.ReferenceIdeal.Read.val_main_v47 Cert.ReferenceIdeal.Read.val_main_v46 Cert.ReferenceIdeal.Read.val_main_v44 Cert.ReferenceIdeal.Read.val_main_v42 Cert.ReferenceIdeal.Read.val_main_cst_5 Cert.ReferenceIdeal.Read.val_main_v43 Cert.ReferenceIdeal.Read.val_main_v41 Cert.ReferenceIdeal.Read.val_main_cst_4 Cert.ReferenceIdeal.Read.val_main_v45 Cert.ReferenceIdeal.Read.val_main_cst_6 Cert.ReferenceIdeal.Read.val_main_v57 Cert.ReferenceIdeal.Read.val_main_v56 Cert.ReferenceIdeal.Read.val_main_v53 Cert.ReferenceIdeal.Read.val_main_v51 Cert.ReferenceIdeal.Read.val_main_v50 Cert.ReferenceIdeal.Read.val_main_v52 Cert.ReferenceIdeal.Read.val_main_c_7 Cert.ReferenceIdeal.Read.val_main_v55 Cert.ReferenceIdeal.Read.val_main_v54 Cert.ReferenceIdeal.Read.val_main_c_8
  dsimp only
  rfl

set_option maxHeartbeats 1000000 in
theorem W5_v61 : W5 (F := Ideal) m ρ c (Proc.devRef .tc main_v61) = Cert.ReferenceIdeal.Read.val_main_v67 (F := Ideal) (m ((c : Thread nD τ).loc main_arg0)) (m ((c : Thread nD τ).loc main_arg2)) (m ((c : Thread nD τ).loc main_arg4)) (m ((c : Thread nD τ).loc main_arg9)) (m ((c : Thread nD τ).loc main_arg10)) := by
  dsimp only [W5, hostOps2]; after_results_simp
  rw [W4_v30 m ρ c, W4_arg2 m ρ c, W4_arg4 m ρ c]
  delta Cert.ReferenceIdeal.Read.val_main_v67 Cert.ReferenceIdeal.Read.val_main_v49 Cert.ReferenceIdeal.Read.val_main_v40 Cert.ReferenceIdeal.Read.val_main_v38 Cert.ReferenceIdeal.Read.val_main_cst_3 Cert.ReferenceIdeal.Read.val_main_v39 Cert.ReferenceIdeal.Read.val_main_v48 Cert.ReferenceIdeal.Read.val_main_v47 Cert.ReferenceIdeal.Read.val_main_v46 Cert.ReferenceIdeal.Read.val_main_v44 Cert.ReferenceIdeal.Read.val_main_v42 Cert.ReferenceIdeal.Read.val_main_cst_5 Cert.ReferenceIdeal.Read.val_main_v43 Cert.ReferenceIdeal.Read.val_main_v41 Cert.ReferenceIdeal.Read.val_main_cst_4 Cert.ReferenceIdeal.Read.val_main_v45 Cert.ReferenceIdeal.Read.val_main_cst_6 Cert.ReferenceIdeal.Read.val_main_v66 Cert.ReferenceIdeal.Read.val_main_v65 Cert.ReferenceIdeal.Read.val_main_v62 Cert.ReferenceIdeal.Read.val_main_v60 Cert.ReferenceIdeal.Read.val_main_v59 Cert.ReferenceIdeal.Read.val_main_v61 Cert.ReferenceIdeal.Read.val_main_c_9 Cert.ReferenceIdeal.Read.val_main_v64 Cert.ReferenceIdeal.Read.val_main_v63 Cert.ReferenceIdeal.Read.val_main_c_10
  dsimp only
  rfl

set_option maxHeartbeats 1000000 in
theorem W5_v62 : W5 (F := Ideal) m ρ c (Proc.devRef .tc main_v62) = extractStridedSlice S128x128 ![0, 0] (m ((c : Thread nD τ).loc main_arg11)) slices_S256x128_S128x128_0_0 := by
  dsimp only [W5, hostOps2]; after_results_simp
  rw [W4_arg11 m ρ c]
  all_goals first | rfl | (dsimp only; rfl)

set_option maxHeartbeats 1000000 in
theorem W5_v63 : W5 (F := Ideal) m ρ c (Proc.devRef .tc main_v63) = extractStridedSlice S128x128 ![128, 0] (m ((c : Thread nD τ).loc main_arg11)) slices_S256x128_S128x128_128_0 := by
  dsimp only [W5, hostOps2]; after_results_simp
  rw [W4_arg11 m ρ c]
  all_goals first | rfl | (dsimp only; rfl)

set_option maxHeartbeats 1000000 in
theorem W5_v64 : W5 (F := Ideal) m ρ c (Proc.devRef .tc main_v64) = shapeCast S1x128 (m ((c : Thread nD τ).loc main_arg12)) shapeCasts_S128_S1x128 := by
  dsimp only [W5, hostOps2]; after_results_simp
  rw [W4_arg12 m ρ c]
  all_goals first | rfl | (dsimp only; rfl)

set_option maxHeartbeats 1000000 in
theorem W5_v65 : W5 (F := Ideal) m ρ c (Proc.devRef .tc main_v65) = shapeCast S1x128 (m ((c : Thread nD τ).loc main_arg14)) shapeCasts_S128_S1x128 := by
  dsimp only [W5, hostOps2]; after_results_simp
  rw [W4_arg14 m ρ c]
  all_goals first | rfl | (dsimp only; rfl)

set_option maxHeartbeats 1000000 in
theorem W5_arg13 : W5 (F := Ideal) m ρ c (Proc.devRef .tc main_arg13) = (m ((c : Thread nD τ).loc main_arg13)) := by
  dsimp only [W5, hostOps2]; after_results_simp
  exact W4_arg13 m ρ c

set_option maxHeartbeats 1000000 in
theorem W5_v28 : W5 (F := Ideal) m ρ c (Proc.devRef .tc main_v28) = Cert.ReferenceIdeal.Read.val_main_v32 (F := Ideal) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) := by
  dsimp only [W5, hostOps2]; after_results_simp
  exact W4_v28 m ρ c

set_option maxHeartbeats 1000000 in
/-- The third region's output: the reference's cluster edge messages. -/
theorem W6_v66 : W6 (F := Ideal) m ρ c (Proc.devRef .tc main_v66) = Cert.ReferenceIdeal.Read.val_main_v77 (F := Ideal) (m ((c : Thread nD τ).loc main_arg0)) (m ((c : Thread nD τ).loc main_arg2)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W6_arr m ρ c 7).trans ?_
  rw [Cert.KernelIdeal.RegionValue.region2 (V5 m ρ) c]
  show Cert.Net.edge (E := 65536) (W5 (F := Ideal) m ρ c (Proc.devRef .tc main_v52)) (W5 (F := Ideal) m ρ c (Proc.devRef .tc main_v61)) (W5 (F := Ideal) m ρ c (Proc.devRef .tc main_v62)) (W5 (F := Ideal) m ρ c (Proc.devRef .tc main_v63)) (W5 (F := Ideal) m ρ c (Proc.devRef .tc main_v64)) (W5 (F := Ideal) m ρ c (Proc.devRef .tc main_arg13)) (W5 (F := Ideal) m ρ c (Proc.devRef .tc main_v65)) = _
  rw [W5_v52, W5_v61, W5_v62, W5_v63, W5_v64, W5_arg13, W5_v65]
  delta Cert.ReferenceIdeal.Read.val_main_v77 Cert.ReferenceIdeal.Read.val_main_v74 Cert.ReferenceIdeal.Read.val_main_v73 Cert.ReferenceIdeal.Read.val_main_v72 Cert.ReferenceIdeal.Read.val_main_v69 Cert.ReferenceIdeal.Read.val_main_v68 Cert.ReferenceIdeal.Read.val_main_v71 Cert.ReferenceIdeal.Read.val_main_v70 Cert.ReferenceIdeal.Read.val_main_call2_v0 Cert.ReferenceIdeal.Read.val_main_call2_cst Cert.ReferenceIdeal.Read.val_main_v76 Cert.ReferenceIdeal.Read.val_main_v75
  exact (Cert.Net.host_edge_eq (E := 65536) _ _ (m ((c : Thread nD τ).loc main_arg11)) (m ((c : Thread nD τ).loc main_arg12)) (m ((c : Thread nD τ).loc main_arg14)) (m ((c : Thread nD τ).loc main_arg13))
    Cert.ReferenceIdeal.Facts₀.concatenates_S65536x128_S65536x128_S65536x256_d1 Cert.ReferenceIdeal.Facts₀.bcast_S128_S1x128_1 Cert.ReferenceIdeal.Facts₀.bcast_S1x128_S65536x128_0_1 Cert.ReferenceIdeal.Facts₀.bcast_S_S65536x128
    slices_S256x128_S128x128_0_0 slices_S256x128_S128x128_128_0 shapeCasts_S128_S1x128).symm

set_option maxHeartbeats 1000000 in
theorem W6_v28 : W6 (F := Ideal) m ρ c (Proc.devRef .tc main_v28) = Cert.ReferenceIdeal.Read.val_main_v32 (F := Ideal) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) := by
  rw [W6_of_ne m ρ c main_v28 (by decide)]
  exact W5_v28 m ρ c

set_option maxHeartbeats 1000000 in
theorem W6_arg2 : W6 (F := Ideal) m ρ c (Proc.devRef .tc main_arg2) = (m ((c : Thread nD τ).loc main_arg2)) := by
  rw [W6_of_ne m ρ c main_arg2 (by decide)]
  dsimp only [W5, hostOps2]; after_results_simp
  exact W4_arg2 m ρ c

set_option maxHeartbeats 1000000 in
theorem W6_arg4 : W6 (F := Ideal) m ρ c (Proc.devRef .tc main_arg4) = (m ((c : Thread nD τ).loc main_arg4)) := by
  rw [W6_of_ne m ρ c main_arg4 (by decide)]
  dsimp only [W5, hostOps2]; after_results_simp
  exact W4_arg4 m ρ c

set_option maxHeartbeats 1000000 in
theorem W6_arg15 : W6 (F := Ideal) m ρ c (Proc.devRef .tc main_arg15) = (m ((c : Thread nD τ).loc main_arg15)) := by
  rw [W6_of_ne m ρ c main_arg15 (by decide)]
  dsimp only [W5, hostOps2]; after_results_simp
  exact W4_arg15 m ρ c

set_option maxHeartbeats 1000000 in
theorem W6_arg16 : W6 (F := Ideal) m ρ c (Proc.devRef .tc main_arg16) = (m ((c : Thread nD τ).loc main_arg16)) := by
  rw [W6_of_ne m ρ c main_arg16 (by decide)]
  dsimp only [W5, hostOps2]; after_results_simp
  exact W4_arg16 m ρ c

set_option maxHeartbeats 1000000 in
theorem W6_arg17 : W6 (F := Ideal) m ρ c (Proc.devRef .tc main_arg17) = (m ((c : Thread nD τ).loc main_arg17)) := by
  rw [W6_of_ne m ρ c main_arg17 (by decide)]
  dsimp only [W5, hostOps2]; after_results_simp
  exact W4_arg17 m ρ c

set_option maxHeartbeats 1000000 in
theorem W6_arg18 : W6 (F := Ideal) m ρ c (Proc.devRef .tc main_arg18) = (m ((c : Thread nD τ).loc main_arg18)) := by
  rw [W6_of_ne m ρ c main_arg18 (by decide)]
  dsimp only [W5, hostOps2]; after_results_simp
  exact W4_arg18 m ρ c

end Cert.KernelIdeal.Fold

end
-- ==== Proof.Region3.lean ====
/-
  The rectified layer followed by a projection over the 2048 rows, in one piece.

  The stage acts row by row: row c of the result is max(M[c]·W + b, 0)·U. The region has a single point whose
  blocks are the whole arrays: its body reads M, W, b and U entire and stores the stage of them, so the result
  array ends holding the stage of M.
-/
import proofs.«162206_j37220186587417_2_alg».proof.Proof.Gen.KernelIdeal.Frame
import proofs.«162206_j37220186587417_2_alg».proof.Proof.NetSpec
import proofs.«162206_j37220186587417_2_alg».proof.Proof.RegionShared
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx

/-- The body's value on the arrays: the stage at 2048 rows. -/
theorem pay3_eq (x0 : FVec Ideal S2048x128 .f32) (x1 : FVec Ideal S128x128 .f32) (x2 : FVec Ideal S1x128 .f32)
    (x3 : FVec Ideal S128x128 .f32) :
    k3_pay1 (F := Ideal) x0 x1 x2 x3 = Cert.Net.hoist (E := 2048) x0 x1 x2 x3 := by
  funext i
  obtain ⟨p, q, rfl⟩ : ∃ (p : Fin 2048) (q : Fin 128), i = ix2 p q := ⟨i 0, i 1, eq_ix2 i⟩
  unfold k3_pay1
  refine (truncf_apply (ψ := .bf16) _ bitsLt_bf16_f32 (ix2 p q)).trans ?_
  rw [dot2048_plain]
  refine (Cert.LibPlainContract.matmul_plain_apply 2048 128 128 none _ _ p q).trans ?_
  refine (Finset.sum_congr rfl fun k _ => ?_).trans (Cert.Net.hoist_apply x0 x1 x2 x3 p q).symm
  refine congr (congrArg HMul.hMul ?_) ?_
  · refine (truncf_apply (ψ := .bf16) _ bitsLt_bf16_f32 (ix2 p k)).trans ?_
    refine (Cert.Dense.tileRelu_apply 2048 128 _ (ix2 p k)).trans ?_
    refine congrArg (fun z => max z 0) ?_
    refine (Cert.Dense.tileAddRow_apply 2048 128 _ _ _ x2 p k).trans ?_
    refine congrArg (fun z => z + x2 (ix2 (0 : Fin 1) k)) ?_
    refine (Cert.LibPlainContract.matmul_plain_apply 2048 128 128 none _ _ p k).trans ?_
    refine Finset.sum_congr rfl (fun j _ => ?_)
    rw [shapeCast_self]
    rfl
  · rw [shapeCast_self]
    rfl

variable (V : (c : Dev nD) → (b : Ref sig .tc) → Buf (Elt Ideal) ((c : Thread nD τ).loc b))

/-- Where the blocks sit: every block has index (0, 0). -/
theorem idx3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The rows' block is the whole of M. -/
theorem blk3_0 (c : Dev nD) (t : Fin cfg3.N) (p : Fin 2048) (j : Fin 128) :
    (iblk3 V c 0 t : S2048x128.Idx → EReal) (ix2 p j) = (V c main_v71 : S2048x128.Idx → EReal) (ix2 p j) := by
  obtain ⟨e0, e1, -⟩ := idx3 t
  unfold iblk3
  rw [View.read_apply]
  show V c main_v71 _ = V c main_v71 _
  refine congrArg (V c main_v71) ?_
  funext a; apply Fin.ext
  match a with
  | ⟨0, _⟩ => show win3_0.index t (0 : Fin 2) * 2048 + 1 * p.val = p.val; omega
  | ⟨1, _⟩ => show win3_0.index t (1 : Fin 2) * 128 + 1 * j.val = j.val; omega

/-- The first weights' block is the whole of W. -/
theorem blk3_1 (c : Dev nD) (t : Fin cfg3.N) (k : Fin 128) (j : Fin 128) :
    (iblk3 V c 1 t : S128x128.Idx → EReal) (ix2 k j) = (V c main_arg15 : S128x128.Idx → EReal) (ix2 k j) := by
  obtain ⟨-, -, e0, e1, -⟩ := idx3 t
  unfold iblk3
  rw [View.read_apply]
  show V c main_arg15 _ = V c main_arg15 _
  refine congrArg (V c main_arg15) ?_
  funext a; apply Fin.ext
  match a with
  | ⟨0, _⟩ => show win3_1.index t (0 : Fin 2) * 128 + 1 * k.val = k.val; omega
  | ⟨1, _⟩ => show win3_1.index t (1 : Fin 2) * 128 + 1 * j.val = j.val; omega

/-- The bias's block is the whole of b. -/
theorem blk3_2 (c : Dev nD) (t : Fin cfg3.N) (k : Fin 1) (j : Fin 128) :
    (iblk3 V c 2 t : S1x128.Idx → EReal) (ix2 k j) = (V c main_v72 : S1x128.Idx → EReal) (ix2 k j) := by
  obtain ⟨-, -, -, -, e0, e1, -⟩ := idx3 t
  unfold iblk3
  rw [View.read_apply]
  show V c main_v72 _ = V c main_v72 _
  refine congrArg (V c main_v72) ?_
  funext a; apply Fin.ext
  match a with
  | ⟨0, _⟩ => show win3_2.index t (0 : Fin 2) * 1 + 1 * k.val = k.val; omega
  | ⟨1, _⟩ => show win3_2.index t (1 : Fin 2) * 128 + 1 * j.val = j.val; omega

/-- The projection's block is the whole of U. -/
theorem blk3_3 (c : Dev nD) (t : Fin cfg3.N) (k : Fin 128) (j : Fin 128) :
    (iblk3 V c 3 t : S128x128.Idx → EReal) (ix2 k j) = (V c main_v74 : S128x128.Idx → EReal) (ix2 k j) := by
  obtain ⟨-, -, -, -, -, -, e0, e1, -⟩ := idx3 t
  unfold iblk3
  rw [View.read_apply]
  show V c main_v74 _ = V c main_v74 _
  refine congrArg (V c main_v74) ?_
  funext a; apply Fin.ext
  match a with
  | ⟨0, _⟩ => show win3_3.index t (0 : Fin 2) * 128 + 1 * k.val = k.val; omega
  | ⟨1, _⟩ => show win3_3.index t (1 : Fin 2) * 128 + 1 * j.val = j.val; omega

/-- What the point writes back is the whole of the stage of M, read through the result's one block. -/
theorem flushed3 (c : Dev nD) (t : Fin cfg3.N) :
    (dat3 (F := Ideal) V c).flushed 4 t = ((cfg3.win 4).blk t).view.read (Elt Ideal)
      (Cert.Net.hoist (E := 2048) (V c main_v71) (V c main_arg15) (V c main_v72) (V c main_v74)) := by
  show (cfg3.win 4).cut (grid3.coords t) ((dat3 V c).after 4 t) = _
  rw [after3_4]
  unfold out3_4
  rw [View.canon_unit_zero hz]
  simp only [View.ld_unit_zero (S := S2048x128) hz, View.ld_unit_zero (S := S128x128) hz, View.ld_unit_zero (S := S1x128) hz]
  rw [pay3_eq]
  funext y
  obtain ⟨p, q, rfl⟩ : ∃ (p : Fin 2048) (q : Fin 128), y = ix2 p q := ⟨y 0, y 1, eq_ix2 y⟩
  obtain ⟨-, -, -, -, -, -, -, -, e0, e1⟩ := idx3 t
  have hemb : ((cfg3.win 4).blk t).view.emb (ix2 p q) = (ix2 p q : S2048x128.Idx) := by
    funext a; apply Fin.ext
    match a with
    | ⟨0, _⟩ => show win3_4.index t (0 : Fin 2) * 2048 + 1 * p.val = p.val; omega
    | ⟨1, _⟩ => show win3_4.index t (1 : Fin 2) * 128 + 1 * q.val = q.val; omega
  rw [View.read_apply]
  show Cert.Net.hoist (E := 2048) (iblk3 V c 0 t) (iblk3 V c 1 t) (iblk3 V c 2 t) (iblk3 V c 3 t) (ix2 p q)
      = Cert.Net.hoist (E := 2048) (V c main_v71) (V c main_arg15) (V c main_v72) (V c main_v74) (((cfg3.win 4).blk t).view.emb (ix2 p q))
  rw [hemb, Cert.Net.hoist_apply, Cert.Net.hoist_apply]
  refine Finset.sum_congr rfl fun k _ => ?_
  refine congr (congrArg HMul.hMul (congrArg (fun z => max z 0) ?_)) (blk3_3 V c t k q)
  refine congr (congrArg HAdd.hAdd (Finset.sum_congr rfl fun j _ => ?_)) (blk3_2 V c t 0 k)
  exact congr (congrArg HMul.hMul (blk3_0 V c t p j)) (blk3_1 V c t j k)

/-- An index is in the point's block iff each coordinate is in the block's range on its axis. -/
theorem mem_blk3 (t : Fin cfg3.N) (i : S2048x128.Idx) :
    i ∈ ((cfg3.win 4).blk t).view.set ↔ ∀ a : Fin 2, win3_4.index t a * S2048x128.size a ≤ (i a).val ∧ (i a).val < win3_4.index t a * S2048x128.size a + S2048x128.size a := by
  show i ∈ ((View.whole main_v76).slice (win3_4.rect t)).set ↔ _
  rw [View.set_slice_whole, Rect.mem_set_unit]
  exact Iff.rfl

/-- The one block covers the array. -/
theorem cover3 (i : S2048x128.Idx) :
    ∃ t : Fin cfg3.N, (cfg3.win 4).flush t = true ∧ i ∈ ((cfg3.win 4).blk t).view.set := by
  have hi0 : (i 0).val < 2048 := (i 0).isLt
  have hi1 : (i 1).val < 128 := (i 1).isLt
  obtain ⟨-, -, -, -, -, -, -, -, e0, e1⟩ := idx3 t3_0
  refine ⟨t3_0, flush3_4 t3_0, ?_⟩
  rw [mem_blk3]
  intro a
  match a with
  | ⟨0, _⟩ => show win3_4.index t3_0 (0 : Fin 2) * 2048 ≤ (i 0).val ∧ (i 0).val < win3_4.index t3_0 (0 : Fin 2) * 2048 + 2048; omega
  | ⟨1, _⟩ => show win3_4.index t3_0 (1 : Fin 2) * 128 ≤ (i 1).val ∧ (i 1).val < win3_4.index t3_0 (1 : Fin 2) * 128 + 128; omega

/-- The result array after the region's write-back is the stage of M. -/
theorem region3 (c : Dev nD) :
    (dat3 (F := Ideal) V c).arrAt 4 cfg3.N = Cert.Net.hoist (E := 2048) (V c main_v71) (V c main_arg15) (V c main_v72) (V c main_v74) :=
  (dat3 V c).arrAt_eq_of_cover 4 _ (fun t _ => flushed3 V c t) cover3

end Cert.KernelIdeal.RegionValue

end
-- ==== Proof.KFold3.lean ====
/-
  The kernel program's fold, fourth part: the segment sum of the cluster edge messages, and the fourth region.

  The fourth region applies the cluster-to-particle layer and the lower half of the last layer's matrix to the 2048
  cluster rows themselves.
-/
import proofs.«162206_j37220186587417_2_alg».proof.Proof.Gen.KernelIdeal.Frame
import proofs.«162206_j37220186587417_2_alg».proof.Proof.Gen.ReferenceIdeal.Read
import proofs.«162206_j37220186587417_2_alg».proof.Proof.NetSpec
import proofs.«162206_j37220186587417_2_alg».proof.Proof.HostStages
import proofs.«162206_j37220186587417_2_alg».proof.Proof.KFold2
import proofs.«162206_j37220186587417_2_alg».proof.Proof.Region3
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 1000000 in
theorem W7_v71 : W7 (F := Ideal) m ρ c (Proc.devRef .tc main_v71) = Cert.ReferenceIdeal.Read.val_main_v82 (F := Ideal) (m ((c : Thread nD τ).loc main_arg0)) (m ((c : Thread nD τ).loc main_arg2)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  dsimp only [W7, hostOps3]; after_results_simp
  rw [W6_v66 m ρ c, W6_arg4 m ρ c]
  delta Cert.ReferenceIdeal.Read.val_main_v82 Cert.ReferenceIdeal.Read.val_main_v80 Cert.ReferenceIdeal.Read.val_main_cst_11 Cert.ReferenceIdeal.Read.val_main_v81 Cert.ReferenceIdeal.Read.val_main_v79 Cert.ReferenceIdeal.Read.val_main_v78
  dsimp only
  rfl

set_option maxHeartbeats 1000000 in
theorem W7_v72 : W7 (F := Ideal) m ρ c (Proc.devRef .tc main_v72) = shapeCast S1x128 (m ((c : Thread nD τ).loc main_arg16)) shapeCasts_S128_S1x128 := by
  dsimp only [W7, hostOps3]; after_results_simp
  rw [W6_arg16 m ρ c]
  all_goals first | rfl | (dsimp only; rfl)

set_option maxHeartbeats 1000000 in
theorem W7_v73 : W7 (F := Ideal) m ρ c (Proc.devRef .tc main_v73) = extractStridedSlice S128x128 ![0, 0] (m ((c : Thread nD τ).loc main_arg17)) slices_S256x128_S128x128_0_0 := by
  dsimp only [W7, hostOps3]; after_results_simp
  rw [W6_arg17 m ρ c]
  all_goals first | rfl | (dsimp only; rfl)

set_option maxHeartbeats 1000000 in
theorem W7_v74 : W7 (F := Ideal) m ρ c (Proc.devRef .tc main_v74) = extractStridedSlice S128x128 ![128, 0] (m ((c : Thread nD τ).loc main_arg17)) slices_S256x128_S128x128_128_0 := by
  dsimp only [W7, hostOps3]; after_results_simp
  rw [W6_arg17 m ρ c]
  all_goals first | rfl | (dsimp only; rfl)

set_option maxHeartbeats 1000000 in
theorem W7_v75 : W7 (F := Ideal) m ρ c (Proc.devRef .tc main_v75) = shapeCast S1x128 (m ((c : Thread nD τ).loc main_arg18)) shapeCasts_S128_S1x128 := by
  dsimp only [W7, hostOps3]; after_results_simp
  rw [W6_arg18 m ρ c]
  all_goals first | rfl | (dsimp only; rfl)

set_option maxHeartbeats 1000000 in
theorem W7_arg15 : W7 (F := Ideal) m ρ c (Proc.devRef .tc main_arg15) = (m ((c : Thread nD τ).loc main_arg15)) := by
  dsimp only [W7, hostOps3]; after_results_simp
  exact W6_arg15 m ρ c

set_option maxHeartbeats 1000000 in
theorem W7_v28 : W7 (F := Ideal) m ρ c (Proc.devRef .tc main_v28) = Cert.ReferenceIdeal.Read.val_main_v32 (F := Ideal) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) := by
  dsimp only [W7, hostOps3]; after_results_simp
  exact W6_v28 m ρ c

set_option maxHeartbeats 1000000 in
/-- The fourth region's output: the rectified layer and the projection of the reference's cluster messages. -/
theorem W8_v76 : W8 (F := Ideal) m ρ c (Proc.devRef .tc main_v76) = (Cert.Net.hoist (E := 2048) (Cert.ReferenceIdeal.Read.val_main_v82 (F := Ideal) (m ((c : Thread nD τ).loc main_arg0)) (m ((c : Thread nD τ).loc main_arg2)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg15)) (shapeCast S1x128 (m ((c : Thread nD τ).loc main_arg16)) shapeCasts_S128_S1x128) (extractStridedSlice S128x128 ![128, 0] (m ((c : Thread nD τ).loc main_arg17)) slices_S256x128_S128x128_128_0)) := by
  refine (W8_arr m ρ c 4).trans ?_
  rw [Cert.KernelIdeal.RegionValue.region3 (V7 m ρ) c]
  show Cert.Net.hoist (E := 2048) (W7 (F := Ideal) m ρ c (Proc.devRef .tc main_v71)) (W7 (F := Ideal) m ρ c (Proc.devRef .tc main_arg15)) (W7 (F := Ideal) m ρ c (Proc.devRef .tc main_v72)) (W7 (F := Ideal) m ρ c (Proc.devRef .tc main_v74)) = _
  rw [W7_v71, W7_arg15, W7_v72, W7_v74]

set_option maxHeartbeats 1000000 in
theorem W8_v73 : W8 (F := Ideal) m ρ c (Proc.devRef .tc main_v73) = extractStridedSlice S128x128 ![0, 0] (m ((c : Thread nD τ).loc main_arg17)) slices_S256x128_S128x128_0_0 := by
  rw [W8_of_ne m ρ c main_v73 (by decide)]
  exact W7_v73 m ρ c

set_option maxHeartbeats 1000000 in
theorem W8_v75 : W8 (F := Ideal) m ρ c (Proc.devRef .tc main_v75) = shapeCast S1x128 (m ((c : Thread nD τ).loc main_arg18)) shapeCasts_S128_S1x128 := by
  rw [W8_of_ne m ρ c main_v75 (by decide)]
  exact W7_v75 m ρ c

set_option maxHeartbeats 1000000 in
theorem W8_v28 : W8 (F := Ideal) m ρ c (Proc.devRef .tc main_v28) = Cert.ReferenceIdeal.Read.val_main_v32 (F := Ideal) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) := by
  rw [W8_of_ne m ρ c main_v28 (by decide)]
  exact W7_v28 m ρ c

set_option maxHeartbeats 1000000 in
theorem W8_arg2 : W8 (F := Ideal) m ρ c (Proc.devRef .tc main_arg2) = (m ((c : Thread nD τ).loc main_arg2)) := by
  rw [W8_of_ne m ρ c main_arg2 (by decide)]
  dsimp only [W7, hostOps3]; after_results_simp
  exact W6_arg2 m ρ c

end Cert.KernelIdeal.Fold

end
-- ==== Proof.Region4.lean ====
/-
  The last layer over the 200000 feature rows, tile by tile.

  The layer acts row by row: row n of the result is max(P[n]·W + Q[n] + b, 0), the lower half Q of the product
  handed in. The region walks the rows in 50 tiles of 4000; at tile t its body reads rows 4000t … 4000t + 3999 of
  P and of Q, the whole of W and of b, and stores the layer of those blocks. A row of a block is row 4000t + p of its
  array, the layer of the blocks at (p, q) is therefore the layer of the arrays at (4000t + p, q), the tiles cover
  every row, and the result array ends holding the layer of P and Q.
-/
import proofs.«162206_j37220186587417_2_alg».proof.Proof.Gen.KernelIdeal.Frame
import proofs.«162206_j37220186587417_2_alg».proof.Proof.NetSpec
import proofs.«162206_j37220186587417_2_alg».proof.Proof.RegionShared
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx

/-- The body's value on blocks of rows: the layer at the blocks' size. -/
theorem pay4_eq (x0 x1 : FVec Ideal S4000x128 .bf16) (x2 : FVec Ideal S128x128 .f32) (x3 : FVec Ideal S1x128 .f32) :
    k4_pay1 (F := Ideal) x0 x1 x2 x3 = Cert.Net.fin (E := 4000) x0 x1 x2 x3 := by
  funext i
  obtain ⟨p, q, rfl⟩ : ∃ (p : Fin 4000) (q : Fin 128), i = ix2 p q := ⟨i 0, i 1, eq_ix2 i⟩
  unfold k4_pay1
  refine (Cert.Dense.tileRelu_apply 4000 128 _ (ix2 p q)).trans ?_
  refine (congrArg (fun z => max z 0) ?_).trans (Cert.Net.fin_apply x0 x1 x2 x3 p q).symm
  refine (Cert.Dense.tileAddRow_apply 4000 128 _ _ _ x3 p q).trans ?_
  refine congrArg (fun z => z + x3 (ix2 (0 : Fin 1) q)) ?_
  refine (addf_apply _ _ (ix2 p q)).trans ?_
  refine congr (congrArg HAdd.hAdd ?_) ?_
  · rw [dot4000_plain]
    refine (Cert.LibPlainContract.matmul_plain_apply 4000 128 128 none _ _ p q).trans ?_
    refine Finset.sum_congr rfl (fun k _ => ?_)
    rw [shapeCast_self, shapeCast_self]
    rfl
  · rw [shapeCast_self]
    rfl

variable (V : (c : Dev nD) → (b : Ref sig .tc) → Buf (Elt Ideal) ((c : Thread nD τ).loc b))

/-- Where the blocks sit: at tile t the two row arrays' blocks and the result's block have index (t, 0), the
    weights' and the bias's block index (0, 0). -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row p of tile t's block of P is row 4000t + p of P. -/
theorem blk4_0 (c : Dev nD) (t : Fin cfg4.N) (p : Fin 4000) (j : Fin 128) (h : t.val * 4000 + p.val < 200000) :
    (iblk4 V c 0 t : S4000x128.Idx → EReal) (ix2 p j)
      = (V c main_v84 : S200000x128.Idx → EReal) (ix2 ⟨t.val * 4000 + p.val, h⟩ j) := by
  obtain ⟨e0, e1, -⟩ := idx4 t
  unfold iblk4
  rw [View.read_apply]
  show V c main_v84 _ = V c main_v84 _
  refine congrArg (V c main_v84) ?_
  funext a; apply Fin.ext
  match a with
  | ⟨0, _⟩ => show win4_0.index t (0 : Fin 2) * 4000 + 1 * p.val = t.val * 4000 + p.val; omega
  | ⟨1, _⟩ => show win4_0.index t (1 : Fin 2) * 128 + 1 * j.val = j.val; omega

/-- Row p of tile t's block of Q is row 4000t + p of Q. -/
theorem blk4_1 (c : Dev nD) (t : Fin cfg4.N) (p : Fin 4000) (j : Fin 128) (h : t.val * 4000 + p.val < 200000) :
    (iblk4 V c 1 t : S4000x128.Idx → EReal) (ix2 p j)
      = (V c main_v83 : S200000x128.Idx → EReal) (ix2 ⟨t.val * 4000 + p.val, h⟩ j) := by
  obtain ⟨-, -, e0, e1, -⟩ := idx4 t
  unfold iblk4
  rw [View.read_apply]
  show V c main_v83 _ = V c main_v83 _
  refine congrArg (V c main_v83) ?_
  funext a; apply Fin.ext
  match a with
  | ⟨0, _⟩ => show win4_1.index t (0 : Fin 2) * 4000 + 1 * p.val = t.val * 4000 + p.val; omega
  | ⟨1, _⟩ => show win4_1.index t (1 : Fin 2) * 128 + 1 * j.val = j.val; omega

/-- The weights' block is the whole of W at every tile. -/
theorem blk4_2 (c : Dev nD) (t : Fin cfg4.N) (k : Fin 128) (j : Fin 128) :
    (iblk4 V c 2 t : S128x128.Idx → EReal) (ix2 k j) = (V c main_v73 : S128x128.Idx → EReal) (ix2 k j) := by
  obtain ⟨-, -, -, -, e0, e1, -⟩ := idx4 t
  unfold iblk4
  rw [View.read_apply]
  show V c main_v73 _ = V c main_v73 _
  refine congrArg (V c main_v73) ?_
  funext a; apply Fin.ext
  match a with
  | ⟨0, _⟩ => show win4_2.index t (0 : Fin 2) * 128 + 1 * k.val = k.val; omega
  | ⟨1, _⟩ => show win4_2.index t (1 : Fin 2) * 128 + 1 * j.val = j.val; omega

/-- The bias's block is the whole of b at every tile. -/
theorem blk4_3 (c : Dev nD) (t : Fin cfg4.N) (k : Fin 1) (j : Fin 128) :
    (iblk4 V c 3 t : S1x128.Idx → EReal) (ix2 k j) = (V c main_v75 : S1x128.Idx → EReal) (ix2 k j) := by
  obtain ⟨-, -, -, -, -, -, e0, e1, -⟩ := idx4 t
  unfold iblk4
  rw [View.read_apply]
  show V c main_v75 _ = V c main_v75 _
  refine congrArg (V c main_v75) ?_
  funext a; apply Fin.ext
  match a with
  | ⟨0, _⟩ => show win4_3.index t (0 : Fin 2) * 1 + 1 * k.val = k.val; omega
  | ⟨1, _⟩ => show win4_3.index t (1 : Fin 2) * 128 + 1 * j.val = j.val; omega

/-- What tile t writes back is block t of the layer of P and Q. -/
theorem flushed4 (c : Dev nD) (t : Fin cfg4.N) :
    (dat4 (F := Ideal) V c).flushed 4 t = ((cfg4.win 4).blk t).view.read (Elt Ideal)
      (Cert.Net.fin (E := 200000) (V c main_v84) (V c main_v83) (V c main_v73) (V c main_v75)) := by
  show (cfg4.win 4).cut (grid4.coords t) ((dat4 V c).after 4 t) = _
  rw [after4_4]
  unfold out4_4
  rw [View.canon_unit_zero hz]
  simp only [View.ld_unit_zero (S := S4000x128) hz, View.ld_unit_zero (S := S128x128) hz, View.ld_unit_zero (S := S1x128) hz]
  rw [pay4_eq]
  funext y
  obtain ⟨p, q, rfl⟩ : ∃ (p : Fin 4000) (q : Fin 128), y = ix2 p q := ⟨y 0, y 1, eq_ix2 y⟩
  have ht : t.val < 50 := by have h := t.isLt; have hN : cfg4.N = 50 := N_4; omega
  have hrow : t.val * 4000 + p.val < 200000 := by have := p.isLt; omega
  obtain ⟨-, -, -, -, -, -, -, -, e0, e1⟩ := idx4 t
  have hemb : ((cfg4.win 4).blk t).view.emb (ix2 p q) = (ix2 ⟨t.val * 4000 + p.val, hrow⟩ q : S200000x128.Idx) := by
    funext a; apply Fin.ext
    match a with
    | ⟨0, _⟩ => show win4_4.index t (0 : Fin 2) * 4000 + 1 * p.val = t.val * 4000 + p.val; omega
    | ⟨1, _⟩ => show win4_4.index t (1 : Fin 2) * 128 + 1 * q.val = q.val; omega
  rw [View.read_apply]
  show Cert.Net.fin (E := 4000) (iblk4 V c 0 t) (iblk4 V c 1 t) (iblk4 V c 2 t) (iblk4 V c 3 t) (ix2 p q)
      = Cert.Net.fin (E := 200000) (V c main_v84) (V c main_v83) (V c main_v73) (V c main_v75) (((cfg4.win 4).blk t).view.emb (ix2 p q))
  rw [hemb, Cert.Net.fin_apply, Cert.Net.fin_apply]
  refine congrArg (fun z => max z 0) ?_
  refine congr (congrArg HAdd.hAdd ?_) (blk4_3 V c t 0 q)
  refine congr (congrArg HAdd.hAdd (Finset.sum_congr rfl fun j _ => ?_)) (blk4_1 V c t p q hrow)
  exact congr (congrArg HMul.hMul (blk4_0 V c t p j hrow)) (blk4_2 V c t j q)

/-- An index is in tile t's block iff each coordinate is in the block's range on its axis. -/
theorem mem_blk4 (t : Fin cfg4.N) (i : S200000x128.Idx) :
    i ∈ ((cfg4.win 4).blk t).view.set ↔ ∀ a : Fin 2, win4_4.index t a * S4000x128.size a ≤ (i a).val ∧ (i a).val < win4_4.index t a * S4000x128.size a + S4000x128.size a := by
  show i ∈ ((View.whole main_v85).slice (win4_4.rect t)).set ↔ _
  rw [View.set_slice_whole, Rect.mem_set_unit]
  exact Iff.rfl

/-- Row r lies in tile r / 4000: the tiles cover the array. -/
theorem cover4 (i : S200000x128.Idx) :
    ∃ t : Fin cfg4.N, (cfg4.win 4).flush t = true ∧ i ∈ ((cfg4.win 4).blk t).view.set := by
  have hi0 : (i 0).val < 200000 := (i 0).isLt
  have hi1 : (i 1).val < 128 := (i 1).isLt
  have hN : cfg4.N = 50 := N_4
  let t : Fin cfg4.N := ⟨(i 0).val / 4000, by rw [hN]; omega⟩
  have htv : t.val = (i 0).val / 4000 := rfl
  obtain ⟨-, -, -, -, -, -, -, -, e0, e1⟩ := idx4 t
  refine ⟨t, flush4_4 t, ?_⟩
  rw [mem_blk4]
  intro a
  match a with
  | ⟨0, _⟩ => show win4_4.index t (0 : Fin 2) * 4000 ≤ (i 0).val ∧ (i 0).val < win4_4.index t (0 : Fin 2) * 4000 + 4000; omega
  | ⟨1, _⟩ => show win4_4.index t (1 : Fin 2) * 128 ≤ (i 1).val ∧ (i 1).val < win4_4.index t (1 : Fin 2) * 128 + 128; omega

/-- The result array after the region's write-backs is the layer of P and Q. -/
theorem region4 (c : Dev nD) :
    (dat4 (F := Ideal) V c).arrAt 4 cfg4.N = Cert.Net.fin (E := 200000) (V c main_v84) (V c main_v83) (V c main_v73) (V c main_v75) :=
  (dat4 V c).arrAt_eq_of_cover 4 _ (fun t _ => flushed4 V c t) cover4

end Cert.KernelIdeal.RegionValue

end
-- ==== Proof.KFold4.lean ====
/-
  The kernel program's fold, last part: the gather of the transformed cluster rows by cluster index, and the last region.

  The last region adds, to each particle's message times the upper half of the last layer's matrix, the gathered row
  and the bias, and rectifies. A gather of whole rows commutes with the row-by-row layer applied before it, and the
  product with the stacked matrix splits into its halves: the result is the reference's last stage.
-/
import proofs.«162206_j37220186587417_2_alg».proof.Proof.Gen.KernelIdeal.Frame
import proofs.«162206_j37220186587417_2_alg».proof.Proof.Gen.ReferenceIdeal.Read
import proofs.«162206_j37220186587417_2_alg».proof.Proof.NetSpec
import proofs.«162206_j37220186587417_2_alg».proof.Proof.HostStages
import proofs.«162206_j37220186587417_2_alg».proof.Proof.KFold3
import proofs.«162206_j37220186587417_2_alg».proof.Proof.Region4
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 1000000 in
theorem W9_v83 : W9 (F := Ideal) m ρ c (Proc.devRef .tc main_v83) = (Host.gather gather_S2048x128_S200000x1_S200000x128_1_0_n_n_0_1_1128 (Cert.Net.hoist (E := 2048) (Cert.ReferenceIdeal.Read.val_main_v82 (F := Ideal) (m ((c : Thread nD τ).loc main_arg0)) (m ((c : Thread nD τ).loc main_arg2)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg15)) (shapeCast S1x128 (m ((c : Thread nD τ).loc main_arg16)) shapeCasts_S128_S1x128) (extractStridedSlice S128x128 ![128, 0] (m ((c : Thread nD τ).loc main_arg17)) slices_S256x128_S128x128_128_0)) (Cert.ReferenceIdeal.Read.val_main_v88 (F := Ideal) (m ((c : Thread nD τ).loc main_arg2)))) := by
  dsimp only [W9, hostOps4]; after_results_simp
  rw [W8_v76 m ρ c, W8_arg2 m ρ c]
  delta Cert.ReferenceIdeal.Read.val_main_v88 Cert.ReferenceIdeal.Read.val_main_v87 Cert.ReferenceIdeal.Read.val_main_v84 Cert.ReferenceIdeal.Read.val_main_v83 Cert.ReferenceIdeal.Read.val_main_c_12 Cert.ReferenceIdeal.Read.val_main_v86 Cert.ReferenceIdeal.Read.val_main_v85 Cert.ReferenceIdeal.Read.val_main_c_13
  dsimp only
  all_goals rfl

set_option maxHeartbeats 1000000 in
theorem W9_v84 : W9 (F := Ideal) m ρ c (Proc.devRef .tc main_v84) = (truncf .bf16 ((Cert.ReferenceIdeal.Read.val_main_v32 (F := Ideal) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8))) : FVec Ideal S200000x128 .f32) bitsLt_bf16_f32 : FVec Ideal S200000x128 .bf16) := by
  dsimp only [W9, hostOps4]; after_results_simp
  rw [W8_v28 m ρ c]

set_option maxHeartbeats 1000000 in
theorem W9_v73 : W9 (F := Ideal) m ρ c (Proc.devRef .tc main_v73) = extractStridedSlice S128x128 ![0, 0] (m ((c : Thread nD τ).loc main_arg17)) slices_S256x128_S128x128_0_0 := by
  dsimp only [W9, hostOps4]; after_results_simp
  exact W8_v73 m ρ c

set_option maxHeartbeats 1000000 in
theorem W9_v75 : W9 (F := Ideal) m ρ c (Proc.devRef .tc main_v75) = shapeCast S1x128 (m ((c : Thread nD τ).loc main_arg18)) shapeCasts_S128_S1x128 := by
  dsimp only [W9, hostOps4]; after_results_simp
  exact W8_v75 m ρ c

/-- At exact values a narrowing of the float format is the identity. -/
theorem truncf_bf16_id {s : Shape} (x : FVec Ideal s .f32) (h : FTy.bf16.bits < FTy.f32.bits) :
    (truncf .bf16 x h : FVec Ideal s .bf16) = x := rfl

set_option maxHeartbeats 1000000 in
/-- The kernel program's result array is the reference's last stage of the argument arrays. -/
theorem result_eq : W10 (F := Ideal) m ρ c (Proc.devRef .tc main_v85) = Cert.ReferenceIdeal.Read.val_main_v100 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W10_arr m ρ c 4).trans ?_
  rw [Cert.KernelIdeal.RegionValue.region4 (V9 m ρ) c]
  show Cert.Net.fin (E := 200000) (W9 (F := Ideal) m ρ c (Proc.devRef .tc main_v84)) (W9 (F := Ideal) m ρ c (Proc.devRef .tc main_v83)) (W9 (F := Ideal) m ρ c (Proc.devRef .tc main_v73)) (W9 (F := Ideal) m ρ c (Proc.devRef .tc main_v75)) = _
  rw [W9_v84, W9_v83, W9_v73, W9_v75]
  rw [truncf_bf16_id]
  delta Cert.ReferenceIdeal.Read.val_main_v100 Cert.ReferenceIdeal.Read.val_main_v99 Cert.ReferenceIdeal.Read.val_main_v96 Cert.ReferenceIdeal.Read.val_main_v95 Cert.ReferenceIdeal.Read.val_main_v94 Cert.ReferenceIdeal.Read.val_main_v93 Cert.ReferenceIdeal.Read.val_main_v90 Cert.ReferenceIdeal.Read.val_main_v89 Cert.ReferenceIdeal.Read.val_main_v92 Cert.ReferenceIdeal.Read.val_main_v91 Cert.ReferenceIdeal.Read.val_main_call3_v0 Cert.ReferenceIdeal.Read.val_main_call3_cst Cert.ReferenceIdeal.Read.val_main_v98 Cert.ReferenceIdeal.Read.val_main_v97 Cert.ReferenceIdeal.Read.val_main_call4_v0 Cert.ReferenceIdeal.Read.val_main_call4_cst
  exact (Cert.Net.host_fin_eq (N := 200000) (C := 2048) (by decide) (Cert.ReferenceIdeal.Read.val_main_v32 (F := Ideal) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8))) (Cert.ReferenceIdeal.Read.val_main_v82 (F := Ideal) (m ((c : Thread nD τ).loc main_arg0)) (m ((c : Thread nD τ).loc main_arg2)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (Cert.ReferenceIdeal.Read.val_main_v88 (F := Ideal) (m ((c : Thread nD τ).loc main_arg2))) (m ((c : Thread nD τ).loc main_arg15)) (m ((c : Thread nD τ).loc main_arg16)) (m ((c : Thread nD τ).loc main_arg18)) (m ((c : Thread nD τ).loc main_arg17))
    gather_S2048x128_S200000x1_S200000x128_1_0_n_n_0_1_1128_wf
    Cert.ReferenceIdeal.Facts₀.concatenates_S200000x128_S200000x128_S200000x256_d1 Cert.ReferenceIdeal.Facts₀.bcast_S128_S1x128_1 Cert.ReferenceIdeal.Facts₀.bcast_S1x128_S200000x128_0_1 Cert.ReferenceIdeal.Facts₀.bcast_S_S200000x128
    slices_S256x128_S128x128_0_0 slices_S256x128_S128x128_128_0 shapeCasts_S128_S1x128).symm

end Cert.KernelIdeal.Fold

end
-- ==== Proof.lean ====
/-
  The certificate of the two-level message-passing step: a tiled kernel program against its array reference.

  Both programs compute, for 200000 particles with 128 features in 2048 clusters, one round of message passing:
  messages along 500000 particle edges (a two-layer perceptron of the two end rows, summed into the receiving particle),
  a rectified linear layer of the particles averaged per cluster, messages along 65536 cluster edges summed into the
  receiving cluster, and a last rectified layer of each particle's own message beside its cluster's transformed message.
  The kernel program runs every dense stage as a tiled region over blocks of rows and keeps the gathers and the segment
  sums as host operations; it multiplies the two halves of each stacked weight matrix separately (a concatenated row
  [s, r] times [A; B] is s·A + r·B), and it applies the cluster-to-particle layer to the 2048 cluster rows BEFORE the
  gather by cluster index instead of to the 200000 gathered rows after it (a gather of whole rows commutes with any
  row-by-row function). At exact (extended real) values a change of float format is the identity, so the two programs
  compute one function of the argument arrays; the only law used is that a finite sum over 256 indices splits at 128,
  which holds on the extended reals with no finiteness asked.

  The frames are the generated ones (the reference's is its generated run with the result dropped); the kernel's value
  is read off the program's fold through its ten segments (Proof/KFold0.lean to Proof/KFold4.lean over the region values Proof/Region*.lean
  and the host stages Proof/HostStages.lean), the run with the result named is Proof/KRun.lean.
-/
import proofs.«162206_j37220186587417_2_alg».proof.Defs
import proofs.«162206_j37220186587417_2_alg».proof.Proof.Gen.Kernel
import proofs.«162206_j37220186587417_2_alg».proof.Proof.Gen.Kernel.Skeleton
import proofs.«162206_j37220186587417_2_alg».proof.Proof.Gen.Kernel.Launch
import proofs.«162206_j37220186587417_2_alg».proof.Proof.Gen.Kernel.Points
import proofs.«162206_j37220186587417_2_alg».proof.Proof.Gen.Kernel.Frame
import proofs.«162206_j37220186587417_2_alg».proof.Proof.Gen.KernelIdeal
import proofs.«162206_j37220186587417_2_alg».proof.Proof.Gen.KernelIdeal.Skeleton
import proofs.«162206_j37220186587417_2_alg».proof.Proof.Gen.KernelIdeal.Launch
import proofs.«162206_j37220186587417_2_alg».proof.Proof.Gen.KernelIdeal.Points
import proofs.«162206_j37220186587417_2_alg».proof.Proof.Gen.KernelIdeal.Frame
import proofs.«162206_j37220186587417_2_alg».proof.Proof.Gen.ReferenceIdeal
import proofs.«162206_j37220186587417_2_alg».proof.Proof.Gen.Pre_finite_inputs
import proofs.«162206_j37220186587417_2_alg».proof.Proof.Gen.ReferenceIdeal.Run
import proofs.«162206_j37220186587417_2_alg».proof.Proof.Gen.ReferenceIdeal.Read
import proofs.«162206_j37220186587417_2_alg».proof.Proof.KRun
import proofs.«162206_j37220186587417_2_alg».proof.Proof.KFold4
import Idealize.ShloMosaic.Adequacy
import Idealize.ShloMosaic.Init

noncomputable section

namespace Cert.Proof

open Idealize.ShloMosaic Idealize.ShloMosaic.TcCoe Idealize.SL.Sem

/-- At exact values the kernel program's result array is the reference's last stage of the argument arrays (the fold
    of the kernel program, Proof/KFold4.lean), and the reference's result is that stage of its own arguments, which
    agree with the kernel's. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.ReferenceIdeal.Read.val_main_v100 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)), ?_, ?_⟩
  · exact (θ_run Cert.KernelIdeal.defs _ _).mono
      (fun _ h c => ⟨(h c).1.trans (Cert.KernelIdeal.Fold.result_eq m ρ c), (h c).2⟩)
      (Cert.KernelIdeal.Value.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18⟩ := hagree c
    rw [Cert.ReferenceIdeal.Read.val_main_v100_eq, e0, e2, e3, e4, e5, e6, e7, e8, e9, e10, e11, e12, e13, e14, e15, e16, e17, e18]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
